-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x128 .f32) (main_arg1 : IVec S2x262144 32) (main_arg2 : FVec F S128x128 .f32) (main_arg3 : FVec F S128 .f32) (main_arg4 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S1x128 : Shape := ⟨2, ![1, 128]⟩
abbrev S2048x128 : Shape := ⟨2, ![2048, 128]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192x1 : Shape := ⟨2, ![8192, 1]⟩
abbrev S2048x2048 : Shape := ⟨2, ![2048, 2048]⟩
abbrev S2048x1 : Shape := ⟨2, ![2048, 1]⟩
abbrev S2048 : Shape := ⟨1, ![2048]⟩

abbrev nBuf : Space → Nat
  | .hbm => 65
  | .vmem => 21
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S8192x128, .f32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S_, .bf16⟩
  | .hbm, ⟨12, _⟩ => ⟨S8192x8192, .bf16⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144x1, .i32⟩
  | .hbm, ⟨29, _⟩ => ⟨S262144x2, .i32⟩
  | .hbm, ⟨30, _⟩ => ⟨S_, .bf16⟩
  | .hbm, ⟨31, _⟩ => ⟨S262144, .bf16⟩
  | .hbm, ⟨32, _⟩ => ⟨S8192x8192, .bf16⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S_, .i32⟩
  | .hbm, ⟨41, _⟩ => ⟨S262144, .i32⟩
  | .hbm, ⟨42, _⟩ => ⟨S262144, .i1⟩
  | .hbm, ⟨43, _⟩ => ⟨S_, .i32⟩
  | .hbm, ⟨44, _⟩ => ⟨S262144, .i32⟩
  | .hbm, ⟨45, _⟩ => ⟨S262144, .i32⟩
  | .hbm, ⟨46, _⟩ => ⟨S262144, .i32⟩
  | .hbm, ⟨47, _⟩ => ⟨S262144x1, .i32⟩
  | .hbm, ⟨48, _⟩ => ⟨S262144x1, .i32⟩
  | .hbm, ⟨49, _⟩ => ⟨S262144x2, .i32⟩
  | .hbm, ⟨50, _⟩ => ⟨S_, .bf16⟩
  | .hbm, ⟨51, _⟩ => ⟨S262144, .bf16⟩
  | .hbm, ⟨52, _⟩ => ⟨S8192x8192, .bf16⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x128, .f32⟩
  | .hbm, ⟨61, _⟩ => ⟨S8192x128, .f32⟩
  | .hbm, ⟨62, _⟩ => ⟨S8192x128, .bf16⟩
  | .hbm, ⟨63, _⟩ => ⟨S1x128, .f32⟩
  | .hbm, ⟨64, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x2048, .bf16⟩
  | .local _ .vmem, ⟨7, _⟩ => ⟨S2048x2048, .bf16⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x2048, .bf16⟩
  | .local _ .vmem, ⟨12, _⟩ => ⟨S2048x2048, .bf16⟩
  | .local _ .vmem, ⟨13, _⟩ => ⟨S2048x128, .bf16⟩
  | .local _ .vmem, ⟨14, _⟩ => ⟨S2048x128, .bf16⟩
  | .local _ .vmem, ⟨15, _⟩ => ⟨S2048x1, .f32⟩
  | .local _ .vmem, ⟨16, _⟩ => ⟨S2048x1, .f32⟩
  | .local _ .vmem, ⟨17, _⟩ => ⟨S1x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_6 : BitVec 32 := 0#32
  let v15 : BitVec 1 := Scalar.cmpi .ne v14 c0_i32_6
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S2048x2048_S2048 : S2048x2048.Reduces [1] S2048
  shapeCasts_S2048_S2048x1 : S2048.ShapeCasts S2048x1
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  shapeCasts_S2048x128_S2048x128 : S2048x128.ShapeCasts S2048x128
  broadcasts_S2048x1_S2048x128 : S2048x1.Broadcasts S2048x128
  dot_S2048x128_S128x128_S2048x128_1_0_0_1_n_n_wf : DotDims.WF S2048x128 S128x128 S2048x128 [1] [0] [0] [1] [] []
  scatter_S8192x8192_S262144x2_S262144_n_01_01_1_wf : ScatterDims.WF S8192x8192 S262144x2 S262144 [] [0, 1] [0, 1] 1
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .f32 = 32 ∨ (Rect.block (s := S8192x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S8192x1.size a
  hwx1_1 : ∀ i : grid1.Coords, EltTy.bits .f32 = 32 ∨ (Rect.block (s := S8192x1) S2048x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .bf16 = 32 ∨ (Rect.block (s := S8192x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x128.size a ≤ S8192x128.size a
  hwx2_4 : ∀ i : grid2.Coords, EltTy.bits .f32 = 32 ∨ (Rect.block (s := S8192x128) S2048x128.size (cc2_transform_4 i) (hinb2_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2048x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v36) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S2048x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S1x128 : Shape := ⟨2, ![1, 128]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S8192x128, .f32⟩
  | .hbm, ⟨7, _⟩ => ⟨S1x128, .f32⟩
  | .hbm, ⟨8, _⟩ => ⟨S8192x128, .f32⟩
  | .hbm, ⟨9, _⟩ => ⟨S8192x128, .f32⟩
  | .hbm, ⟨10, _⟩ => ⟨S1x262144, .i32⟩
  | .hbm, ⟨11, _⟩ => ⟨S262144, .i32⟩
  | .hbm, ⟨12, _⟩ => ⟨S1x262144, .i32⟩
  | .hbm, ⟨13, _⟩ => ⟨S262144, .i32⟩
  | .hbm, ⟨14, _⟩ => ⟨S_, .f32⟩
  | .hbm, ⟨15, _⟩ => ⟨S8192x8192, .f32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144x1, .i32⟩
  | .hbm, ⟨32, _⟩ => ⟨S262144x2, .i32⟩
  | .hbm, ⟨33, _⟩ => ⟨S_, .f32⟩
  | .hbm, ⟨34, _⟩ => ⟨S262144, .f32⟩
  | .hbm, ⟨35, _⟩ => ⟨S8192x8192, .f32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S_, .i32⟩
  | .hbm, ⟨44, _⟩ => ⟨S262144, .i32⟩
  | .hbm, ⟨45, _⟩ => ⟨S262144, .i1⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S262144x1, .i32⟩
  | .hbm, ⟨51, _⟩ => ⟨S262144x1, .i32⟩
  | .hbm, ⟨52, _⟩ => ⟨S262144x2, .i32⟩
  | .hbm, ⟨53, _⟩ => ⟨S_, .f32⟩
  | .hbm, ⟨54, _⟩ => ⟨S262144, .f32⟩
  | .hbm, ⟨55, _⟩ => ⟨S8192x8192, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1, .f32⟩
  | .hbm, ⟨65, _⟩ => ⟨S8192x8192, .f32⟩
  | .hbm, ⟨66, _⟩ => ⟨S8192x8192, .f32⟩
  | .hbm, ⟨67, _⟩ => ⟨S1x8192, .f32⟩
  | .hbm, ⟨68, _⟩ => ⟨S8192x8192, .f32⟩
  | .hbm, ⟨69, _⟩ => ⟨S8192x8192, .f32⟩
  | .hbm, ⟨70, _⟩ => ⟨S8192x128, .f32⟩
  | .hbm, ⟨71, _⟩ => ⟨S1x128, .f32⟩
  | .hbm, ⟨72, _⟩ => ⟨S8192x128, .f32⟩
  | .hbm, ⟨73, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x128_S128x128_S8192x128_1_0_0_1_n_n_wf : DotDims.WF S8192x128 S128x128 S8192x128 [1] [0] [0] [1] [] []
  scatter_S8192x8192_S262144x2_S262144_n_01_01_1_wf : ScatterDims.WF S8192x8192 S262144x2 S262144 [] [0, 1] [0, 1] 1
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.BitsLinear.lean ====
/-
  The first kernel region: the linear layer. Its grid has four points; point `t` reads rows
  `2048·t … 2048·t + 2047` of the input matrix, the whole weight matrix and the bias row, and writes the
  same rows of the result: the product of the row block with the transposed weights plus the bias row,
  stored whole. Nothing is kept between points. Stated for any contents `V` of the buffers when the region
  is entered: each window's block, what the body leaves in the result's staging buffer, the body's triple,
  the pipeline's proof data and the body obligation at every point.
-/
import proofs.«133814_j53309134078171_1_alg».proof.Proof.Gen.Kernel.Launch
import proofs.«133814_j53309134078171_1_alg».proof.Proof.Gen.Kernel.Skeleton
import proofs.«133814_j53309134078171_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the input matrix is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row, fetched once, is in its staging buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a row block, of the weight matrix, of the bias row. -/
abbrev rX0 : Rect S2048x128 := Rect.unit (s := S2048x128) ![0, 0] S2048x128.size inb_S2048x128_S2048x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- What the body leaves in the result's staging buffer: its one store, over the whole buffer, of the
    product-plus-bias of the three blocks it read. -/
def lin0 (x0 : Vec F S2048x128 .f32) (x1 : Vec F S128x128 .f32) (x2 : Vec F S1x128 .f32) : Vec F S2048x128 .f32 :=
  View.canon [⟨rX0, k0_pay1 (View.ld x0 rX0) (View.ld x1 rW0) (View.ld x2 rB0)⟩]

/-- The one store covers the buffer. -/
theorem lin0_cover (p0 : Vec F S2048x128 .f32) (y : S2048x128.Idx) :
    ∃ pc ∈ ([⟨rX0, p0⟩] : List (View.Piece (Elt F) S2048x128 .f32)), y ∈ pc.1.set :=
  View.cover_of_tiled [⟨rX0, p0⟩] S2048x128.size (by rfl) y

set_option maxHeartbeats 1000000 in
/-- The body on whole staging memrefs: the three inputs are left as found and the result's buffer ends at `lin0` of them. -/
theorem sound_lin0 (c : Dev nD) (E : Set ℕ) (i : grid0.Coords) (arg1 : Memref sig .tc .vmem S2048x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2048x128 .f32) (harg4 : arg4.IsWhole)
    (x0 : Vec F S2048x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (lin0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lin0_cover _)

/-- The proof data of the region on core `c`: the arrays as the region finds them; after the body at point `t`
    each input's buffer at its block and the result's at `lin0` of the three blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => lin0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = lin0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_lin0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.BitsDegree.lean ====
/-
  The second kernel region: the row sums of the adjacency matrix. The grid is 4 × 4; point (i, k) reads the
  2048 × 2048 tile (i, k) of the matrix. A column of 2048 running totals is kept between the four points of a
  row of the grid: reset at k = 0, each point adds its tile's row sums, and at k = 3 the totals are stored
  into rows 2048·i … 2048·i + 2047 of the result, which is idle at the other points. Stated for any contents
  `V` of the buffers when the region is entered.
-/
import proofs.«133814_j53309134078171_1_alg».proof.Proof.Gen.Kernel.Launch
import proofs.«133814_j53309134078171_1_alg».proof.Proof.Gen.Kernel.Skeleton
import proofs.«133814_j53309134078171_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where a point sits in its row of four -/

/-- The body's first branch is taken: the point is the first of its row (the running total is reset). -/
abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 4 = 0 :=
  (by decide +kernel : ∀ t : Fin grid1.N, first1 (grid1.coords t) ↔ t.val % 4 = 0)
/-- The body's last branch is taken: the point is the last of its row (the result is stored). -/
abbrev last1 (i : grid1.Coords) : Prop := k1_cond2 i = 1#1
theorem hlast1 : ∀ t : Fin cfg1.N, last1 (grid1.coords t) ↔ t.val % 4 = 3 :=
  (by decide +kernel : ∀ t : Fin grid1.N, last1 (grid1.coords t) ↔ t.val % 4 = 3)

/-! ## Where the windows are idle -/
theorem live1_0 : ∀ t : Fin cfg1.N, cfg1.idle 0 (grid1.coords t) = false := by decide +kernel
theorem idleOut1_F : ∀ t : Fin cfg1.N, first1 (grid1.coords t) → ¬last1 (grid1.coords t) → cfg1.idle 1 (grid1.coords t) = true := by decide +kernel
theorem noFlush1_F : ∀ t : Fin cfg1.N, first1 (grid1.coords t) → ¬last1 (grid1.coords t) → (cfg1.win 1).flush t = false := by decide +kernel
theorem idleOut1_M : ∀ t : Fin cfg1.N, ¬first1 (grid1.coords t) → ¬last1 (grid1.coords t) → cfg1.idle 1 (grid1.coords t) = true := by decide +kernel
theorem noFlush1_M : ∀ t : Fin cfg1.N, ¬first1 (grid1.coords t) → ¬last1 (grid1.coords t) → (cfg1.win 1).flush t = false := by decide +kernel
theorem liveOut1_L : ∀ t : Fin cfg1.N, ¬first1 (grid1.coords t) → last1 (grid1.coords t) → cfg1.idle 1 (grid1.coords t) = false := by decide +kernel

/-! ## The staging memrefs, the running total's buffer -/

abbrev VO1 : View sig .tc .vmem S2048x1 .f32 := (Memref.whole cc1_stg1_0 : Memref sig .tc .vmem S2048x1 .f32).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev scM1 : Memref sig .tc .vmem S2048x1 .f32 := Memref.whole cc1_scratch0
abbrev VS1 : View sig .tc .vmem S2048x1 .f32 := scM1.view

/-- The scoped buffers of the other regions, which this region's body never touches: each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- Taking the running total's buffer out of the list of scoped buffers, and putting it back. -/
theorem takeScr1 (c : Dev nD) :
    (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f)) : sProp 𝕄)
      ⊢ iprop((∃ d : Buf (Elt F) ((c : Thread nD τ).loc cc1_scratch0), ((c : Thread nD τ).loc cc1_scratch0) ↦{fullShare} d) ∗ others1 (F := F) c) := by
  unfold others1
  iintro ⟨H0, H1, H2, H3, H4, H5, H6, H7, H8, H9, H10, H11, H12, H13, H14, H15, H16⟩
  isplitl [H6]; · iexact H6
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16
theorem putScr1 (c : Dev nD) :
    (iprop((∃ d : Buf (Elt F) ((c : Thread nD τ).loc cc1_scratch0), ((c : Thread nD τ).loc cc1_scratch0) ↦{fullShare} d) ∗ others1 (F := F) c) : sProp 𝕄)
      ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f)) := by
  unfold others1
  iintro ⟨HS, H0, H1, H2, H3, H4, H5, H7, H8, H9, H10, H11, H12, H13, H14, H15, H16⟩
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The class's invariant, with the running total's buffer owned at some contents beside the other regions' buffers. -/
theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA; rw [scopedRest1_eq]; simp only [scM1, owns_whole]
  exact congrArg (fun X : sProp 𝕄 => iprop(X ∗ ∃ r, prngReg c r)) (Idealize.SL.BI.Entails.antisymm (takeScr1 c) (putScr1 c))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body, position by position -/

set_option maxHeartbeats 4000000 in
/-- The body in the first position of a row of grid points: the pieces its stores leave in the result's buffer and in the running total, with the proof that it runs to them. -/
noncomputable def run1_F (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : first1 i) (hc1 : ¬last1 i)
    (x0 : Vec F S2048x2048 .bf16) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨[], ?_, fun xi1 E K => ?run⟩
  case run =>
    simp only [cc1__degree_kernel_eq_skeleton]; unfold cc1__degree_kernel_skel
    unfold owns
    iintro ⟨⟨%f0, %hf0, H0⟩, ⟨%fo1, %hfo1, HO⟩, ⟨%ds0, %fs0, -, HS0⟩, Hk⟩
    obtain rfl := harg2.eq_unread hf0; obtain rfl := harg3.eq_unread hfo1
    sl_exec (disch := first | exact hc0 | exact hc1)
    sl_step
    iapply Hk
    isplitl [H0]
    · iexists _; isplitr; · ipureintro; exact harg2.read_unread _
      iexact H0
    isplitl [HO]
    · iexists _; isplitr; · ipureintro; exact harg3.read_unread _
      iexact HO
    iexists _; iexact HS0

set_option maxHeartbeats 4000000 in
/-- The body in the middle position of a row of grid points: the pieces its stores leave in the result's buffer and in the running total, with the proof that it runs to them. -/
noncomputable def run1_M (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : ¬last1 i)
    (x0 : Vec F S2048x2048 .bf16) (xs0 : Vec F S2048x1 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨[], ?_, fun xi1 E K => ?run⟩
  case run =>
    simp only [cc1__degree_kernel_eq_skeleton]; unfold cc1__degree_kernel_skel
    unfold owns
    iintro ⟨⟨%f0, %hf0, H0⟩, ⟨%fo1, %hfo1, HO⟩, ⟨%fs0, %hfs0, HS0⟩, Hk⟩
    obtain rfl := harg2.eq_unread hf0; obtain rfl := harg3.eq_unread hfo1; obtain rfl := harg4.eq_unread hfs0
    sl_exec (disch := first | exact hc0 | exact hc1)
    sl_step
    iapply Hk
    isplitl [H0]
    · iexists _; isplitr; · ipureintro; exact harg2.read_unread _
      iexact H0
    isplitl [HO]
    · iexists _; isplitr; · ipureintro; exact harg3.read_unread _
      iexact HO
    iexists _; iexact HS0

set_option maxHeartbeats 4000000 in
/-- The body in the last position of a row of grid points: the pieces its stores leave in the result's buffer and in the running total, with the proof that it runs to them. -/
noncomputable def run1_L (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : last1 i)
    (x0 : Vec F S2048x2048 .bf16) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨?_, ?_, fun E K => ?run⟩
  case run =>
    simp only [cc1__degree_kernel_eq_skeleton]; unfold cc1__degree_kernel_skel
    unfold owns
    iintro ⟨⟨%f0, %hf0, H0⟩, ⟨%d1, %fo1, -, HO⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [HO]; · iexists _; iexact HO
    iexists _; iexact HS0

/-- What that position leaves in the result's staging buffer (nothing is stored: a placeholder nothing consults, the window being idle there). -/
def out1_F (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : first1 i) (hc1 : ¬last1 i)
    (x0 : Vec F S2048x2048 .bf16) : Vec F S2048x1 .f32 :=
  VO1.read (Elt F) (VO1.writes (Elt F) VO1.junk (run1_F c i arg2 harg2 arg3 harg3 arg4 harg4 hc0 hc1 x0).1)

/-- Its stores into the running total cover it. -/
theorem scover1_F (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : first1 i) (hc1 : ¬last1 i)
    (x0 : Vec F S2048x2048 .bf16) (y : S2048x1.Idx) :
    ∃ pc ∈ (run1_F c i arg2 harg2 arg3 harg3 arg4 harg4 hc0 hc1 x0).2.1, y ∈ pc.1.set :=
  View.cover_of_tiledL (run1_F c i arg2 harg2 arg3 harg3 arg4 harg4 hc0 hc1 x0).2.1 S2048x1.size (by sl_kernel_rfl) y

/-- What that position leaves in the running total. -/
def acc1_F (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : first1 i) (hc1 : ¬last1 i)
    (x0 : Vec F S2048x2048 .bf16) : Vec F S2048x1 .f32 :=
  VS1.read (Elt F) (VS1.writes (Elt F) VS1.junk (run1_F c i arg2 harg2 arg3 harg3 arg4 harg4 hc0 hc1 x0).2.1)

/-- What that position leaves in the result's staging buffer (nothing is stored: a placeholder nothing consults, the window being idle there). -/
def out1_M (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : ¬last1 i)
    (x0 : Vec F S2048x2048 .bf16) (xs0 : Vec F S2048x1 .f32) : Vec F S2048x1 .f32 :=
  VO1.read (Elt F) (VO1.writes (Elt F) VO1.junk (run1_M c i arg2 harg2 arg3 harg3 arg4 harg4 hc0 hc1 x0 xs0).1)

/-- Its stores into the running total cover it. -/
theorem scover1_M (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : ¬last1 i)
    (x0 : Vec F S2048x2048 .bf16) (xs0 : Vec F S2048x1 .f32) (y : S2048x1.Idx) :
    ∃ pc ∈ (run1_M c i arg2 harg2 arg3 harg3 arg4 harg4 hc0 hc1 x0 xs0).2.1, y ∈ pc.1.set :=
  View.cover_of_tiledL (run1_M c i arg2 harg2 arg3 harg3 arg4 harg4 hc0 hc1 x0 xs0).2.1 S2048x1.size (by sl_kernel_rfl) y

/-- What that position leaves in the running total. -/
def acc1_M (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : ¬last1 i)
    (x0 : Vec F S2048x2048 .bf16) (xs0 : Vec F S2048x1 .f32) : Vec F S2048x1 .f32 :=
  VS1.read (Elt F) (VS1.writes (Elt F) VS1.junk (run1_M c i arg2 harg2 arg3 harg3 arg4 harg4 hc0 hc1 x0 xs0).2.1)

/-- The stores of that position into the result's buffer cover it. -/
theorem ocover1_L (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : last1 i)
    (x0 : Vec F S2048x2048 .bf16) (xs0 : Vec F S2048x1 .f32) (y : S2048x1.Idx) :
    ∃ pc ∈ (run1_L c i arg2 harg2 arg3 harg3 arg4 harg4 hc0 hc1 x0 xs0).1, y ∈ pc.1.set :=
  View.cover_of_tiledL (run1_L c i arg2 harg2 arg3 harg3 arg4 harg4 hc0 hc1 x0 xs0).1 S2048x1.size (by sl_kernel_rfl) y

/-- What that position leaves in the result's staging buffer. -/
def out1_L (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : last1 i)
    (x0 : Vec F S2048x2048 .bf16) (xs0 : Vec F S2048x1 .f32) : Vec F S2048x1 .f32 :=
  VO1.read (Elt F) (VO1.writes (Elt F) VO1.junk (run1_L c i arg2 harg2 arg3 harg3 arg4 harg4 hc0 hc1 x0 xs0).1)

/-- Its stores into the running total cover it. -/
theorem scover1_L (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : last1 i)
    (x0 : Vec F S2048x2048 .bf16) (xs0 : Vec F S2048x1 .f32) (y : S2048x1.Idx) :
    ∃ pc ∈ (run1_L c i arg2 harg2 arg3 harg3 arg4 harg4 hc0 hc1 x0 xs0).2.1, y ∈ pc.1.set :=
  View.cover_of_tiledL (run1_L c i arg2 harg2 arg3 harg3 arg4 harg4 hc0 hc1 x0 xs0).2.1 S2048x1.size (by sl_kernel_rfl) y

/-- What that position leaves in the running total. -/
def acc1_L (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : last1 i)
    (x0 : Vec F S2048x2048 .bf16) (xs0 : Vec F S2048x1 .f32) : Vec F S2048x1 .f32 :=
  VS1.read (Elt F) (VS1.writes (Elt F) VS1.junk (run1_L c i arg2 harg2 arg3 harg3 arg4 harg4 hc0 hc1 x0 xs0).2.1)

/-! ## What the result's buffer and the running total hold after each point -/

/-- After the body at position `n`: the result's staging buffer and the running total, by recursion on the position —
    the first point of a row starts afresh, every other continues from what the point before left. -/
def tot1 (c : Dev nD) : (n : ℕ) → n < cfg1.N → Vec F S2048x1 .f32 × Vec F S2048x1 .f32
  | 0, hn => (out1_F c (grid1.coords ⟨0, hn⟩) (ms1_0 ⟨0, hn⟩) (hs1_0 ⟨0, hn⟩) (ms1_1 ⟨0, hn⟩) (hs1_1 ⟨0, hn⟩) scM1 (Memref.isWhole_whole _) ((hfirst1 ⟨0, hn⟩).mpr (Nat.zero_mod _)) (fun h => (fun h => by (try dsimp only at h); omega) ((hlast1 ⟨0, hn⟩).mp h)) (iblk1 V c 0 ⟨0, hn⟩), acc1_F c (grid1.coords ⟨0, hn⟩) (ms1_0 ⟨0, hn⟩) (hs1_0 ⟨0, hn⟩) (ms1_1 ⟨0, hn⟩) (hs1_1 ⟨0, hn⟩) scM1 (Memref.isWhole_whole _) ((hfirst1 ⟨0, hn⟩).mpr (Nat.zero_mod _)) (fun h => (fun h => by (try dsimp only at h); omega) ((hlast1 ⟨0, hn⟩).mp h)) (iblk1 V c 0 ⟨0, hn⟩))
  | n + 1, hn =>
    if h0 : (n + 1) % 4 = 0 then
      if h1 : (n + 1) % 4 = 3 then
        False.elim (by omega)
      else
        (out1_F c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) ((hfirst1 ⟨n + 1, hn⟩).mpr h0) (fun h => h1 ((hlast1 ⟨n + 1, hn⟩).mp h)) (iblk1 V c 0 ⟨n + 1, hn⟩), acc1_F c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) ((hfirst1 ⟨n + 1, hn⟩).mpr h0) (fun h => h1 ((hlast1 ⟨n + 1, hn⟩).mp h)) (iblk1 V c 0 ⟨n + 1, hn⟩))
    else
      if h1 : (n + 1) % 4 = 3 then
        (out1_L c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hfirst1 ⟨n + 1, hn⟩).mp h)) ((hlast1 ⟨n + 1, hn⟩).mpr h1) (iblk1 V c 0 ⟨n + 1, hn⟩) (tot1 c n (Nat.lt_of_succ_lt hn)).2, acc1_L c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hfirst1 ⟨n + 1, hn⟩).mp h)) ((hlast1 ⟨n + 1, hn⟩).mpr h1) (iblk1 V c 0 ⟨n + 1, hn⟩) (tot1 c n (Nat.lt_of_succ_lt hn)).2)
      else
        (out1_M c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hfirst1 ⟨n + 1, hn⟩).mp h)) (fun h => h1 ((hlast1 ⟨n + 1, hn⟩).mp h)) (iblk1 V c 0 ⟨n + 1, hn⟩) (tot1 c n (Nat.lt_of_succ_lt hn)).2, acc1_M c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hfirst1 ⟨n + 1, hn⟩).mp h)) (fun h => h1 ((hlast1 ⟨n + 1, hn⟩).mp h)) (iblk1 V c 0 ⟨n + 1, hn⟩) (tot1 c n (Nat.lt_of_succ_lt hn)).2)

theorem tot1_F (c : Dev nD) (t : Fin cfg1.N) (h0 : t.val % 4 = 0) (h1 : ¬t.val % 4 = 3) :
    tot1 V c t.val t.isLt = (out1_F c (grid1.coords t) (ms1_0 t) (hs1_0 t) (ms1_1 t) (hs1_1 t) scM1 (Memref.isWhole_whole _) ((hfirst1 t).mpr h0) (fun h => h1 ((hlast1 t).mp h)) (iblk1 V c 0 t), acc1_F c (grid1.coords t) (ms1_0 t) (hs1_0 t) (ms1_1 t) (hs1_1 t) scM1 (Memref.isWhole_whole _) ((hfirst1 t).mpr h0) (fun h => h1 ((hlast1 t).mp h)) (iblk1 V c 0 t)) := by
  obtain ⟨n, hn⟩ := t
  cases n with
  | zero => exact rfl
  | succ n => exact (dif_pos h0).trans ((dif_neg h1).trans rfl)

theorem tot1_M (c : Dev nD) (t : Fin cfg1.N) (h0 : ¬t.val % 4 = 0) (h1 : ¬t.val % 4 = 3) :
    tot1 V c t.val t.isLt = (out1_M c (grid1.coords t) (ms1_0 t) (hs1_0 t) (ms1_1 t) (hs1_1 t) scM1 (Memref.isWhole_whole _) (fun h => h0 ((hfirst1 t).mp h)) (fun h => h1 ((hlast1 t).mp h)) (iblk1 V c 0 t) (tot1 V c (t.val - 1) (Nat.lt_of_le_of_lt (Nat.sub_le _ _) t.isLt)).2, acc1_M c (grid1.coords t) (ms1_0 t) (hs1_0 t) (ms1_1 t) (hs1_1 t) scM1 (Memref.isWhole_whole _) (fun h => h0 ((hfirst1 t).mp h)) (fun h => h1 ((hlast1 t).mp h)) (iblk1 V c 0 t) (tot1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem tot1_L (c : Dev nD) (t : Fin cfg1.N) (h0 : ¬t.val % 4 = 0) (h1 : t.val % 4 = 3) :
    tot1 V c t.val t.isLt = (out1_L c (grid1.coords t) (ms1_0 t) (hs1_0 t) (ms1_1 t) (hs1_1 t) scM1 (Memref.isWhole_whole _) (fun h => h0 ((hfirst1 t).mp h)) ((hlast1 t).mpr h1) (iblk1 V c 0 t) (tot1 V c (t.val - 1) (Nat.lt_of_le_of_lt (Nat.sub_le _ _) t.isLt)).2, acc1_L c (grid1.coords t) (ms1_0 t) (hs1_0 t) (ms1_1 t) (hs1_1 t) scM1 (Memref.isWhole_whole _) (fun h => h0 ((hfirst1 t).mp h)) ((hlast1 t).mpr h1) (iblk1 V c 0 t) (tot1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the running total's
    buffer at what the point before left in it, and the generator register at some state. -/
def Inv1 (c : Dev nD) : (n : ℕ) → n ≤ cfg1.N → sProp 𝕄
  | 0, _ => Pipeline.ΦA spec1 c
  | n + 1, hn => iprop(iprop(owns (c : Thread nD τ) scM1 fullShare ((tot1 V c n hn).2) ∗ others1 (F := F) c) ∗ (∃ r, prngReg c r))

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(iprop(owns (c : Thread nD τ) scM1 fullShare ((tot1 V c n hn).2) ∗ others1 (F := F) c) ∗ (∃ r, prngReg c r)) := rfl
theorem Inv1_pos (c : Dev nD) (n : ℕ) (h : n ≤ cfg1.N) (hz : n ≠ 0) :
    Inv1 V c n h = iprop(iprop(owns (c : Thread nD τ) scM1 fullShare ((tot1 V c (n - 1) (by omega)).2) ∗ others1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (tot1 V c t.val t.isLt).1
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Inv1_castSucc (c : Dev nD) (t : Fin cfg1.N) :
    (dat1 V c).Φ t.castSucc = Inv1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (tot1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Inv1 V c (t.val + 1) t.isLt from rfl, Inv1_succ]
  have hN : t.val < 16 := lt_of_lt_of_eq t.isLt (show cfg1.N = 16 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [live1_0 t], after1_0]
      rw [Dat.leavesExact_idle (dat1 V c) 1 t (idleOut1_F t ((hfirst1 t).mpr h0) (fun h => h1 ((hlast1 t).mp h))) (noFlush1_F t ((hfirst1 t).mpr h0) (fun h => h1 ((hlast1 t).mp h)))]
      rw [tot1_F V c t h0 h1]
      unfold acc1_F; (try dsimp only)
      by_cases hz : t.val = 0
      ·
        rw [Inv1_castSucc V c t, Inv1_zero V c _ _ hz, PhiA1_eq]
        iintro ⟨⟨⟨HS0, Hoth⟩, Hg⟩, Ho, ⟨%d0, H0⟩, ⟨%dO, HO⟩⟩
        iapply ((run1_F c (grid1.coords t) _ _ _ _ _ _ ((hfirst1 t).mpr h0) (fun h => h1 ((hlast1 t).mp h)) (iblk1 V c 0 t)).2.2 _ Set.univ _)
        isplitl [H0]; · iexact H0
        isplitl [HO]; · iexact HO
        isplitl [HS0]; · iexact HS0
        iintro ⟨H0, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_F _ _ _ _ _ _ _ _ _ _ _)
            iexact Hoth
          iexact Hg
        isplitl [Ho]; · iexact Ho
        isplitl [H0]; · iexact H0
        iexists _; iexact HO
      ·
        rw [Inv1_castSucc V c t, Inv1_pos V c _ _ hz]
        iintro ⟨⟨⟨HS0, Hoth⟩, Hg⟩, Ho, ⟨%d0, H0⟩, ⟨%dO, HO⟩⟩
        iapply ((run1_F c (grid1.coords t) _ _ _ _ _ _ ((hfirst1 t).mpr h0) (fun h => h1 ((hlast1 t).mp h)) (iblk1 V c 0 t)).2.2 _ Set.univ _)
        isplitl [H0]; · iexact H0
        isplitl [HO]; · iexact HO
        isplitl [HS0]; · iexists _; iexact HS0
        iintro ⟨H0, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_F _ _ _ _ _ _ _ _ _ _ _)
            iexact Hoth
          iexact Hg
        isplitl [Ho]; · iexact Ho
        isplitl [H0]; · iexact H0
        iexists _; iexact HO
  · by_cases h1 : t.val % 4 = 3
    ·
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [liveOut1_L t (fun h => h0 ((hfirst1 t).mp h)) ((hlast1 t).mpr h1)], after1_1]
      rw [tot1_L V c t h0 h1]
      unfold out1_L acc1_L; (try dsimp only)
      by_cases hz : t.val = 0
      · exfalso; omega
      ·
        rw [Inv1_castSucc V c t, Inv1_pos V c _ _ hz]
        iintro ⟨⟨⟨HS0, Hoth⟩, Hg⟩, Ho, ⟨%d0, H0⟩, ⟨%dO, HO⟩⟩
        iapply ((run1_L c (grid1.coords t) _ _ _ _ _ _ (fun h => h0 ((hfirst1 t).mp h)) ((hlast1 t).mpr h1) (iblk1 V c 0 t) _).2.2 Set.univ _)
        isplitl [H0]; · iexact H0
        isplitl [HO]; · iexists _; iexact HO
        isplitl [HS0]; · iexact HS0
        iintro ⟨H0, ⟨%e1, HO⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_L _ _ _ _ _ _ _ _ _ _ _ _)
            iexact Hoth
          iexact Hg
        isplitl [Ho]; · iexact Ho
        isplitl [H0]; · iexact H0
        unfold owns; iexists _; isplitr
        swap; · iexact HO
        ipureintro; exact View.read_writes_of_cover _ _ _ _ _ (ocover1_L _ _ _ _ _ _ _ _ _ _ _ _)
    ·
      rw [show (dat1 V c).leavesExact 0 t = owns (c : Thread nD τ) (ms1_0 t) fullShare ((dat1 V c).after 0 t) from by
        unfold Dat.leavesExact; rw [live1_0 t], after1_0]
      rw [Dat.leavesExact_idle (dat1 V c) 1 t (idleOut1_M t (fun h => h0 ((hfirst1 t).mp h)) (fun h => h1 ((hlast1 t).mp h))) (noFlush1_M t (fun h => h0 ((hfirst1 t).mp h)) (fun h => h1 ((hlast1 t).mp h)))]
      rw [tot1_M V c t h0 h1]
      unfold acc1_M; (try dsimp only)
      by_cases hz : t.val = 0
      · exfalso; omega
      ·
        rw [Inv1_castSucc V c t, Inv1_pos V c _ _ hz]
        iintro ⟨⟨⟨HS0, Hoth⟩, Hg⟩, Ho, ⟨%d0, H0⟩, ⟨%dO, HO⟩⟩
        iapply ((run1_M c (grid1.coords t) _ _ _ _ _ _ (fun h => h0 ((hfirst1 t).mp h)) (fun h => h1 ((hlast1 t).mp h)) (iblk1 V c 0 t) _).2.2 _ Set.univ _)
        isplitl [H0]; · iexact H0
        isplitl [HO]; · iexact HO
        isplitl [HS0]; · iexact HS0
        iintro ⟨H0, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_M _ _ _ _ _ _ _ _ _ _ _ _)
            iexact Hoth
          iexact Hg
        isplitl [Ho]; · iexact Ho
        isplitl [H0]; · iexact H0
        iexists _; iexact HO

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives the class's back: the running total's contents are forgotten. -/
theorem hout1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 16 := N_1; omega), PhiA1_eq]
  iintro ⟨⟨HS0, Hoth⟩, Hg⟩
  isplitl [HS0 Hoth]
  · isplitl [HS0]
    · iexists _; iexact HS0
    iexact Hoth
  iexact Hg

end Cert.Kernel.Gen

end
-- ==== Proof.BitsSpmm.lean ====
/-
  The third kernel region: the normalised aggregation. The grid is 4 × 4; point (i, k) reads the 2048 × 2048 tile
  (i, k) of the adjacency matrix, rows 2048·k … of the scaled features, rows 2048·i … of the normalising column and the
  bias row. A 2048 × 128 block of running totals is kept between the four points of a row of the grid: reset at k = 0,
  each point adds the product of its tile with its rows of scaled features, and at k = 3 the totals, scaled row by row
  by the normalising column and with the bias row added, are stored into rows 2048·i … of the result, which is idle at
  the other points. Stated for any contents `V` of the buffers when the region is entered.
-/
import proofs.«133814_j53309134078171_1_alg».proof.Proof.Gen.Kernel.Launch
import proofs.«133814_j53309134078171_1_alg».proof.Proof.Gen.Kernel.Skeleton
import proofs.«133814_j53309134078171_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where a point sits in its row of four -/

/-- The body's first branch is taken: the point is the first of its row (the running total is reset). -/
abbrev first2 (i : grid2.Coords) : Prop := (Scalar.cmpi .ne (Scalar.extui (Scalar.cmpi .eq (BitVec.ofNat 32 (i 1).val) 0#32)) 0#32) = 1#1
theorem hfirst2 : ∀ t : Fin cfg2.N, first2 (grid2.coords t) ↔ t.val % 4 = 0 :=
  (by decide +kernel : ∀ t : Fin grid2.N, first2 (grid2.coords t) ↔ t.val % 4 = 0)
/-- The body's last branch is taken: the point is the last of its row (the result is stored). -/
abbrev last2 (i : grid2.Coords) : Prop := k2_cond2 i = 1#1
theorem hlast2 : ∀ t : Fin cfg2.N, last2 (grid2.coords t) ↔ t.val % 4 = 3 :=
  (by decide +kernel : ∀ t : Fin grid2.N, last2 (grid2.coords t) ↔ t.val % 4 = 3)

/-! ## Where the windows are idle -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem idleOut2_F : ∀ t : Fin cfg2.N, first2 (grid2.coords t) → ¬last2 (grid2.coords t) → cfg2.idle 4 (grid2.coords t) = true := by decide +kernel
theorem noFlush2_F : ∀ t : Fin cfg2.N, first2 (grid2.coords t) → ¬last2 (grid2.coords t) → (cfg2.win 4).flush t = false := by decide +kernel
theorem idleOut2_M : ∀ t : Fin cfg2.N, ¬first2 (grid2.coords t) → ¬last2 (grid2.coords t) → cfg2.idle 4 (grid2.coords t) = true := by decide +kernel
theorem noFlush2_M : ∀ t : Fin cfg2.N, ¬first2 (grid2.coords t) → ¬last2 (grid2.coords t) → (cfg2.win 4).flush t = false := by decide +kernel
theorem liveOut2_L : ∀ t : Fin cfg2.N, ¬first2 (grid2.coords t) → last2 (grid2.coords t) → cfg2.idle 4 (grid2.coords t) = false := by decide +kernel

/-! ## The staging memrefs, the running total's buffer -/

abbrev VO2 : View sig .tc .vmem S2048x128 .f32 := (Memref.whole cc2_stg4_0 : Memref sig .tc .vmem S2048x128 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x128 .f32 := win2_4.stage (cfg2.slots t 4)
abbrev hs2_4 (t : Fin cfg2.N) : (ms2_4 t).IsWhole := hstage2_4 ((cfg2.slots t 4).cast nbuf2_4)
abbrev scM2 : Memref sig .tc .vmem S2048x128 .f32 := Memref.whole cc2_scratch0
abbrev VS2 : View sig .tc .vmem S2048x128 .f32 := scM2.view

/-- The scoped buffers of the other regions, which this region's body never touches: each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- Taking the running total's buffer out of the list of scoped buffers, and putting it back. -/
theorem takeScr2 (c : Dev nD) :
    (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_scratch0), ((c : Thread nD τ).loc cc2_scratch0) ↦{fullShare} f)) : sProp 𝕄)
      ⊢ iprop((∃ d : Buf (Elt F) ((c : Thread nD τ).loc cc2_scratch0), ((c : Thread nD τ).loc cc2_scratch0) ↦{fullShare} d) ∗ others2 (F := F) c) := by
  unfold others2
  iintro ⟨H0, H1, H2, H3, H4, H5, H6, H7, H8, H9, H10, H11⟩
  isplitl [H11]; · iexact H11
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem putScr2 (c : Dev nD) :
    (iprop((∃ d : Buf (Elt F) ((c : Thread nD τ).loc cc2_scratch0), ((c : Thread nD τ).loc cc2_scratch0) ↦{fullShare} d) ∗ others2 (F := F) c) : sProp 𝕄)
      ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_scratch0), ((c : Thread nD τ).loc cc2_scratch0) ↦{fullShare} f)) := by
  unfold others2
  iintro ⟨HS, H0, H1, H2, H3, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HS

/-- The class's invariant, with the running total's buffer owned at some contents beside the other regions' buffers. -/
theorem PhiA2_eq (c : Dev nD) :
    (Pipeline.ΦA spec2 c : sProp 𝕄)
      = iprop(iprop((∃ d, owns (c : Thread nD τ) scM2 fullShare d) ∗ others2 (F := F) c) ∗ (∃ r, prngReg c r)) := by
  unfold Pipeline.ΦA; rw [scopedRest2_eq]; simp only [scM2, owns_whole]
  exact congrArg (fun X : sProp 𝕄 => iprop(X ∗ ∃ r, prngReg c r)) (Idealize.SL.BI.Entails.antisymm (takeScr2 c) (putScr2 c))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body, position by position -/

set_option maxHeartbeats 4000000 in
/-- The body in the first position of a row of grid points: the pieces its stores leave in the result's buffer and in the running total, with the proof that it runs to them. -/
noncomputable def run2_F (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : first2 i) (hc1 : ¬last2 i)
    (x0 : Vec F S2048x2048 .bf16) (x1 : Vec F S2048x128 .bf16) (x2 : Vec F S2048x1 .f32) (x3 : Vec F S1x128 .f32) :
    Σ' (L1 : List (View.Piece (Elt F) S2048x128 .f32)), { LS0 : List (View.Piece (Elt F) S2048x128 .f32) //
      ∀ (xi1 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi1 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi1 ∗ (∃ f, arg7.view.loc (c : Thread nD τ) ↦[arg7.view.set]{fullShare} arg7.view.writes (Elt F) f LS0)) -∗ K ⟨⟩))
          ⊢ wp frame (wpE (defs₀ (F := F)) Variants.none c none) E (cc2__spmm_kernel i arg2 harg2 arg3 harg3 arg4 harg4 arg5 harg5 arg6 harg6 arg7 harg7) K } := by
  refine ⟨[], ?_, fun xi1 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%f3, %hf3, H3⟩, ⟨%fo1, %hfo1, HO⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hfo1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS0

set_option maxHeartbeats 4000000 in
/-- The body in the middle position of a row of grid points: the pieces its stores leave in the result's buffer and in the running total, with the proof that it runs to them. -/
noncomputable def run2_M (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : ¬last2 i)
    (x0 : Vec F S2048x2048 .bf16) (x1 : Vec F S2048x128 .bf16) (x2 : Vec F S2048x1 .f32) (x3 : Vec F S1x128 .f32) (xs0 : Vec F S2048x128 .f32) :
    Σ' (L1 : List (View.Piece (Elt F) S2048x128 .f32)), { LS0 : List (View.Piece (Elt F) S2048x128 .f32) //
      ∀ (xi1 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi1 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi1 ∗ (∃ f, arg7.view.loc (c : Thread nD τ) ↦[arg7.view.set]{fullShare} arg7.view.writes (Elt F) f LS0)) -∗ K ⟨⟩))
          ⊢ wp frame (wpE (defs₀ (F := F)) Variants.none c none) E (cc2__spmm_kernel i arg2 harg2 arg3 harg3 arg4 harg4 arg5 harg5 arg6 harg6 arg7 harg7) K } := by
  refine ⟨[], ?_, fun xi1 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%f3, %hf3, H3⟩, ⟨%fo1, %hfo1, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfo1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS0

set_option maxHeartbeats 4000000 in
/-- The body in the last position of a row of grid points: the pieces its stores leave in the result's buffer and in the running total, with the proof that it runs to them. -/
noncomputable def run2_L (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) :
    Σ' (L1 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f LS0)) -∗ K ⟨⟩))
          ⊢ wp frame (wpE (defs₀ (F := F)) Variants.none c none) E (cc2__spmm_kernel i arg2 harg2 arg3 harg3 arg4 harg4 arg5 harg5 arg6 harg6 arg7 harg7) K } := by
  refine ⟨?_, ?_, fun E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%f3, %hf3, H3⟩, ⟨%d1, %fo1, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS0

/-- What that position leaves in the result's staging buffer (nothing is stored: a placeholder nothing consults, the window being idle there). -/
def out2_F (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : first2 i) (hc1 : ¬last2 i)
    (x0 : Vec F S2048x2048 .bf16) (x1 : Vec F S2048x128 .bf16) (x2 : Vec F S2048x1 .f32) (x3 : Vec F S1x128 .f32) : Vec F S2048x128 .f32 :=
  VO2.read (Elt F) (VO2.writes (Elt F) VO2.junk (run2_F c i arg2 harg2 arg3 harg3 arg4 harg4 arg5 harg5 arg6 harg6 arg7 harg7 hc0 hc1 x0 x1 x2 x3).1)

/-- Its stores into the running total cover it. -/
theorem scover2_F (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : first2 i) (hc1 : ¬last2 i)
    (x0 : Vec F S2048x2048 .bf16) (x1 : Vec F S2048x128 .bf16) (x2 : Vec F S2048x1 .f32) (x3 : Vec F S1x128 .f32) (y : S2048x128.Idx) :
    ∃ pc ∈ (run2_F c i arg2 harg2 arg3 harg3 arg4 harg4 arg5 harg5 arg6 harg6 arg7 harg7 hc0 hc1 x0 x1 x2 x3).2.1, y ∈ pc.1.set :=
  View.cover_of_tiledL (run2_F c i arg2 harg2 arg3 harg3 arg4 harg4 arg5 harg5 arg6 harg6 arg7 harg7 hc0 hc1 x0 x1 x2 x3).2.1 S2048x128.size (by sl_kernel_rfl) y

/-- What that position leaves in the running total. -/
def acc2_F (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : first2 i) (hc1 : ¬last2 i)
    (x0 : Vec F S2048x2048 .bf16) (x1 : Vec F S2048x128 .bf16) (x2 : Vec F S2048x1 .f32) (x3 : Vec F S1x128 .f32) : Vec F S2048x128 .f32 :=
  VS2.read (Elt F) (VS2.writes (Elt F) VS2.junk (run2_F c i arg2 harg2 arg3 harg3 arg4 harg4 arg5 harg5 arg6 harg6 arg7 harg7 hc0 hc1 x0 x1 x2 x3).2.1)

/-- What that position leaves in the result's staging buffer (nothing is stored: a placeholder nothing consults, the window being idle there). -/
def out2_M (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : ¬last2 i)
    (x0 : Vec F S2048x2048 .bf16) (x1 : Vec F S2048x128 .bf16) (x2 : Vec F S2048x1 .f32) (x3 : Vec F S1x128 .f32) (xs0 : Vec F S2048x128 .f32) : Vec F S2048x128 .f32 :=
  VO2.read (Elt F) (VO2.writes (Elt F) VO2.junk (run2_M c i arg2 harg2 arg3 harg3 arg4 harg4 arg5 harg5 arg6 harg6 arg7 harg7 hc0 hc1 x0 x1 x2 x3 xs0).1)

/-- Its stores into the running total cover it. -/
theorem scover2_M (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : ¬last2 i)
    (x0 : Vec F S2048x2048 .bf16) (x1 : Vec F S2048x128 .bf16) (x2 : Vec F S2048x1 .f32) (x3 : Vec F S1x128 .f32) (xs0 : Vec F S2048x128 .f32) (y : S2048x128.Idx) :
    ∃ pc ∈ (run2_M c i arg2 harg2 arg3 harg3 arg4 harg4 arg5 harg5 arg6 harg6 arg7 harg7 hc0 hc1 x0 x1 x2 x3 xs0).2.1, y ∈ pc.1.set :=
  View.cover_of_tiledL (run2_M c i arg2 harg2 arg3 harg3 arg4 harg4 arg5 harg5 arg6 harg6 arg7 harg7 hc0 hc1 x0 x1 x2 x3 xs0).2.1 S2048x128.size (by sl_kernel_rfl) y

/-- What that position leaves in the running total. -/
def acc2_M (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : ¬last2 i)
    (x0 : Vec F S2048x2048 .bf16) (x1 : Vec F S2048x128 .bf16) (x2 : Vec F S2048x1 .f32) (x3 : Vec F S1x128 .f32) (xs0 : Vec F S2048x128 .f32) : Vec F S2048x128 .f32 :=
  VS2.read (Elt F) (VS2.writes (Elt F) VS2.junk (run2_M c i arg2 harg2 arg3 harg3 arg4 harg4 arg5 harg5 arg6 harg6 arg7 harg7 hc0 hc1 x0 x1 x2 x3 xs0).2.1)

/-- The stores of that position into the result's buffer cover it. -/
theorem ocover2_L (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) (y : S2048x128.Idx) :
    ∃ pc ∈ (run2_L c i arg2 harg2 arg3 harg3 arg4 harg4 arg5 harg5 arg6 harg6 arg7 harg7 hc0 hc1 x0 x1 x2 x3 xs0).1, y ∈ pc.1.set :=
  View.cover_of_tiledL (run2_L c i arg2 harg2 arg3 harg3 arg4 harg4 arg5 harg5 arg6 harg6 arg7 harg7 hc0 hc1 x0 x1 x2 x3 xs0).1 S2048x128.size (by sl_kernel_rfl) y

/-- What that position leaves in the result's staging buffer. -/
def out2_L (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) : Vec F S2048x128 .f32 :=
  VO2.read (Elt F) (VO2.writes (Elt F) VO2.junk (run2_L c i arg2 harg2 arg3 harg3 arg4 harg4 arg5 harg5 arg6 harg6 arg7 harg7 hc0 hc1 x0 x1 x2 x3 xs0).1)

/-- Its stores into the running total cover it. -/
theorem scover2_L (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) (y : S2048x128.Idx) :
    ∃ pc ∈ (run2_L c i arg2 harg2 arg3 harg3 arg4 harg4 arg5 harg5 arg6 harg6 arg7 harg7 hc0 hc1 x0 x1 x2 x3 xs0).2.1, y ∈ pc.1.set :=
  View.cover_of_tiledL (run2_L c i arg2 harg2 arg3 harg3 arg4 harg4 arg5 harg5 arg6 harg6 arg7 harg7 hc0 hc1 x0 x1 x2 x3 xs0).2.1 S2048x128.size (by sl_kernel_rfl) y

/-- What that position leaves in the running total. -/
def acc2_L (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) : Vec F S2048x128 .f32 :=
  VS2.read (Elt F) (VS2.writes (Elt F) VS2.junk (run2_L c i arg2 harg2 arg3 harg3 arg4 harg4 arg5 harg5 arg6 harg6 arg7 harg7 hc0 hc1 x0 x1 x2 x3 xs0).2.1)

/-! ## What the result's buffer and the running total hold after each point -/

/-- After the body at position `n`: the result's staging buffer and the running total, by recursion on the position —
    the first point of a row starts afresh, every other continues from what the point before left. -/
def tot2 (c : Dev nD) : (n : ℕ) → n < cfg2.N → Vec F S2048x128 .f32 × Vec F S2048x128 .f32
  | 0, hn => (out2_F c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hfirst2 ⟨0, hn⟩).mpr (Nat.zero_mod _)) (fun h => (fun h => by (try dsimp only at h); omega) ((hlast2 ⟨0, hn⟩).mp h)) (iblk2 V c 0 ⟨0, hn⟩) (iblk2 V c 1 ⟨0, hn⟩) (iblk2 V c 2 ⟨0, hn⟩) (iblk2 V c 3 ⟨0, hn⟩), acc2_F c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hfirst2 ⟨0, hn⟩).mpr (Nat.zero_mod _)) (fun h => (fun h => by (try dsimp only at h); omega) ((hlast2 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : (n + 1) % 4 = 3 then
        False.elim (by omega)
      else
        (out2_F c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hfirst2 ⟨n + 1, hn⟩).mpr h0) (fun h => h1 ((hlast2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), acc2_F c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hfirst2 ⟨n + 1, hn⟩).mpr h0) (fun h => h1 ((hlast2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_L c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hfirst2 ⟨n + 1, hn⟩).mp h)) ((hlast2 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (tot2 c n (Nat.lt_of_succ_lt hn)).2, acc2_L c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hfirst2 ⟨n + 1, hn⟩).mp h)) ((hlast2 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (tot2 c n (Nat.lt_of_succ_lt hn)).2)
      else
        (out2_M c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hfirst2 ⟨n + 1, hn⟩).mp h)) (fun h => h1 ((hlast2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (tot2 c n (Nat.lt_of_succ_lt hn)).2, acc2_M c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hfirst2 ⟨n + 1, hn⟩).mp h)) (fun h => h1 ((hlast2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (tot2 c n (Nat.lt_of_succ_lt hn)).2)

theorem tot2_F (c : Dev nD) (t : Fin cfg2.N) (h0 : t.val % 4 = 0) (h1 : ¬t.val % 4 = 3) :
    tot2 V c t.val t.isLt = (out2_F c (grid2.coords t) (ms2_0 t) (hs2_0 t) (ms2_1 t) (hs2_1 t) (ms2_2 t) (hs2_2 t) (ms2_3 t) (hs2_3 t) (ms2_4 t) (hs2_4 t) scM2 (Memref.isWhole_whole _) ((hfirst2 t).mpr h0) (fun h => h1 ((hlast2 t).mp h)) (iblk2 V c 0 t) (iblk2 V c 1 t) (iblk2 V c 2 t) (iblk2 V c 3 t), acc2_F c (grid2.coords t) (ms2_0 t) (hs2_0 t) (ms2_1 t) (hs2_1 t) (ms2_2 t) (hs2_2 t) (ms2_3 t) (hs2_3 t) (ms2_4 t) (hs2_4 t) scM2 (Memref.isWhole_whole _) ((hfirst2 t).mpr h0) (fun h => h1 ((hlast2 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem tot2_M (c : Dev nD) (t : Fin cfg2.N) (h0 : ¬t.val % 4 = 0) (h1 : ¬t.val % 4 = 3) :
    tot2 V c t.val t.isLt = (out2_M c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hfirst2 t).mp h)) (fun h => h1 ((hlast2 t).mp h)) (iblk2 V c 0 t) (iblk2 V c 1 t) (iblk2 V c 2 t) (iblk2 V c 3 t) (tot2 V c (t.val - 1) (Nat.lt_of_le_of_lt (Nat.sub_le _ _) t.isLt)).2, acc2_M c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hfirst2 t).mp h)) (fun h => h1 ((hlast2 t).mp h)) (iblk2 V c 0 t) (iblk2 V c 1 t) (iblk2 V c 2 t) (iblk2 V c 3 t) (tot2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem tot2_L (c : Dev nD) (t : Fin cfg2.N) (h0 : ¬t.val % 4 = 0) (h1 : t.val % 4 = 3) :
    tot2 V c t.val t.isLt = (out2_L c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hfirst2 t).mp h)) ((hlast2 t).mpr h1) (iblk2 V c 0 t) (iblk2 V c 1 t) (iblk2 V c 2 t) (iblk2 V c 3 t) (tot2 V c (t.val - 1) (Nat.lt_of_le_of_lt (Nat.sub_le _ _) t.isLt)).2, acc2_L c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hfirst2 t).mp h)) ((hlast2 t).mpr h1) (iblk2 V c 0 t) (iblk2 V c 1 t) (iblk2 V c 2 t) (iblk2 V c 3 t) (tot2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the running total's
    buffer at what the point before left in it, and the generator register at some state. -/
def Inv2 (c : Dev nD) : (n : ℕ) → n ≤ cfg2.N → sProp 𝕄
  | 0, _ => Pipeline.ΦA spec2 c
  | n + 1, hn => iprop(iprop(owns (c : Thread nD τ) scM2 fullShare ((tot2 V c n hn).2) ∗ others2 (F := F) c) ∗ (∃ r, prngReg c r))

theorem Inv2_zero (c : Dev nD) (n : ℕ) (h : n ≤ cfg2.N) (hz : n = 0) : Inv2 V c n h = Pipeline.ΦA spec2 c := by
  subst hz; rfl
theorem Inv2_succ (c : Dev nD) (n : ℕ) (hn : n < cfg2.N) :
    Inv2 V c (n + 1) hn = iprop(iprop(owns (c : Thread nD τ) scM2 fullShare ((tot2 V c n hn).2) ∗ others2 (F := F) c) ∗ (∃ r, prngReg c r)) := rfl
theorem Inv2_pos (c : Dev nD) (n : ℕ) (h : n ≤ cfg2.N) (hz : n ≠ 0) :
    Inv2 V c n h = iprop(iprop(owns (c : Thread nD τ) scM2 fullShare ((tot2 V c (n - 1) (by omega)).2) ∗ others2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (tot2 V c t.val t.isLt).1
  Φ t := Inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Inv2_castSucc (c : Dev nD) (t : Fin cfg2.N) :
    (dat2 V c).Φ t.castSucc = Inv2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (tot2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Inv2 V c (t.val + 1) t.isLt from rfl, Inv2_succ]
  have hN : t.val < 16 := lt_of_lt_of_eq t.isLt (show cfg2.N = 16 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idleOut2_F t ((hfirst2 t).mpr h0) (fun h => h1 ((hlast2 t).mp h))) (noFlush2_F t ((hfirst2 t).mpr h0) (fun h => h1 ((hlast2 t).mp h)))]
      rw [tot2_F V c t h0 h1]
      unfold acc2_F; (try dsimp only)
      by_cases hz : t.val = 0
      ·
        rw [Inv2_castSucc V c t, Inv2_zero V c _ _ hz, PhiA2_eq]
        iintro ⟨⟨⟨HS0, Hoth⟩, Hg⟩, Ho, ⟨%d0, H0⟩, ⟨%d1, H1⟩, ⟨%d2, H2⟩, ⟨%d3, H3⟩, ⟨%dO, HO⟩⟩
        iapply ((run2_F c (grid2.coords t) _ _ _ _ _ _ _ _ _ _ _ _ ((hfirst2 t).mpr h0) (fun h => h1 ((hlast2 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [HO]; · iexact HO
        isplitl [HS0]; · iexact HS0
        iintro ⟨H0, H1, H2, H3, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_F _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact HO
      ·
        rw [Inv2_castSucc V c t, Inv2_pos V c _ _ hz]
        iintro ⟨⟨⟨HS0, Hoth⟩, Hg⟩, Ho, ⟨%d0, H0⟩, ⟨%d1, H1⟩, ⟨%d2, H2⟩, ⟨%d3, H3⟩, ⟨%dO, HO⟩⟩
        iapply ((run2_F c (grid2.coords t) _ _ _ _ _ _ _ _ _ _ _ _ ((hfirst2 t).mpr h0) (fun h => h1 ((hlast2 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [HO]; · iexact HO
        isplitl [HS0]; · iexists _; iexact HS0
        iintro ⟨H0, H1, H2, H3, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_F _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact HO
  · by_cases h1 : t.val % 4 = 3
    ·
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [show (dat2 V c).leavesExact 4 t = owns (c : Thread nD τ) (ms2_4 t) fullShare ((dat2 V c).after 4 t) from by
        unfold Dat.leavesExact; rw [liveOut2_L t (fun h => h0 ((hfirst2 t).mp h)) ((hlast2 t).mpr h1)], after2_4]
      rw [tot2_L V c t h0 h1]
      unfold out2_L acc2_L; (try dsimp only)
      by_cases hz : t.val = 0
      · exfalso; omega
      ·
        rw [Inv2_castSucc V c t, Inv2_pos V c _ _ hz]
        iintro ⟨⟨⟨HS0, Hoth⟩, Hg⟩, Ho, ⟨%d0, H0⟩, ⟨%d1, H1⟩, ⟨%d2, H2⟩, ⟨%d3, H3⟩, ⟨%dO, HO⟩⟩
        iapply ((run2_L c (grid2.coords t) _ _ _ _ _ _ _ _ _ _ _ _ (fun h => h0 ((hfirst2 t).mp h)) ((hlast2 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [HO]; · iexists _; iexact HO
        isplitl [HS0]; · iexact HS0
        iintro ⟨H0, H1, H2, H3, ⟨%e1, HO⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_L _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact HO
        ipureintro; exact View.read_writes_of_cover _ _ _ _ _ (ocover2_L _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idleOut2_M t (fun h => h0 ((hfirst2 t).mp h)) (fun h => h1 ((hlast2 t).mp h))) (noFlush2_M t (fun h => h0 ((hfirst2 t).mp h)) (fun h => h1 ((hlast2 t).mp h)))]
      rw [tot2_M V c t h0 h1]
      unfold acc2_M; (try dsimp only)
      by_cases hz : t.val = 0
      · exfalso; omega
      ·
        rw [Inv2_castSucc V c t, Inv2_pos V c _ _ hz]
        iintro ⟨⟨⟨HS0, Hoth⟩, Hg⟩, Ho, ⟨%d0, H0⟩, ⟨%d1, H1⟩, ⟨%d2, H2⟩, ⟨%d3, H3⟩, ⟨%dO, HO⟩⟩
        iapply ((run2_M c (grid2.coords t) _ _ _ _ _ _ _ _ _ _ _ _ (fun h => h0 ((hfirst2 t).mp h)) (fun h => h1 ((hlast2 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [HO]; · iexact HO
        isplitl [HS0]; · iexact HS0
        iintro ⟨H0, H1, H2, H3, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_M _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact HO

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Inv2 V c 0 (Nat.zero_le _) from rfl, Inv2_zero V c 0 _ rfl]
  try exact Idealize.SL.BI.Entails.refl _

/-- After the last point the invariant gives the class's back: the running total's contents are forgotten. -/
theorem hout2 (c : Dev nD) : (dat2 V c).Φ (Fin.last cfg2.N) ⊢ Pipeline.ΦA spec2 c := by
  rw [show (dat2 V c).Φ (Fin.last cfg2.N) = Inv2 V c (Fin.last cfg2.N).val (Nat.le_of_lt_succ (Fin.last cfg2.N).isLt) from rfl,
    Inv2_pos V c _ _ (by rw [Fin.val_last]; have : cfg2.N = 16 := N_2; omega), PhiA2_eq]
  iintro ⟨⟨HS0, Hoth⟩, Hg⟩
  isplitl [HS0 Hoth]
  · isplitl [HS0]
    · iexists _; iexact HS0
    iexact Hoth
  iexact Hg

end Cert.Kernel.Gen

end
-- ==== Proof.BitsRun.lean ====
/-
  The whole program: three kernel regions among three stretches of host operations. The contents of the
  unscoped buffers are followed from the launch through every boundary — a host stretch applies its operations,
  a region leaves its arrays at what its write-backs produce and every other buffer alone — and every weakly fair
  execution is shown to terminate with every unscoped buffer at the last boundary's contents. The argument arrays
  are read back through the boundaries to their launch contents; the result array is the last region's.
-/
import proofs.«133814_j53309134078171_1_alg».proof.Proof.BitsLinear
import proofs.«133814_j53309134078171_1_alg».proof.Proof.BitsDegree
import proofs.«133814_j53309134078171_1_alg».proof.Proof.BitsSpmm
import proofs.«133814_j53309134078171_1_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev bd0 : Dev nD → Valuation τ sig (Elt F) := fun c b => m (c, b)
/-- After the first host stretch (the first region's entry). -/
abbrev bd1 : Dev nD → Valuation τ sig (Elt F) := fun c => StableHlo.after hostOps0 (bd0 m c)
abbrev ent0 : (c : Dev nD) → (b : Ref sig .tc) → Buf (Elt F) ((c : Thread nD τ).loc b) := fun c b => bd1 m c b
/-- After region 0: its arrays at what its write-backs leave, every other buffer as entered. -/
def bd2 (c : Dev nD) : Valuation τ sig (Elt F) :=
  Pipeline.withArrays spec0 c (bd1 m c) fun w => (dat0 (ent0 m) c).arrAt w cfg0.N
theorem bd2_arr (c : Dev nD) (w : Fin cfg0.W) :
    bd2 m c (Proc.devRef .tc (Pipeline.arrRef spec0 w)) = (dat0 (ent0 m) c).arrAt w cfg0.N := by
  unfold bd2; exact Pipeline.withArrays_arr spec0 launch0.win.arr_inj c _ _ w
theorem bd2_of_ne (c : Dev nD) (b : Ref sig .tc) (hb : ∀ w, Pipeline.arrRef spec0 w ≠ b) :
    bd2 m c (Proc.devRef .tc b) = bd1 m c (Proc.devRef .tc b) := by
  unfold bd2; exact Pipeline.withArrays_of_ne spec0 c _ _ b hb
theorem exitArr0 (c : Dev nD) (w : Fin cfg0.W) : (dat0 (ent0 m) c).arrAt w cfg0.N = bd2 m c (Proc.devRef .tc (Pipeline.arrRef spec0 w)) :=
  (bd2_arr m c w).symm
theorem exitRest0 (c : Dev nD) : ∀ b, b ∉ Finset.univ.image (Pipeline.arrRef spec0) → bd2 m c (Proc.devRef .tc b) = ent0 m c b :=
  fun b hb => bd2_of_ne m c b fun w e => hb (Finset.mem_image.mpr ⟨w, Finset.mem_univ _, e⟩)

/-- After the second host stretch (the second region's entry). -/
abbrev bd3 : Dev nD → Valuation τ sig (Elt F) := fun c => StableHlo.after hostOps1 (bd2 m c)
abbrev ent1 : (c : Dev nD) → (b : Ref sig .tc) → Buf (Elt F) ((c : Thread nD τ).loc b) := fun c b => bd3 m c b
/-- After region 1: its arrays at what its write-backs leave, every other buffer as entered. -/
def bd4 (c : Dev nD) : Valuation τ sig (Elt F) :=
  Pipeline.withArrays spec1 c (bd3 m c) fun w => (dat1 (ent1 m) c).arrAt w cfg1.N
theorem bd4_arr (c : Dev nD) (w : Fin cfg1.W) :
    bd4 m c (Proc.devRef .tc (Pipeline.arrRef spec1 w)) = (dat1 (ent1 m) c).arrAt w cfg1.N := by
  unfold bd4; exact Pipeline.withArrays_arr spec1 launch1.win.arr_inj c _ _ w
theorem bd4_of_ne (c : Dev nD) (b : Ref sig .tc) (hb : ∀ w, Pipeline.arrRef spec1 w ≠ b) :
    bd4 m c (Proc.devRef .tc b) = bd3 m c (Proc.devRef .tc b) := by
  unfold bd4; exact Pipeline.withArrays_of_ne spec1 c _ _ b hb
theorem exitArr1 (c : Dev nD) (w : Fin cfg1.W) : (dat1 (ent1 m) c).arrAt w cfg1.N = bd4 m c (Proc.devRef .tc (Pipeline.arrRef spec1 w)) :=
  (bd4_arr m c w).symm
theorem exitRest1 (c : Dev nD) : ∀ b, b ∉ Finset.univ.image (Pipeline.arrRef spec1) → bd4 m c (Proc.devRef .tc b) = ent1 m c b :=
  fun b hb => bd4_of_ne m c b fun w e => hb (Finset.mem_image.mpr ⟨w, Finset.mem_univ _, e⟩)

/-- After the third host stretch (the third region's entry). -/
abbrev bd5 : Dev nD → Valuation τ sig (Elt F) := fun c => StableHlo.after hostOps2 (bd4 m c)
abbrev ent2 : (c : Dev nD) → (b : Ref sig .tc) → Buf (Elt F) ((c : Thread nD τ).loc b) := fun c b => bd5 m c b
/-- After region 2: its arrays at what its write-backs leave, every other buffer as entered. -/
def bd6 (c : Dev nD) : Valuation τ sig (Elt F) :=
  Pipeline.withArrays spec2 c (bd5 m c) fun w => (dat2 (ent2 m) c).arrAt w cfg2.N
theorem bd6_arr (c : Dev nD) (w : Fin cfg2.W) :
    bd6 m c (Proc.devRef .tc (Pipeline.arrRef spec2 w)) = (dat2 (ent2 m) c).arrAt w cfg2.N := by
  unfold bd6; exact Pipeline.withArrays_arr spec2 launch2.win.arr_inj c _ _ w
theorem bd6_of_ne (c : Dev nD) (b : Ref sig .tc) (hb : ∀ w, Pipeline.arrRef spec2 w ≠ b) :
    bd6 m c (Proc.devRef .tc b) = bd5 m c (Proc.devRef .tc b) := by
  unfold bd6; exact Pipeline.withArrays_of_ne spec2 c _ _ b hb
theorem exitArr2 (c : Dev nD) (w : Fin cfg2.W) : (dat2 (ent2 m) c).arrAt w cfg2.N = bd6 m c (Proc.devRef .tc (Pipeline.arrRef spec2 w)) :=
  (bd6_arr m c w).symm
theorem exitRest2 (c : Dev nD) : ∀ b, b ∉ Finset.univ.image (Pipeline.arrRef spec2) → bd6 m c (Proc.devRef .tc b) = ent2 m c b :=
  fun b hb => bd6_of_ne m c b fun w e => hb (Finset.mem_image.mpr ⟨w, Finset.mem_univ _, e⟩)

/-! ## The arguments end as launched -/

/-- `main_arg0` ends as launched: no host operation writes it, and a region only reads it. -/
theorem bd6_main_arg0 (c : Dev nD) : bd6 m c (Proc.devRef .tc main_arg0) = m ((c : Thread nD τ).loc main_arg0) :=
  calc bd6 m c (Proc.devRef .tc main_arg0)
    _ = bd5 m c (Proc.devRef .tc main_arg0) := bd6_of_ne m c main_arg0 (by decide)
    _ = bd4 m c (Proc.devRef .tc main_arg0) := StableHlo.after_of_writes_sub hostOps2 _ hostOps2_writes (by decide)
    _ = bd3 m c (Proc.devRef .tc main_arg0) := bd4_of_ne m c main_arg0 (by decide)
    _ = bd2 m c (Proc.devRef .tc main_arg0) := StableHlo.after_of_writes_sub hostOps1 _ hostOps1_writes (by decide)
    _ = bd1 m c (Proc.devRef .tc main_arg0) := (bd2_arr m c 0).trans (((dat0 (ent0 m) c).arrAt_in 0 rfl _).trans (A_eq0 (ent0 m) c 0))
    _ = bd0 m c (Proc.devRef .tc main_arg0) := StableHlo.after_of_writes_sub hostOps0 _ hostOps0_writes (by decide)
    _ = m ((c : Thread nD τ).loc main_arg0) := rfl

/-- `main_arg1` ends as launched: no host operation writes it, and a region only reads it. -/
theorem bd6_main_arg1 (c : Dev nD) : bd6 m c (Proc.devRef .tc main_arg1) = m ((c : Thread nD τ).loc main_arg1) :=
  calc bd6 m c (Proc.devRef .tc main_arg1)
    _ = bd5 m c (Proc.devRef .tc main_arg1) := bd6_of_ne m c main_arg1 (by decide)
    _ = bd4 m c (Proc.devRef .tc main_arg1) := StableHlo.after_of_writes_sub hostOps2 _ hostOps2_writes (by decide)
    _ = bd3 m c (Proc.devRef .tc main_arg1) := bd4_of_ne m c main_arg1 (by decide)
    _ = bd2 m c (Proc.devRef .tc main_arg1) := StableHlo.after_of_writes_sub hostOps1 _ hostOps1_writes (by decide)
    _ = bd1 m c (Proc.devRef .tc main_arg1) := bd2_of_ne m c main_arg1 (by decide)
    _ = bd0 m c (Proc.devRef .tc main_arg1) := StableHlo.after_of_writes_sub hostOps0 _ hostOps0_writes (by decide)
    _ = m ((c : Thread nD τ).loc main_arg1) := rfl

/-- `main_arg2` ends as launched: no host operation writes it, and a region only reads it. -/
theorem bd6_main_arg2 (c : Dev nD) : bd6 m c (Proc.devRef .tc main_arg2) = m ((c : Thread nD τ).loc main_arg2) :=
  calc bd6 m c (Proc.devRef .tc main_arg2)
    _ = bd5 m c (Proc.devRef .tc main_arg2) := bd6_of_ne m c main_arg2 (by decide)
    _ = bd4 m c (Proc.devRef .tc main_arg2) := StableHlo.after_of_writes_sub hostOps2 _ hostOps2_writes (by decide)
    _ = bd3 m c (Proc.devRef .tc main_arg2) := bd4_of_ne m c main_arg2 (by decide)
    _ = bd2 m c (Proc.devRef .tc main_arg2) := StableHlo.after_of_writes_sub hostOps1 _ hostOps1_writes (by decide)
    _ = bd1 m c (Proc.devRef .tc main_arg2) := (bd2_arr m c 1).trans (((dat0 (ent0 m) c).arrAt_in 1 rfl _).trans (A_eq0 (ent0 m) c 1))
    _ = bd0 m c (Proc.devRef .tc main_arg2) := StableHlo.after_of_writes_sub hostOps0 _ hostOps0_writes (by decide)
    _ = m ((c : Thread nD τ).loc main_arg2) := rfl

/-- `main_arg3` ends as launched: no host operation writes it, and a region only reads it. -/
theorem bd6_main_arg3 (c : Dev nD) : bd6 m c (Proc.devRef .tc main_arg3) = m ((c : Thread nD τ).loc main_arg3) :=
  calc bd6 m c (Proc.devRef .tc main_arg3)
    _ = bd5 m c (Proc.devRef .tc main_arg3) := bd6_of_ne m c main_arg3 (by decide)
    _ = bd4 m c (Proc.devRef .tc main_arg3) := StableHlo.after_of_writes_sub hostOps2 _ hostOps2_writes (by decide)
    _ = bd3 m c (Proc.devRef .tc main_arg3) := bd4_of_ne m c main_arg3 (by decide)
    _ = bd2 m c (Proc.devRef .tc main_arg3) := StableHlo.after_of_writes_sub hostOps1 _ hostOps1_writes (by decide)
    _ = bd1 m c (Proc.devRef .tc main_arg3) := bd2_of_ne m c main_arg3 (by decide)
    _ = bd0 m c (Proc.devRef .tc main_arg3) := StableHlo.after_of_writes_sub hostOps0 _ hostOps0_writes (by decide)
    _ = m ((c : Thread nD τ).loc main_arg3) := rfl

/-- `main_arg4` ends as launched: no host operation writes it, and a region only reads it. -/
theorem bd6_main_arg4 (c : Dev nD) : bd6 m c (Proc.devRef .tc main_arg4) = m ((c : Thread nD τ).loc main_arg4) :=
  calc bd6 m c (Proc.devRef .tc main_arg4)
    _ = bd5 m c (Proc.devRef .tc main_arg4) := bd6_of_ne m c main_arg4 (by decide)
    _ = bd4 m c (Proc.devRef .tc main_arg4) := StableHlo.after_of_writes_sub hostOps2 _ hostOps2_writes (by decide)
    _ = bd3 m c (Proc.devRef .tc main_arg4) := bd4_of_ne m c main_arg4 (by decide)
    _ = bd2 m c (Proc.devRef .tc main_arg4) := StableHlo.after_of_writes_sub hostOps1 _ hostOps1_writes (by decide)
    _ = bd1 m c (Proc.devRef .tc main_arg4) := bd2_of_ne m c main_arg4 (by decide)
    _ = bd0 m c (Proc.devRef .tc main_arg4) := StableHlo.after_of_writes_sub hostOps0 _ hostOps0_writes (by decide)
    _ = m ((c : Thread nD τ).loc main_arg4) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
abbrev 𝒱n : Variants := Variants.none
abbrev Ln : GSem nD τ sig → Finset Unit := fun _ => ∅
abbrev lvn : GSem nD τ sig → Unit → ℕ := fun _ _ => 0
/-- What rides beside the buffers through every segment: the generator register at some state and the core owing nothing. -/
abbrev ride (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev lastState (c : Dev nD) : sProp 𝕄 := iprop(StableHlo.held (c : Thread nD τ) (Pipeline.ucRefs τ sig) (bd6 m c) ∗ ∃ r, prngReg c r)

/-! ## The regions as segments -/

set_option backward.isDefEq.respectTransparency.types false in
/-- Region 0 over the thread state: entered from every unscoped buffer at the contents before it, left at the contents
    after it; its arrays split out of the unscoped buffers and put back at what its write-backs leave; the generator
    register into the invariant and out; nothing owed; no semaphore of the kernel's own. -/
def rseg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Ln lvn 0 fun _ _ => rfl
  pre c := iprop(StableHlo.held (c : Thread nD τ) (Pipeline.ucRefs τ sig) (bd1 m c) ∗ ride c)
  post c := iprop(StableHlo.held (c : Thread nD τ) (Pipeline.ucRefs τ sig) (bd2 m c) ∗ ride c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (fun b => bd2 m c b) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at what its write-backs leave; the generator
    register into the invariant and out; nothing owed; no semaphore of the kernel's own. -/
def rseg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ Ln lvn 1 fun _ _ => rfl
  pre c := iprop(StableHlo.held (c : Thread nD τ) (Pipeline.ucRefs τ sig) (bd3 m c) ∗ ride c)
  post c := iprop(StableHlo.held (c : Thread nD τ) (Pipeline.ucRefs τ sig) (bd4 m c) ∗ ride c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fun b => bd4 m c b) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at what its write-backs leave; the generator
    register into the invariant and out; nothing owed; no semaphore of the kernel's own. -/
def rseg2 : Pipeline.RegionSeg (pcfgs (F := F)) adm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ Ln lvn 2 fun _ _ => rfl
  pre c := iprop(StableHlo.held (c : Thread nD τ) (Pipeline.ucRefs τ sig) (bd5 m c) ∗ ride c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (ent2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (fun b => bd6 m c b) ((pdats m 2 c).arrAt · cfg2.N) (exitArr2 m c) (exitRest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev items : List (Pipeline.Seg (pcfgs (F := F)) adm (pdats m) () defs₀ 𝒱n Ln lvn) :=
  [ .host (hostItem hostOps0 hostOps0_sub hostOps0_fresh (bd0 m)),
    .region (rseg0 m),
    .host (hostItem hostOps1 hostOps1_sub hostOps1_fresh (bd2 m)),
    .region (rseg1 m),
    .host (hostItem hostOps2 hostOps2_sub hostOps2_fresh (bd4 m)),
    .region (rseg2 m) ]
theorem main_items (c : Dev nD) : main (F := F) c = Pipeline.Seg.run (items m) := (main_chain c).trans (by chain_rfl)

set_option backward.isDefEq.respectTransparency.types false in
/-- Every weakly fair execution of the program from memory `m` with zero counters terminates, nothing faulting, with
    every unscoped buffer of every core at the last boundary's contents. -/
theorem whole_run : θ_run defs (onTc (τ := τ) (main (F := F))) ⟨m, fun _ => 0, ρ⟩ (fun r => ∀ c : Dev nD,
      ∀ b ∈ Pipeline.ucRefs τ sig, r.2.mem (((c : Thread nD τ)).1, b) = bd6 m c b) :=
  Pipeline.θ_run_regions_kit (pcfgs (F := F)) adm (pdats m) () cellOf_inj emb₁ defs₀ 𝒱n Ln lvn m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m c) ∗ ride c)) (Tₙ := lastState m)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (bd0 m c)
        from Pipeline.unscopedBufs_held c (bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd6 m c b)
    (hfin := fun c s' => by
      iintro ⟨⟨Hh, -⟩, HSI⟩
      unfold StableHlo.held
      imodintro
      iapply (pointsTo_read_all (Pipeline.ucRefs τ sig) (fun b => (((c : Thread nD τ)).1, b)) (bd6 m c) s')
      isplitl [Hh] <;> iassumption)
    (hQ := fun s h c => h c)

/-- The frame: every argument array ends as launched. -/
theorem whole_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (bd6_main_arg0 m c),
     (h c _ (mem_uc main_arg1 (by decide))).trans (bd6_main_arg1 m c),
     (h c _ (mem_uc main_arg2 (by decide))).trans (bd6_main_arg2 m c),
     (h c _ (mem_uc main_arg3 (by decide))).trans (bd6_main_arg3 m c),
     (h c _ (mem_uc main_arg4 (by decide))).trans (bd6_main_arg4 m c)⟩) (whole_run m ρ)

/-- The result array ends at what the last region's write-backs leave. -/
theorem whole_result : θ_run defs (onTc (τ := τ) (main (F := F))) ⟨m, fun _ => 0, ρ⟩ (fun r => ∀ c : Dev nD,
      r.2.mem ((c.tc : Thread nD τ).loc main_v46) = (dat2 (ent2 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v46 (by decide))).trans (bd6_arr m c 4),
     (h c _ (mem_uc main_arg0 (by decide))).trans (bd6_main_arg0 m c),
     (h c _ (mem_uc main_arg1 (by decide))).trans (bd6_main_arg1 m c),
     (h c _ (mem_uc main_arg2 (by decide))).trans (bd6_main_arg2 m c),
     (h c _ (mem_uc main_arg3 (by decide))).trans (bd6_main_arg3 m c),
     (h c _ (mem_uc main_arg4 (by decide))).trans (bd6_main_arg4 m c)⟩) (whole_run m ρ)

end Cert.Kernel.Gen

end
-- ==== Proof.IdealLinear.lean ====
/-
  The first kernel region: the linear layer. Its grid has four points; point `t` reads rows
  `2048·t … 2048·t + 2047` of the input matrix, the whole weight matrix and the bias row, and writes the
  same rows of the result: the product of the row block with the transposed weights plus the bias row,
  stored whole. Nothing is kept between points. Stated for any contents `V` of the buffers when the region
  is entered: each window's block, what the body leaves in the result's staging buffer, the body's triple,
  the pipeline's proof data and the body obligation at every point.
-/
import proofs.«133814_j53309134078171_1_alg».proof.Proof.Gen.KernelIdeal.Launch
import proofs.«133814_j53309134078171_1_alg».proof.Proof.Gen.KernelIdeal.Skeleton
import proofs.«133814_j53309134078171_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the input matrix is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row, fetched once, is in its staging buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a row block, of the weight matrix, of the bias row. -/
abbrev rX0 : Rect S2048x128 := Rect.unit (s := S2048x128) ![0, 0] S2048x128.size inb_S2048x128_S2048x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- What the body leaves in the result's staging buffer: its one store, over the whole buffer, of the
    product-plus-bias of the three blocks it read. -/
def lin0 (x0 : Vec F S2048x128 .f32) (x1 : Vec F S128x128 .f32) (x2 : Vec F S1x128 .f32) : Vec F S2048x128 .f32 :=
  View.canon [⟨rX0, k0_pay1 (View.ld x0 rX0) (View.ld x1 rW0) (View.ld x2 rB0)⟩]

/-- The one store covers the buffer. -/
theorem lin0_cover (p0 : Vec F S2048x128 .f32) (y : S2048x128.Idx) :
    ∃ pc ∈ ([⟨rX0, p0⟩] : List (View.Piece (Elt F) S2048x128 .f32)), y ∈ pc.1.set :=
  View.cover_of_tiled [⟨rX0, p0⟩] S2048x128.size (by rfl) y

set_option maxHeartbeats 1000000 in
/-- The body on whole staging memrefs: the three inputs are left as found and the result's buffer ends at `lin0` of them. -/
theorem sound_lin0 (c : Dev nD) (E : Set ℕ) (i : grid0.Coords) (arg1 : Memref sig .tc .vmem S2048x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2048x128 .f32) (harg4 : arg4.IsWhole)
    (x0 : Vec F S2048x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (lin0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lin0_cover _)

/-- The proof data of the region on core `c`: the arrays as the region finds them; after the body at point `t`
    each input's buffer at its block and the result's at `lin0` of the three blocks; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => lin0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = lin0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_lin0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.IdealDegree.lean ====
/-
  The second kernel region: the row sums of the adjacency matrix. The grid is 4 × 4; point (i, k) reads the
  2048 × 2048 tile (i, k) of the matrix. A column of 2048 running totals is kept between the four points of a
  row of the grid: reset at k = 0, each point adds its tile's row sums, and at k = 3 the totals are stored
  into rows 2048·i … 2048·i + 2047 of the result, which is idle at the other points. Stated for any contents
  `V` of the buffers when the region is entered.
-/
import proofs.«133814_j53309134078171_1_alg».proof.Proof.Gen.KernelIdeal.Launch
import proofs.«133814_j53309134078171_1_alg».proof.Proof.Gen.KernelIdeal.Skeleton
import proofs.«133814_j53309134078171_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where a point sits in its row of four -/

/-- The body's first branch is taken: the point is the first of its row (the running total is reset). -/
abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 4 = 0 :=
  (by decide +kernel : ∀ t : Fin grid1.N, first1 (grid1.coords t) ↔ t.val % 4 = 0)
/-- The body's last branch is taken: the point is the last of its row (the result is stored). -/
abbrev last1 (i : grid1.Coords) : Prop := k1_cond2 i = 1#1
theorem hlast1 : ∀ t : Fin cfg1.N, last1 (grid1.coords t) ↔ t.val % 4 = 3 :=
  (by decide +kernel : ∀ t : Fin grid1.N, last1 (grid1.coords t) ↔ t.val % 4 = 3)

/-! ## Where the windows are idle -/
theorem live1_0 : ∀ t : Fin cfg1.N, cfg1.idle 0 (grid1.coords t) = false := by decide +kernel
theorem idleOut1_F : ∀ t : Fin cfg1.N, first1 (grid1.coords t) → ¬last1 (grid1.coords t) → cfg1.idle 1 (grid1.coords t) = true := by decide +kernel
theorem noFlush1_F : ∀ t : Fin cfg1.N, first1 (grid1.coords t) → ¬last1 (grid1.coords t) → (cfg1.win 1).flush t = false := by decide +kernel
theorem idleOut1_M : ∀ t : Fin cfg1.N, ¬first1 (grid1.coords t) → ¬last1 (grid1.coords t) → cfg1.idle 1 (grid1.coords t) = true := by decide +kernel
theorem noFlush1_M : ∀ t : Fin cfg1.N, ¬first1 (grid1.coords t) → ¬last1 (grid1.coords t) → (cfg1.win 1).flush t = false := by decide +kernel
theorem liveOut1_L : ∀ t : Fin cfg1.N, ¬first1 (grid1.coords t) → last1 (grid1.coords t) → cfg1.idle 1 (grid1.coords t) = false := by decide +kernel

/-! ## The staging memrefs, the running total's buffer -/

abbrev VO1 : View sig .tc .vmem S2048x1 .f32 := (Memref.whole cc1_stg1_0 : Memref sig .tc .vmem S2048x1 .f32).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev scM1 : Memref sig .tc .vmem S2048x1 .f32 := Memref.whole cc1_scratch0
abbrev VS1 : View sig .tc .vmem S2048x1 .f32 := scM1.view

/-- The scoped buffers of the other regions, which this region's body never touches: each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f))

/-- Taking the running total's buffer out of the list of scoped buffers, and putting it back. -/
theorem takeScr1 (c : Dev nD) :
    (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f)) : sProp 𝕄)
      ⊢ iprop((∃ d : Buf (Elt F) ((c : Thread nD τ).loc cc1_scratch0), ((c : Thread nD τ).loc cc1_scratch0) ↦{fullShare} d) ∗ others1 (F := F) c) := by
  unfold others1
  iintro ⟨H0, H1, H2, H3, H4, H5, H6, H7, H8, H9, H10, H11, H12, H13, H14, H15, H16⟩
  isplitl [H6]; · iexact H6
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16
theorem putScr1 (c : Dev nD) :
    (iprop((∃ d : Buf (Elt F) ((c : Thread nD τ).loc cc1_scratch0), ((c : Thread nD τ).loc cc1_scratch0) ↦{fullShare} d) ∗ others1 (F := F) c) : sProp 𝕄)
      ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_scratch0), ((c : Thread nD τ).loc cc2_scratch0) ↦{fullShare} f)) := by
  unfold others1
  iintro ⟨HS, H0, H1, H2, H3, H4, H5, H7, H8, H9, H10, H11, H12, H13, H14, H15, H16⟩
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The class's invariant, with the running total's buffer owned at some contents beside the other regions' buffers. -/
theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA; rw [scopedRest1_eq]; simp only [scM1, owns_whole]
  exact congrArg (fun X : sProp 𝕄 => iprop(X ∗ ∃ r, prngReg c r)) (Idealize.SL.BI.Entails.antisymm (takeScr1 c) (putScr1 c))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body, position by position -/

set_option maxHeartbeats 4000000 in
/-- The body in the first position of a row of grid points: the pieces its stores leave in the result's buffer and in the running total, with the proof that it runs to them. -/
noncomputable def run1_F (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : first1 i) (hc1 : ¬last1 i)
    (x0 : Vec F S2048x2048 .bf16) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨[], ?_, fun xi1 E K => ?run⟩
  case run =>
    simp only [cc1__degree_kernel_eq_skeleton]; unfold cc1__degree_kernel_skel
    unfold owns
    iintro ⟨⟨%f0, %hf0, H0⟩, ⟨%fo1, %hfo1, HO⟩, ⟨%ds0, %fs0, -, HS0⟩, Hk⟩
    obtain rfl := harg2.eq_unread hf0; obtain rfl := harg3.eq_unread hfo1
    sl_exec (disch := first | exact hc0 | exact hc1)
    sl_step
    iapply Hk
    isplitl [H0]
    · iexists _; isplitr; · ipureintro; exact harg2.read_unread _
      iexact H0
    isplitl [HO]
    · iexists _; isplitr; · ipureintro; exact harg3.read_unread _
      iexact HO
    iexists _; iexact HS0

set_option maxHeartbeats 4000000 in
/-- The body in the middle position of a row of grid points: the pieces its stores leave in the result's buffer and in the running total, with the proof that it runs to them. -/
noncomputable def run1_M (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : ¬last1 i)
    (x0 : Vec F S2048x2048 .bf16) (xs0 : Vec F S2048x1 .f32) :
    Σ' (L1 : List (View.Piece (Elt F) S2048x1 .f32)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨[], ?_, fun xi1 E K => ?run⟩
  case run =>
    simp only [cc1__degree_kernel_eq_skeleton]; unfold cc1__degree_kernel_skel
    unfold owns
    iintro ⟨⟨%f0, %hf0, H0⟩, ⟨%fo1, %hfo1, HO⟩, ⟨%fs0, %hfs0, HS0⟩, Hk⟩
    obtain rfl := harg2.eq_unread hf0; obtain rfl := harg3.eq_unread hfo1; obtain rfl := harg4.eq_unread hfs0
    sl_exec (disch := first | exact hc0 | exact hc1)
    sl_step
    iapply Hk
    isplitl [H0]
    · iexists _; isplitr; · ipureintro; exact harg2.read_unread _
      iexact H0
    isplitl [HO]
    · iexists _; isplitr; · ipureintro; exact harg3.read_unread _
      iexact HO
    iexists _; iexact HS0

set_option maxHeartbeats 4000000 in
/-- The body in the last position of a row of grid points: the pieces its stores leave in the result's buffer and in the running total, with the proof that it runs to them. -/
noncomputable def run1_L (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : last1 i)
    (x0 : Vec F S2048x2048 .bf16) (xs0 : Vec F S2048x1 .f32) :
    Σ' (L1 : List (View.Piece (Elt F) S2048x1 .f32)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__degree_kernel i arg2 harg2 arg3 harg3 arg4 harg4) K } := by
  refine ⟨?_, ?_, fun E K => ?run⟩
  case run =>
    simp only [cc1__degree_kernel_eq_skeleton]; unfold cc1__degree_kernel_skel
    unfold owns
    iintro ⟨⟨%f0, %hf0, H0⟩, ⟨%d1, %fo1, -, HO⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [HO]; · iexists _; iexact HO
    iexists _; iexact HS0

/-- What that position leaves in the result's staging buffer (nothing is stored: a placeholder nothing consults, the window being idle there). -/
def out1_F (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : first1 i) (hc1 : ¬last1 i)
    (x0 : Vec F S2048x2048 .bf16) : Vec F S2048x1 .f32 :=
  VO1.read (Elt F) (VO1.writes (Elt F) VO1.junk (run1_F c i arg2 harg2 arg3 harg3 arg4 harg4 hc0 hc1 x0).1)

/-- Its stores into the running total cover it. -/
theorem scover1_F (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : first1 i) (hc1 : ¬last1 i)
    (x0 : Vec F S2048x2048 .bf16) (y : S2048x1.Idx) :
    ∃ pc ∈ (run1_F c i arg2 harg2 arg3 harg3 arg4 harg4 hc0 hc1 x0).2.1, y ∈ pc.1.set :=
  View.cover_of_tiledL (run1_F c i arg2 harg2 arg3 harg3 arg4 harg4 hc0 hc1 x0).2.1 S2048x1.size (by sl_kernel_rfl) y

/-- What that position leaves in the running total. -/
def acc1_F (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : first1 i) (hc1 : ¬last1 i)
    (x0 : Vec F S2048x2048 .bf16) : Vec F S2048x1 .f32 :=
  VS1.read (Elt F) (VS1.writes (Elt F) VS1.junk (run1_F c i arg2 harg2 arg3 harg3 arg4 harg4 hc0 hc1 x0).2.1)

/-- What that position leaves in the result's staging buffer (nothing is stored: a placeholder nothing consults, the window being idle there). -/
def out1_M (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : ¬last1 i)
    (x0 : Vec F S2048x2048 .bf16) (xs0 : Vec F S2048x1 .f32) : Vec F S2048x1 .f32 :=
  VO1.read (Elt F) (VO1.writes (Elt F) VO1.junk (run1_M c i arg2 harg2 arg3 harg3 arg4 harg4 hc0 hc1 x0 xs0).1)

/-- Its stores into the running total cover it. -/
theorem scover1_M (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : ¬last1 i)
    (x0 : Vec F S2048x2048 .bf16) (xs0 : Vec F S2048x1 .f32) (y : S2048x1.Idx) :
    ∃ pc ∈ (run1_M c i arg2 harg2 arg3 harg3 arg4 harg4 hc0 hc1 x0 xs0).2.1, y ∈ pc.1.set :=
  View.cover_of_tiledL (run1_M c i arg2 harg2 arg3 harg3 arg4 harg4 hc0 hc1 x0 xs0).2.1 S2048x1.size (by sl_kernel_rfl) y

/-- What that position leaves in the running total. -/
def acc1_M (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : ¬last1 i)
    (x0 : Vec F S2048x2048 .bf16) (xs0 : Vec F S2048x1 .f32) : Vec F S2048x1 .f32 :=
  VS1.read (Elt F) (VS1.writes (Elt F) VS1.junk (run1_M c i arg2 harg2 arg3 harg3 arg4 harg4 hc0 hc1 x0 xs0).2.1)

/-- The stores of that position into the result's buffer cover it. -/
theorem ocover1_L (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : last1 i)
    (x0 : Vec F S2048x2048 .bf16) (xs0 : Vec F S2048x1 .f32) (y : S2048x1.Idx) :
    ∃ pc ∈ (run1_L c i arg2 harg2 arg3 harg3 arg4 harg4 hc0 hc1 x0 xs0).1, y ∈ pc.1.set :=
  View.cover_of_tiledL (run1_L c i arg2 harg2 arg3 harg3 arg4 harg4 hc0 hc1 x0 xs0).1 S2048x1.size (by sl_kernel_rfl) y

/-- What that position leaves in the result's staging buffer. -/
def out1_L (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : last1 i)
    (x0 : Vec F S2048x2048 .bf16) (xs0 : Vec F S2048x1 .f32) : Vec F S2048x1 .f32 :=
  VO1.read (Elt F) (VO1.writes (Elt F) VO1.junk (run1_L c i arg2 harg2 arg3 harg3 arg4 harg4 hc0 hc1 x0 xs0).1)

/-- Its stores into the running total cover it. -/
theorem scover1_L (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : last1 i)
    (x0 : Vec F S2048x2048 .bf16) (xs0 : Vec F S2048x1 .f32) (y : S2048x1.Idx) :
    ∃ pc ∈ (run1_L c i arg2 harg2 arg3 harg3 arg4 harg4 hc0 hc1 x0 xs0).2.1, y ∈ pc.1.set :=
  View.cover_of_tiledL (run1_L c i arg2 harg2 arg3 harg3 arg4 harg4 hc0 hc1 x0 xs0).2.1 S2048x1.size (by sl_kernel_rfl) y

/-- What that position leaves in the running total. -/
def acc1_L (c : Dev nD) (i : grid1.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hc0 : ¬first1 i) (hc1 : last1 i)
    (x0 : Vec F S2048x2048 .bf16) (xs0 : Vec F S2048x1 .f32) : Vec F S2048x1 .f32 :=
  VS1.read (Elt F) (VS1.writes (Elt F) VS1.junk (run1_L c i arg2 harg2 arg3 harg3 arg4 harg4 hc0 hc1 x0 xs0).2.1)

/-! ## What the result's buffer and the running total hold after each point -/

/-- After the body at position `n`: the result's staging buffer and the running total, by recursion on the position —
    the first point of a row starts afresh, every other continues from what the point before left. -/
def tot1 (c : Dev nD) : (n : ℕ) → n < cfg1.N → Vec F S2048x1 .f32 × Vec F S2048x1 .f32
  | 0, hn => (out1_F c (grid1.coords ⟨0, hn⟩) (ms1_0 ⟨0, hn⟩) (hs1_0 ⟨0, hn⟩) (ms1_1 ⟨0, hn⟩) (hs1_1 ⟨0, hn⟩) scM1 (Memref.isWhole_whole _) ((hfirst1 ⟨0, hn⟩).mpr (Nat.zero_mod _)) (fun h => (fun h => by (try dsimp only at h); omega) ((hlast1 ⟨0, hn⟩).mp h)) (iblk1 V c 0 ⟨0, hn⟩), acc1_F c (grid1.coords ⟨0, hn⟩) (ms1_0 ⟨0, hn⟩) (hs1_0 ⟨0, hn⟩) (ms1_1 ⟨0, hn⟩) (hs1_1 ⟨0, hn⟩) scM1 (Memref.isWhole_whole _) ((hfirst1 ⟨0, hn⟩).mpr (Nat.zero_mod _)) (fun h => (fun h => by (try dsimp only at h); omega) ((hlast1 ⟨0, hn⟩).mp h)) (iblk1 V c 0 ⟨0, hn⟩))
  | n + 1, hn =>
    if h0 : (n + 1) % 4 = 0 then
      if h1 : (n + 1) % 4 = 3 then
        False.elim (by omega)
      else
        (out1_F c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) ((hfirst1 ⟨n + 1, hn⟩).mpr h0) (fun h => h1 ((hlast1 ⟨n + 1, hn⟩).mp h)) (iblk1 V c 0 ⟨n + 1, hn⟩), acc1_F c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) ((hfirst1 ⟨n + 1, hn⟩).mpr h0) (fun h => h1 ((hlast1 ⟨n + 1, hn⟩).mp h)) (iblk1 V c 0 ⟨n + 1, hn⟩))
    else
      if h1 : (n + 1) % 4 = 3 then
        (out1_L c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hfirst1 ⟨n + 1, hn⟩).mp h)) ((hlast1 ⟨n + 1, hn⟩).mpr h1) (iblk1 V c 0 ⟨n + 1, hn⟩) (tot1 c n (Nat.lt_of_succ_lt hn)).2, acc1_L c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hfirst1 ⟨n + 1, hn⟩).mp h)) ((hlast1 ⟨n + 1, hn⟩).mpr h1) (iblk1 V c 0 ⟨n + 1, hn⟩) (tot1 c n (Nat.lt_of_succ_lt hn)).2)
      else
        (out1_M c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hfirst1 ⟨n + 1, hn⟩).mp h)) (fun h => h1 ((hlast1 ⟨n + 1, hn⟩).mp h)) (iblk1 V c 0 ⟨n + 1, hn⟩) (tot1 c n (Nat.lt_of_succ_lt hn)).2, acc1_M c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hfirst1 ⟨n + 1, hn⟩).mp h)) (fun h => h1 ((hlast1 ⟨n + 1, hn⟩).mp h)) (iblk1 V c 0 ⟨n + 1, hn⟩) (tot1 c n (Nat.lt_of_succ_lt hn)).2)

theorem tot1_F (c : Dev nD) (t : Fin cfg1.N) (h0 : t.val % 4 = 0) (h1 : ¬t.val % 4 = 3) :
    tot1 V c t.val t.isLt = (out1_F c (grid1.coords t) (ms1_0 t) (hs1_0 t) (ms1_1 t) (hs1_1 t) scM1 (Memref.isWhole_whole _) ((hfirst1 t).mpr h0) (fun h => h1 ((hlast1 t).mp h)) (iblk1 V c 0 t), acc1_F c (grid1.coords t) (ms1_0 t) (hs1_0 t) (ms1_1 t) (hs1_1 t) scM1 (Memref.isWhole_whole _) ((hfirst1 t).mpr h0) (fun h => h1 ((hlast1 t).mp h)) (iblk1 V c 0 t)) := by
  obtain ⟨n, hn⟩ := t
  cases n with
  | zero => exact rfl
  | succ n => exact (dif_pos h0).trans ((dif_neg h1).trans rfl)

theorem tot1_M (c : Dev nD) (t : Fin cfg1.N) (h0 : ¬t.val % 4 = 0) (h1 : ¬t.val % 4 = 3) :
    tot1 V c t.val t.isLt = (out1_M c (grid1.coords t) (ms1_0 t) (hs1_0 t) (ms1_1 t) (hs1_1 t) scM1 (Memref.isWhole_whole _) (fun h => h0 ((hfirst1 t).mp h)) (fun h => h1 ((hlast1 t).mp h)) (iblk1 V c 0 t) (tot1 V c (t.val - 1) (Nat.lt_of_le_of_lt (Nat.sub_le _ _) t.isLt)).2, acc1_M c (grid1.coords t) (ms1_0 t) (hs1_0 t) (ms1_1 t) (hs1_1 t) scM1 (Memref.isWhole_whole _) (fun h => h0 ((hfirst1 t).mp h)) (fun h => h1 ((hlast1 t).mp h)) (iblk1 V c 0 t) (tot1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem tot1_L (c : Dev nD) (t : Fin cfg1.N) (h0 : ¬t.val % 4 = 0) (h1 : t.val % 4 = 3) :
    tot1 V c t.val t.isLt = (out1_L c (grid1.coords t) (ms1_0 t) (hs1_0 t) (ms1_1 t) (hs1_1 t) scM1 (Memref.isWhole_whole _) (fun h => h0 ((hfirst1 t).mp h)) ((hlast1 t).mpr h1) (iblk1 V c 0 t) (tot1 V c (t.val - 1) (Nat.lt_of_le_of_lt (Nat.sub_le _ _) t.isLt)).2, acc1_L c (grid1.coords t) (ms1_0 t) (hs1_0 t) (ms1_1 t) (hs1_1 t) scM1 (Memref.isWhole_whole _) (fun h => h0 ((hfirst1 t).mp h)) ((hlast1 t).mpr h1) (iblk1 V c 0 t) (tot1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the running total's
    buffer at what the point before left in it, and the generator register at some state. -/
def Inv1 (c : Dev nD) : (n : ℕ) → n ≤ cfg1.N → sProp 𝕄
  | 0, _ => Pipeline.ΦA spec1 c
  | n + 1, hn => iprop(iprop(owns (c : Thread nD τ) scM1 fullShare ((tot1 V c n hn).2) ∗ others1 (F := F) c) ∗ (∃ r, prngReg c r))

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(iprop(owns (c : Thread nD τ) scM1 fullShare ((tot1 V c n hn).2) ∗ others1 (F := F) c) ∗ (∃ r, prngReg c r)) := rfl
theorem Inv1_pos (c : Dev nD) (n : ℕ) (h : n ≤ cfg1.N) (hz : n ≠ 0) :
    Inv1 V c n h = iprop(iprop(owns (c : Thread nD τ) scM1 fullShare ((tot1 V c (n - 1) (by omega)).2) ∗ others1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (tot1 V c t.val t.isLt).1
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Inv1_castSucc (c : Dev nD) (t : Fin cfg1.N) :
    (dat1 V c).Φ t.castSucc = Inv1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (tot1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Inv1 V c (t.val + 1) t.isLt from rfl, Inv1_succ]
  have hN : t.val < 16 := lt_of_lt_of_eq t.isLt (show cfg1.N = 16 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [live1_0 t], after1_0]
      rw [Dat.leavesExact_idle (dat1 V c) 1 t (idleOut1_F t ((hfirst1 t).mpr h0) (fun h => h1 ((hlast1 t).mp h))) (noFlush1_F t ((hfirst1 t).mpr h0) (fun h => h1 ((hlast1 t).mp h)))]
      rw [tot1_F V c t h0 h1]
      unfold acc1_F; (try dsimp only)
      by_cases hz : t.val = 0
      ·
        rw [Inv1_castSucc V c t, Inv1_zero V c _ _ hz, PhiA1_eq]
        iintro ⟨⟨⟨HS0, Hoth⟩, Hg⟩, Ho, ⟨%d0, H0⟩, ⟨%dO, HO⟩⟩
        iapply ((run1_F c (grid1.coords t) _ _ _ _ _ _ ((hfirst1 t).mpr h0) (fun h => h1 ((hlast1 t).mp h)) (iblk1 V c 0 t)).2.2 _ Set.univ _)
        isplitl [H0]; · iexact H0
        isplitl [HO]; · iexact HO
        isplitl [HS0]; · iexact HS0
        iintro ⟨H0, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_F _ _ _ _ _ _ _ _ _ _ _)
            iexact Hoth
          iexact Hg
        isplitl [Ho]; · iexact Ho
        isplitl [H0]; · iexact H0
        iexists _; iexact HO
      ·
        rw [Inv1_castSucc V c t, Inv1_pos V c _ _ hz]
        iintro ⟨⟨⟨HS0, Hoth⟩, Hg⟩, Ho, ⟨%d0, H0⟩, ⟨%dO, HO⟩⟩
        iapply ((run1_F c (grid1.coords t) _ _ _ _ _ _ ((hfirst1 t).mpr h0) (fun h => h1 ((hlast1 t).mp h)) (iblk1 V c 0 t)).2.2 _ Set.univ _)
        isplitl [H0]; · iexact H0
        isplitl [HO]; · iexact HO
        isplitl [HS0]; · iexists _; iexact HS0
        iintro ⟨H0, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_F _ _ _ _ _ _ _ _ _ _ _)
            iexact Hoth
          iexact Hg
        isplitl [Ho]; · iexact Ho
        isplitl [H0]; · iexact H0
        iexists _; iexact HO
  · by_cases h1 : t.val % 4 = 3
    ·
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [liveOut1_L t (fun h => h0 ((hfirst1 t).mp h)) ((hlast1 t).mpr h1)], after1_1]
      rw [tot1_L V c t h0 h1]
      unfold out1_L acc1_L; (try dsimp only)
      by_cases hz : t.val = 0
      · exfalso; omega
      ·
        rw [Inv1_castSucc V c t, Inv1_pos V c _ _ hz]
        iintro ⟨⟨⟨HS0, Hoth⟩, Hg⟩, Ho, ⟨%d0, H0⟩, ⟨%dO, HO⟩⟩
        iapply ((run1_L c (grid1.coords t) _ _ _ _ _ _ (fun h => h0 ((hfirst1 t).mp h)) ((hlast1 t).mpr h1) (iblk1 V c 0 t) _).2.2 Set.univ _)
        isplitl [H0]; · iexact H0
        isplitl [HO]; · iexists _; iexact HO
        isplitl [HS0]; · iexact HS0
        iintro ⟨H0, ⟨%e1, HO⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_L _ _ _ _ _ _ _ _ _ _ _ _)
            iexact Hoth
          iexact Hg
        isplitl [Ho]; · iexact Ho
        isplitl [H0]; · iexact H0
        unfold owns; iexists _; isplitr
        swap; · iexact HO
        ipureintro; exact View.read_writes_of_cover _ _ _ _ _ (ocover1_L _ _ _ _ _ _ _ _ _ _ _ _)
    ·
      rw [show (dat1 V c).leavesExact 0 t = owns (c : Thread nD τ) (ms1_0 t) fullShare ((dat1 V c).after 0 t) from by
        unfold Dat.leavesExact; rw [live1_0 t], after1_0]
      rw [Dat.leavesExact_idle (dat1 V c) 1 t (idleOut1_M t (fun h => h0 ((hfirst1 t).mp h)) (fun h => h1 ((hlast1 t).mp h))) (noFlush1_M t (fun h => h0 ((hfirst1 t).mp h)) (fun h => h1 ((hlast1 t).mp h)))]
      rw [tot1_M V c t h0 h1]
      unfold acc1_M; (try dsimp only)
      by_cases hz : t.val = 0
      · exfalso; omega
      ·
        rw [Inv1_castSucc V c t, Inv1_pos V c _ _ hz]
        iintro ⟨⟨⟨HS0, Hoth⟩, Hg⟩, Ho, ⟨%d0, H0⟩, ⟨%dO, HO⟩⟩
        iapply ((run1_M c (grid1.coords t) _ _ _ _ _ _ (fun h => h0 ((hfirst1 t).mp h)) (fun h => h1 ((hlast1 t).mp h)) (iblk1 V c 0 t) _).2.2 _ Set.univ _)
        isplitl [H0]; · iexact H0
        isplitl [HO]; · iexact HO
        isplitl [HS0]; · iexact HS0
        iintro ⟨H0, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_M _ _ _ _ _ _ _ _ _ _ _ _)
            iexact Hoth
          iexact Hg
        isplitl [Ho]; · iexact Ho
        isplitl [H0]; · iexact H0
        iexists _; iexact HO

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives the class's back: the running total's contents are forgotten. -/
theorem hout1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 16 := N_1; omega), PhiA1_eq]
  iintro ⟨⟨HS0, Hoth⟩, Hg⟩
  isplitl [HS0 Hoth]
  · isplitl [HS0]
    · iexists _; iexact HS0
    iexact Hoth
  iexact Hg

end Cert.KernelIdeal.Gen

end
-- ==== Proof.IdealSpmm.lean ====
/-
  The third kernel region: the normalised aggregation. The grid is 4 × 4; point (i, k) reads the 2048 × 2048 tile
  (i, k) of the adjacency matrix, rows 2048·k … of the scaled features, rows 2048·i … of the normalising column and the
  bias row. A 2048 × 128 block of running totals is kept between the four points of a row of the grid: reset at k = 0,
  each point adds the product of its tile with its rows of scaled features, and at k = 3 the totals, scaled row by row
  by the normalising column and with the bias row added, are stored into rows 2048·i … of the result, which is idle at
  the other points. Stated for any contents `V` of the buffers when the region is entered.
-/
import proofs.«133814_j53309134078171_1_alg».proof.Proof.Gen.KernelIdeal.Launch
import proofs.«133814_j53309134078171_1_alg».proof.Proof.Gen.KernelIdeal.Skeleton
import proofs.«133814_j53309134078171_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where a point sits in its row of four -/

/-- The body's first branch is taken: the point is the first of its row (the running total is reset). -/
abbrev first2 (i : grid2.Coords) : Prop := (Scalar.cmpi .ne (Scalar.extui (Scalar.cmpi .eq (BitVec.ofNat 32 (i 1).val) 0#32)) 0#32) = 1#1
theorem hfirst2 : ∀ t : Fin cfg2.N, first2 (grid2.coords t) ↔ t.val % 4 = 0 :=
  (by decide +kernel : ∀ t : Fin grid2.N, first2 (grid2.coords t) ↔ t.val % 4 = 0)
/-- The body's last branch is taken: the point is the last of its row (the result is stored). -/
abbrev last2 (i : grid2.Coords) : Prop := k2_cond2 i = 1#1
theorem hlast2 : ∀ t : Fin cfg2.N, last2 (grid2.coords t) ↔ t.val % 4 = 3 :=
  (by decide +kernel : ∀ t : Fin grid2.N, last2 (grid2.coords t) ↔ t.val % 4 = 3)

/-! ## Where the windows are idle -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem idleOut2_F : ∀ t : Fin cfg2.N, first2 (grid2.coords t) → ¬last2 (grid2.coords t) → cfg2.idle 4 (grid2.coords t) = true := by decide +kernel
theorem noFlush2_F : ∀ t : Fin cfg2.N, first2 (grid2.coords t) → ¬last2 (grid2.coords t) → (cfg2.win 4).flush t = false := by decide +kernel
theorem idleOut2_M : ∀ t : Fin cfg2.N, ¬first2 (grid2.coords t) → ¬last2 (grid2.coords t) → cfg2.idle 4 (grid2.coords t) = true := by decide +kernel
theorem noFlush2_M : ∀ t : Fin cfg2.N, ¬first2 (grid2.coords t) → ¬last2 (grid2.coords t) → (cfg2.win 4).flush t = false := by decide +kernel
theorem liveOut2_L : ∀ t : Fin cfg2.N, ¬first2 (grid2.coords t) → last2 (grid2.coords t) → cfg2.idle 4 (grid2.coords t) = false := by decide +kernel

/-! ## The staging memrefs, the running total's buffer -/

abbrev VO2 : View sig .tc .vmem S2048x128 .f32 := (Memref.whole cc2_stg4_0 : Memref sig .tc .vmem S2048x128 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x128 .f32 := win2_4.stage (cfg2.slots t 4)
abbrev hs2_4 (t : Fin cfg2.N) : (ms2_4 t).IsWhole := hstage2_4 ((cfg2.slots t 4).cast nbuf2_4)
abbrev scM2 : Memref sig .tc .vmem S2048x128 .f32 := Memref.whole cc2_scratch0
abbrev VS2 : View sig .tc .vmem S2048x128 .f32 := scM2.view

/-- The scoped buffers of the other regions, which this region's body never touches: each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- Taking the running total's buffer out of the list of scoped buffers, and putting it back. -/
theorem takeScr2 (c : Dev nD) :
    (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_scratch0), ((c : Thread nD τ).loc cc2_scratch0) ↦{fullShare} f)) : sProp 𝕄)
      ⊢ iprop((∃ d : Buf (Elt F) ((c : Thread nD τ).loc cc2_scratch0), ((c : Thread nD τ).loc cc2_scratch0) ↦{fullShare} d) ∗ others2 (F := F) c) := by
  unfold others2
  iintro ⟨H0, H1, H2, H3, H4, H5, H6, H7, H8, H9, H10, H11⟩
  isplitl [H11]; · iexact H11
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem putScr2 (c : Dev nD) :
    (iprop((∃ d : Buf (Elt F) ((c : Thread nD τ).loc cc2_scratch0), ((c : Thread nD τ).loc cc2_scratch0) ↦{fullShare} d) ∗ others2 (F := F) c) : sProp 𝕄)
      ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_scratch0), ((c : Thread nD τ).loc cc2_scratch0) ↦{fullShare} f)) := by
  unfold others2
  iintro ⟨HS, H0, H1, H2, H3, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HS

/-- The class's invariant, with the running total's buffer owned at some contents beside the other regions' buffers. -/
theorem PhiA2_eq (c : Dev nD) :
    (Pipeline.ΦA spec2 c : sProp 𝕄)
      = iprop(iprop((∃ d, owns (c : Thread nD τ) scM2 fullShare d) ∗ others2 (F := F) c) ∗ (∃ r, prngReg c r)) := by
  unfold Pipeline.ΦA; rw [scopedRest2_eq]; simp only [scM2, owns_whole]
  exact congrArg (fun X : sProp 𝕄 => iprop(X ∗ ∃ r, prngReg c r)) (Idealize.SL.BI.Entails.antisymm (takeScr2 c) (putScr2 c))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body, position by position -/

set_option maxHeartbeats 4000000 in
/-- The body in the first position of a row of grid points: the pieces its stores leave in the result's buffer and in the running total, with the proof that it runs to them. -/
noncomputable def run2_F (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : first2 i) (hc1 : ¬last2 i)
    (x0 : Vec F S2048x2048 .bf16) (x1 : Vec F S2048x128 .bf16) (x2 : Vec F S2048x1 .f32) (x3 : Vec F S1x128 .f32) :
    Σ' (L1 : List (View.Piece (Elt F) S2048x128 .f32)), { LS0 : List (View.Piece (Elt F) S2048x128 .f32) //
      ∀ (xi1 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi1 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi1 ∗ (∃ f, arg7.view.loc (c : Thread nD τ) ↦[arg7.view.set]{fullShare} arg7.view.writes (Elt F) f LS0)) -∗ K ⟨⟩))
          ⊢ wp frame (wpE (defs₀ (F := F)) Variants.none c none) E (cc2__spmm_kernel i arg2 harg2 arg3 harg3 arg4 harg4 arg5 harg5 arg6 harg6 arg7 harg7) K } := by
  refine ⟨[], ?_, fun xi1 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%f3, %hf3, H3⟩, ⟨%fo1, %hfo1, HO⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hfo1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS0

set_option maxHeartbeats 4000000 in
/-- The body in the middle position of a row of grid points: the pieces its stores leave in the result's buffer and in the running total, with the proof that it runs to them. -/
noncomputable def run2_M (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : ¬last2 i)
    (x0 : Vec F S2048x2048 .bf16) (x1 : Vec F S2048x128 .bf16) (x2 : Vec F S2048x1 .f32) (x3 : Vec F S1x128 .f32) (xs0 : Vec F S2048x128 .f32) :
    Σ' (L1 : List (View.Piece (Elt F) S2048x128 .f32)), { LS0 : List (View.Piece (Elt F) S2048x128 .f32) //
      ∀ (xi1 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi1 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi1 ∗ (∃ f, arg7.view.loc (c : Thread nD τ) ↦[arg7.view.set]{fullShare} arg7.view.writes (Elt F) f LS0)) -∗ K ⟨⟩))
          ⊢ wp frame (wpE (defs₀ (F := F)) Variants.none c none) E (cc2__spmm_kernel i arg2 harg2 arg3 harg3 arg4 harg4 arg5 harg5 arg6 harg6 arg7 harg7) K } := by
  refine ⟨[], ?_, fun xi1 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%f3, %hf3, H3⟩, ⟨%fo1, %hfo1, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfo1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS0

set_option maxHeartbeats 4000000 in
/-- The body in the last position of a row of grid points: the pieces its stores leave in the result's buffer and in the running total, with the proof that it runs to them. -/
noncomputable def run2_L (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) :
    Σ' (L1 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f LS0)) -∗ K ⟨⟩))
          ⊢ wp frame (wpE (defs₀ (F := F)) Variants.none c none) E (cc2__spmm_kernel i arg2 harg2 arg3 harg3 arg4 harg4 arg5 harg5 arg6 harg6 arg7 harg7) K } := by
  refine ⟨?_, ?_, fun E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%f3, %hf3, H3⟩, ⟨%d1, %fo1, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS0

/-- What that position leaves in the result's staging buffer (nothing is stored: a placeholder nothing consults, the window being idle there). -/
def out2_F (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : first2 i) (hc1 : ¬last2 i)
    (x0 : Vec F S2048x2048 .bf16) (x1 : Vec F S2048x128 .bf16) (x2 : Vec F S2048x1 .f32) (x3 : Vec F S1x128 .f32) : Vec F S2048x128 .f32 :=
  VO2.read (Elt F) (VO2.writes (Elt F) VO2.junk (run2_F c i arg2 harg2 arg3 harg3 arg4 harg4 arg5 harg5 arg6 harg6 arg7 harg7 hc0 hc1 x0 x1 x2 x3).1)

/-- Its stores into the running total cover it. -/
theorem scover2_F (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : first2 i) (hc1 : ¬last2 i)
    (x0 : Vec F S2048x2048 .bf16) (x1 : Vec F S2048x128 .bf16) (x2 : Vec F S2048x1 .f32) (x3 : Vec F S1x128 .f32) (y : S2048x128.Idx) :
    ∃ pc ∈ (run2_F c i arg2 harg2 arg3 harg3 arg4 harg4 arg5 harg5 arg6 harg6 arg7 harg7 hc0 hc1 x0 x1 x2 x3).2.1, y ∈ pc.1.set :=
  View.cover_of_tiledL (run2_F c i arg2 harg2 arg3 harg3 arg4 harg4 arg5 harg5 arg6 harg6 arg7 harg7 hc0 hc1 x0 x1 x2 x3).2.1 S2048x128.size (by sl_kernel_rfl) y

/-- What that position leaves in the running total. -/
def acc2_F (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : first2 i) (hc1 : ¬last2 i)
    (x0 : Vec F S2048x2048 .bf16) (x1 : Vec F S2048x128 .bf16) (x2 : Vec F S2048x1 .f32) (x3 : Vec F S1x128 .f32) : Vec F S2048x128 .f32 :=
  VS2.read (Elt F) (VS2.writes (Elt F) VS2.junk (run2_F c i arg2 harg2 arg3 harg3 arg4 harg4 arg5 harg5 arg6 harg6 arg7 harg7 hc0 hc1 x0 x1 x2 x3).2.1)

/-- What that position leaves in the result's staging buffer (nothing is stored: a placeholder nothing consults, the window being idle there). -/
def out2_M (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : ¬last2 i)
    (x0 : Vec F S2048x2048 .bf16) (x1 : Vec F S2048x128 .bf16) (x2 : Vec F S2048x1 .f32) (x3 : Vec F S1x128 .f32) (xs0 : Vec F S2048x128 .f32) : Vec F S2048x128 .f32 :=
  VO2.read (Elt F) (VO2.writes (Elt F) VO2.junk (run2_M c i arg2 harg2 arg3 harg3 arg4 harg4 arg5 harg5 arg6 harg6 arg7 harg7 hc0 hc1 x0 x1 x2 x3 xs0).1)

/-- Its stores into the running total cover it. -/
theorem scover2_M (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : ¬last2 i)
    (x0 : Vec F S2048x2048 .bf16) (x1 : Vec F S2048x128 .bf16) (x2 : Vec F S2048x1 .f32) (x3 : Vec F S1x128 .f32) (xs0 : Vec F S2048x128 .f32) (y : S2048x128.Idx) :
    ∃ pc ∈ (run2_M c i arg2 harg2 arg3 harg3 arg4 harg4 arg5 harg5 arg6 harg6 arg7 harg7 hc0 hc1 x0 x1 x2 x3 xs0).2.1, y ∈ pc.1.set :=
  View.cover_of_tiledL (run2_M c i arg2 harg2 arg3 harg3 arg4 harg4 arg5 harg5 arg6 harg6 arg7 harg7 hc0 hc1 x0 x1 x2 x3 xs0).2.1 S2048x128.size (by sl_kernel_rfl) y

/-- What that position leaves in the running total. -/
def acc2_M (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : ¬last2 i)
    (x0 : Vec F S2048x2048 .bf16) (x1 : Vec F S2048x128 .bf16) (x2 : Vec F S2048x1 .f32) (x3 : Vec F S1x128 .f32) (xs0 : Vec F S2048x128 .f32) : Vec F S2048x128 .f32 :=
  VS2.read (Elt F) (VS2.writes (Elt F) VS2.junk (run2_M c i arg2 harg2 arg3 harg3 arg4 harg4 arg5 harg5 arg6 harg6 arg7 harg7 hc0 hc1 x0 x1 x2 x3 xs0).2.1)

/-- The stores of that position into the result's buffer cover it. -/
theorem ocover2_L (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) (y : S2048x128.Idx) :
    ∃ pc ∈ (run2_L c i arg2 harg2 arg3 harg3 arg4 harg4 arg5 harg5 arg6 harg6 arg7 harg7 hc0 hc1 x0 x1 x2 x3 xs0).1, y ∈ pc.1.set :=
  View.cover_of_tiledL (run2_L c i arg2 harg2 arg3 harg3 arg4 harg4 arg5 harg5 arg6 harg6 arg7 harg7 hc0 hc1 x0 x1 x2 x3 xs0).1 S2048x128.size (by sl_kernel_rfl) y

/-- What that position leaves in the result's staging buffer. -/
def out2_L (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) : Vec F S2048x128 .f32 :=
  VO2.read (Elt F) (VO2.writes (Elt F) VO2.junk (run2_L c i arg2 harg2 arg3 harg3 arg4 harg4 arg5 harg5 arg6 harg6 arg7 harg7 hc0 hc1 x0 x1 x2 x3 xs0).1)

/-- Its stores into the running total cover it. -/
theorem scover2_L (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) (y : S2048x128.Idx) :
    ∃ pc ∈ (run2_L c i arg2 harg2 arg3 harg3 arg4 harg4 arg5 harg5 arg6 harg6 arg7 harg7 hc0 hc1 x0 x1 x2 x3 xs0).2.1, y ∈ pc.1.set :=
  View.cover_of_tiledL (run2_L c i arg2 harg2 arg3 harg3 arg4 harg4 arg5 harg5 arg6 harg6 arg7 harg7 hc0 hc1 x0 x1 x2 x3 xs0).2.1 S2048x128.size (by sl_kernel_rfl) y

/-- What that position leaves in the running total. -/
def acc2_L (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) : Vec F S2048x128 .f32 :=
  VS2.read (Elt F) (VS2.writes (Elt F) VS2.junk (run2_L c i arg2 harg2 arg3 harg3 arg4 harg4 arg5 harg5 arg6 harg6 arg7 harg7 hc0 hc1 x0 x1 x2 x3 xs0).2.1)

/-! ## What the result's buffer and the running total hold after each point -/

/-- After the body at position `n`: the result's staging buffer and the running total, by recursion on the position —
    the first point of a row starts afresh, every other continues from what the point before left. -/
def tot2 (c : Dev nD) : (n : ℕ) → n < cfg2.N → Vec F S2048x128 .f32 × Vec F S2048x128 .f32
  | 0, hn => (out2_F c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hfirst2 ⟨0, hn⟩).mpr (Nat.zero_mod _)) (fun h => (fun h => by (try dsimp only at h); omega) ((hlast2 ⟨0, hn⟩).mp h)) (iblk2 V c 0 ⟨0, hn⟩) (iblk2 V c 1 ⟨0, hn⟩) (iblk2 V c 2 ⟨0, hn⟩) (iblk2 V c 3 ⟨0, hn⟩), acc2_F c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hfirst2 ⟨0, hn⟩).mpr (Nat.zero_mod _)) (fun h => (fun h => by (try dsimp only at h); omega) ((hlast2 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 4 = 0 then
      if h1 : (n + 1) % 4 = 3 then
        False.elim (by omega)
      else
        (out2_F c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hfirst2 ⟨n + 1, hn⟩).mpr h0) (fun h => h1 ((hlast2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), acc2_F c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hfirst2 ⟨n + 1, hn⟩).mpr h0) (fun h => h1 ((hlast2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 4 = 3 then
        (out2_L c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hfirst2 ⟨n + 1, hn⟩).mp h)) ((hlast2 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (tot2 c n (Nat.lt_of_succ_lt hn)).2, acc2_L c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hfirst2 ⟨n + 1, hn⟩).mp h)) ((hlast2 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (tot2 c n (Nat.lt_of_succ_lt hn)).2)
      else
        (out2_M c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hfirst2 ⟨n + 1, hn⟩).mp h)) (fun h => h1 ((hlast2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (tot2 c n (Nat.lt_of_succ_lt hn)).2, acc2_M c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hfirst2 ⟨n + 1, hn⟩).mp h)) (fun h => h1 ((hlast2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (tot2 c n (Nat.lt_of_succ_lt hn)).2)

theorem tot2_F (c : Dev nD) (t : Fin cfg2.N) (h0 : t.val % 4 = 0) (h1 : ¬t.val % 4 = 3) :
    tot2 V c t.val t.isLt = (out2_F c (grid2.coords t) (ms2_0 t) (hs2_0 t) (ms2_1 t) (hs2_1 t) (ms2_2 t) (hs2_2 t) (ms2_3 t) (hs2_3 t) (ms2_4 t) (hs2_4 t) scM2 (Memref.isWhole_whole _) ((hfirst2 t).mpr h0) (fun h => h1 ((hlast2 t).mp h)) (iblk2 V c 0 t) (iblk2 V c 1 t) (iblk2 V c 2 t) (iblk2 V c 3 t), acc2_F c (grid2.coords t) (ms2_0 t) (hs2_0 t) (ms2_1 t) (hs2_1 t) (ms2_2 t) (hs2_2 t) (ms2_3 t) (hs2_3 t) (ms2_4 t) (hs2_4 t) scM2 (Memref.isWhole_whole _) ((hfirst2 t).mpr h0) (fun h => h1 ((hlast2 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem tot2_M (c : Dev nD) (t : Fin cfg2.N) (h0 : ¬t.val % 4 = 0) (h1 : ¬t.val % 4 = 3) :
    tot2 V c t.val t.isLt = (out2_M c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hfirst2 t).mp h)) (fun h => h1 ((hlast2 t).mp h)) (iblk2 V c 0 t) (iblk2 V c 1 t) (iblk2 V c 2 t) (iblk2 V c 3 t) (tot2 V c (t.val - 1) (Nat.lt_of_le_of_lt (Nat.sub_le _ _) t.isLt)).2, acc2_M c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hfirst2 t).mp h)) (fun h => h1 ((hlast2 t).mp h)) (iblk2 V c 0 t) (iblk2 V c 1 t) (iblk2 V c 2 t) (iblk2 V c 3 t) (tot2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem tot2_L (c : Dev nD) (t : Fin cfg2.N) (h0 : ¬t.val % 4 = 0) (h1 : t.val % 4 = 3) :
    tot2 V c t.val t.isLt = (out2_L c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hfirst2 t).mp h)) ((hlast2 t).mpr h1) (iblk2 V c 0 t) (iblk2 V c 1 t) (iblk2 V c 2 t) (iblk2 V c 3 t) (tot2 V c (t.val - 1) (Nat.lt_of_le_of_lt (Nat.sub_le _ _) t.isLt)).2, acc2_L c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hfirst2 t).mp h)) ((hlast2 t).mpr h1) (iblk2 V c 0 t) (iblk2 V c 1 t) (iblk2 V c 2 t) (iblk2 V c 3 t) (tot2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the running total's
    buffer at what the point before left in it, and the generator register at some state. -/
def Inv2 (c : Dev nD) : (n : ℕ) → n ≤ cfg2.N → sProp 𝕄
  | 0, _ => Pipeline.ΦA spec2 c
  | n + 1, hn => iprop(iprop(owns (c : Thread nD τ) scM2 fullShare ((tot2 V c n hn).2) ∗ others2 (F := F) c) ∗ (∃ r, prngReg c r))

theorem Inv2_zero (c : Dev nD) (n : ℕ) (h : n ≤ cfg2.N) (hz : n = 0) : Inv2 V c n h = Pipeline.ΦA spec2 c := by
  subst hz; rfl
theorem Inv2_succ (c : Dev nD) (n : ℕ) (hn : n < cfg2.N) :
    Inv2 V c (n + 1) hn = iprop(iprop(owns (c : Thread nD τ) scM2 fullShare ((tot2 V c n hn).2) ∗ others2 (F := F) c) ∗ (∃ r, prngReg c r)) := rfl
theorem Inv2_pos (c : Dev nD) (n : ℕ) (h : n ≤ cfg2.N) (hz : n ≠ 0) :
    Inv2 V c n h = iprop(iprop(owns (c : Thread nD τ) scM2 fullShare ((tot2 V c (n - 1) (by omega)).2) ∗ others2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (tot2 V c t.val t.isLt).1
  Φ t := Inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Inv2_castSucc (c : Dev nD) (t : Fin cfg2.N) :
    (dat2 V c).Φ t.castSucc = Inv2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (tot2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Inv2 V c (t.val + 1) t.isLt from rfl, Inv2_succ]
  have hN : t.val < 16 := lt_of_lt_of_eq t.isLt (show cfg2.N = 16 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idleOut2_F t ((hfirst2 t).mpr h0) (fun h => h1 ((hlast2 t).mp h))) (noFlush2_F t ((hfirst2 t).mpr h0) (fun h => h1 ((hlast2 t).mp h)))]
      rw [tot2_F V c t h0 h1]
      unfold acc2_F; (try dsimp only)
      by_cases hz : t.val = 0
      ·
        rw [Inv2_castSucc V c t, Inv2_zero V c _ _ hz, PhiA2_eq]
        iintro ⟨⟨⟨HS0, Hoth⟩, Hg⟩, Ho, ⟨%d0, H0⟩, ⟨%d1, H1⟩, ⟨%d2, H2⟩, ⟨%d3, H3⟩, ⟨%dO, HO⟩⟩
        iapply ((run2_F c (grid2.coords t) _ _ _ _ _ _ _ _ _ _ _ _ ((hfirst2 t).mpr h0) (fun h => h1 ((hlast2 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [HO]; · iexact HO
        isplitl [HS0]; · iexact HS0
        iintro ⟨H0, H1, H2, H3, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_F _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact HO
      ·
        rw [Inv2_castSucc V c t, Inv2_pos V c _ _ hz]
        iintro ⟨⟨⟨HS0, Hoth⟩, Hg⟩, Ho, ⟨%d0, H0⟩, ⟨%d1, H1⟩, ⟨%d2, H2⟩, ⟨%d3, H3⟩, ⟨%dO, HO⟩⟩
        iapply ((run2_F c (grid2.coords t) _ _ _ _ _ _ _ _ _ _ _ _ ((hfirst2 t).mpr h0) (fun h => h1 ((hlast2 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [HO]; · iexact HO
        isplitl [HS0]; · iexists _; iexact HS0
        iintro ⟨H0, H1, H2, H3, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_F _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact HO
  · by_cases h1 : t.val % 4 = 3
    ·
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [show (dat2 V c).leavesExact 4 t = owns (c : Thread nD τ) (ms2_4 t) fullShare ((dat2 V c).after 4 t) from by
        unfold Dat.leavesExact; rw [liveOut2_L t (fun h => h0 ((hfirst2 t).mp h)) ((hlast2 t).mpr h1)], after2_4]
      rw [tot2_L V c t h0 h1]
      unfold out2_L acc2_L; (try dsimp only)
      by_cases hz : t.val = 0
      · exfalso; omega
      ·
        rw [Inv2_castSucc V c t, Inv2_pos V c _ _ hz]
        iintro ⟨⟨⟨HS0, Hoth⟩, Hg⟩, Ho, ⟨%d0, H0⟩, ⟨%d1, H1⟩, ⟨%d2, H2⟩, ⟨%d3, H3⟩, ⟨%dO, HO⟩⟩
        iapply ((run2_L c (grid2.coords t) _ _ _ _ _ _ _ _ _ _ _ _ (fun h => h0 ((hfirst2 t).mp h)) ((hlast2 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [HO]; · iexists _; iexact HO
        isplitl [HS0]; · iexact HS0
        iintro ⟨H0, H1, H2, H3, ⟨%e1, HO⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_L _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact HO
        ipureintro; exact View.read_writes_of_cover _ _ _ _ _ (ocover2_L _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idleOut2_M t (fun h => h0 ((hfirst2 t).mp h)) (fun h => h1 ((hlast2 t).mp h))) (noFlush2_M t (fun h => h0 ((hfirst2 t).mp h)) (fun h => h1 ((hlast2 t).mp h)))]
      rw [tot2_M V c t h0 h1]
      unfold acc2_M; (try dsimp only)
      by_cases hz : t.val = 0
      · exfalso; omega
      ·
        rw [Inv2_castSucc V c t, Inv2_pos V c _ _ hz]
        iintro ⟨⟨⟨HS0, Hoth⟩, Hg⟩, Ho, ⟨%d0, H0⟩, ⟨%d1, H1⟩, ⟨%d2, H2⟩, ⟨%d3, H3⟩, ⟨%dO, HO⟩⟩
        iapply ((run2_M c (grid2.coords t) _ _ _ _ _ _ _ _ _ _ _ _ (fun h => h0 ((hfirst2 t).mp h)) (fun h => h1 ((hlast2 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [HO]; · iexact HO
        isplitl [HS0]; · iexact HS0
        iintro ⟨H0, H1, H2, H3, HO, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_M _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact HO

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Inv2 V c 0 (Nat.zero_le _) from rfl, Inv2_zero V c 0 _ rfl]
  try exact Idealize.SL.BI.Entails.refl _

/-- After the last point the invariant gives the class's back: the running total's contents are forgotten. -/
theorem hout2 (c : Dev nD) : (dat2 V c).Φ (Fin.last cfg2.N) ⊢ Pipeline.ΦA spec2 c := by
  rw [show (dat2 V c).Φ (Fin.last cfg2.N) = Inv2 V c (Fin.last cfg2.N).val (Nat.le_of_lt_succ (Fin.last cfg2.N).isLt) from rfl,
    Inv2_pos V c _ _ (by rw [Fin.val_last]; have : cfg2.N = 16 := N_2; omega), PhiA2_eq]
  iintro ⟨⟨HS0, Hoth⟩, Hg⟩
  isplitl [HS0 Hoth]
  · isplitl [HS0]
    · iexists _; iexact HS0
    iexact Hoth
  iexact Hg

end Cert.KernelIdeal.Gen

end
-- ==== Proof.IdealRun.lean ====
/-
  The whole program: three kernel regions among three stretches of host operations. The contents of the
  unscoped buffers are followed from the launch through every boundary — a host stretch applies its operations,
  a region leaves its arrays at what its write-backs produce and every other buffer alone — and every weakly fair
  execution is shown to terminate with every unscoped buffer at the last boundary's contents. The argument arrays
  are read back through the boundaries to their launch contents; the result array is the last region's.
-/
import proofs.«133814_j53309134078171_1_alg».proof.Proof.IdealLinear
import proofs.«133814_j53309134078171_1_alg».proof.Proof.IdealDegree
import proofs.«133814_j53309134078171_1_alg».proof.Proof.IdealSpmm
import proofs.«133814_j53309134078171_1_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev bd0 : Dev nD → Valuation τ sig (Elt F) := fun c b => m (c, b)
/-- After the first host stretch (the first region's entry). -/
abbrev bd1 : Dev nD → Valuation τ sig (Elt F) := fun c => StableHlo.after hostOps0 (bd0 m c)
abbrev ent0 : (c : Dev nD) → (b : Ref sig .tc) → Buf (Elt F) ((c : Thread nD τ).loc b) := fun c b => bd1 m c b
/-- After region 0: its arrays at what its write-backs leave, every other buffer as entered. -/
def bd2 (c : Dev nD) : Valuation τ sig (Elt F) :=
  Pipeline.withArrays spec0 c (bd1 m c) fun w => (dat0 (ent0 m) c).arrAt w cfg0.N
theorem bd2_arr (c : Dev nD) (w : Fin cfg0.W) :
    bd2 m c (Proc.devRef .tc (Pipeline.arrRef spec0 w)) = (dat0 (ent0 m) c).arrAt w cfg0.N := by
  unfold bd2; exact Pipeline.withArrays_arr spec0 launch0.win.arr_inj c _ _ w
theorem bd2_of_ne (c : Dev nD) (b : Ref sig .tc) (hb : ∀ w, Pipeline.arrRef spec0 w ≠ b) :
    bd2 m c (Proc.devRef .tc b) = bd1 m c (Proc.devRef .tc b) := by
  unfold bd2; exact Pipeline.withArrays_of_ne spec0 c _ _ b hb
theorem exitArr0 (c : Dev nD) (w : Fin cfg0.W) : (dat0 (ent0 m) c).arrAt w cfg0.N = bd2 m c (Proc.devRef .tc (Pipeline.arrRef spec0 w)) :=
  (bd2_arr m c w).symm
theorem exitRest0 (c : Dev nD) : ∀ b, b ∉ Finset.univ.image (Pipeline.arrRef spec0) → bd2 m c (Proc.devRef .tc b) = ent0 m c b :=
  fun b hb => bd2_of_ne m c b fun w e => hb (Finset.mem_image.mpr ⟨w, Finset.mem_univ _, e⟩)

/-- After the second host stretch (the second region's entry). -/
abbrev bd3 : Dev nD → Valuation τ sig (Elt F) := fun c => StableHlo.after hostOps1 (bd2 m c)
abbrev ent1 : (c : Dev nD) → (b : Ref sig .tc) → Buf (Elt F) ((c : Thread nD τ).loc b) := fun c b => bd3 m c b
/-- After region 1: its arrays at what its write-backs leave, every other buffer as entered. -/
def bd4 (c : Dev nD) : Valuation τ sig (Elt F) :=
  Pipeline.withArrays spec1 c (bd3 m c) fun w => (dat1 (ent1 m) c).arrAt w cfg1.N
theorem bd4_arr (c : Dev nD) (w : Fin cfg1.W) :
    bd4 m c (Proc.devRef .tc (Pipeline.arrRef spec1 w)) = (dat1 (ent1 m) c).arrAt w cfg1.N := by
  unfold bd4; exact Pipeline.withArrays_arr spec1 launch1.win.arr_inj c _ _ w
theorem bd4_of_ne (c : Dev nD) (b : Ref sig .tc) (hb : ∀ w, Pipeline.arrRef spec1 w ≠ b) :
    bd4 m c (Proc.devRef .tc b) = bd3 m c (Proc.devRef .tc b) := by
  unfold bd4; exact Pipeline.withArrays_of_ne spec1 c _ _ b hb
theorem exitArr1 (c : Dev nD) (w : Fin cfg1.W) : (dat1 (ent1 m) c).arrAt w cfg1.N = bd4 m c (Proc.devRef .tc (Pipeline.arrRef spec1 w)) :=
  (bd4_arr m c w).symm
theorem exitRest1 (c : Dev nD) : ∀ b, b ∉ Finset.univ.image (Pipeline.arrRef spec1) → bd4 m c (Proc.devRef .tc b) = ent1 m c b :=
  fun b hb => bd4_of_ne m c b fun w e => hb (Finset.mem_image.mpr ⟨w, Finset.mem_univ _, e⟩)

/-- After the third host stretch (the third region's entry). -/
abbrev bd5 : Dev nD → Valuation τ sig (Elt F) := fun c => StableHlo.after hostOps2 (bd4 m c)
abbrev ent2 : (c : Dev nD) → (b : Ref sig .tc) → Buf (Elt F) ((c : Thread nD τ).loc b) := fun c b => bd5 m c b
/-- After region 2: its arrays at what its write-backs leave, every other buffer as entered. -/
def bd6 (c : Dev nD) : Valuation τ sig (Elt F) :=
  Pipeline.withArrays spec2 c (bd5 m c) fun w => (dat2 (ent2 m) c).arrAt w cfg2.N
theorem bd6_arr (c : Dev nD) (w : Fin cfg2.W) :
    bd6 m c (Proc.devRef .tc (Pipeline.arrRef spec2 w)) = (dat2 (ent2 m) c).arrAt w cfg2.N := by
  unfold bd6; exact Pipeline.withArrays_arr spec2 launch2.win.arr_inj c _ _ w
theorem bd6_of_ne (c : Dev nD) (b : Ref sig .tc) (hb : ∀ w, Pipeline.arrRef spec2 w ≠ b) :
    bd6 m c (Proc.devRef .tc b) = bd5 m c (Proc.devRef .tc b) := by
  unfold bd6; exact Pipeline.withArrays_of_ne spec2 c _ _ b hb
theorem exitArr2 (c : Dev nD) (w : Fin cfg2.W) : (dat2 (ent2 m) c).arrAt w cfg2.N = bd6 m c (Proc.devRef .tc (Pipeline.arrRef spec2 w)) :=
  (bd6_arr m c w).symm
theorem exitRest2 (c : Dev nD) : ∀ b, b ∉ Finset.univ.image (Pipeline.arrRef spec2) → bd6 m c (Proc.devRef .tc b) = ent2 m c b :=
  fun b hb => bd6_of_ne m c b fun w e => hb (Finset.mem_image.mpr ⟨w, Finset.mem_univ _, e⟩)

/-! ## The arguments end as launched -/

/-- `main_arg0` ends as launched: no host operation writes it, and a region only reads it. -/
theorem bd6_main_arg0 (c : Dev nD) : bd6 m c (Proc.devRef .tc main_arg0) = m ((c : Thread nD τ).loc main_arg0) :=
  calc bd6 m c (Proc.devRef .tc main_arg0)
    _ = bd5 m c (Proc.devRef .tc main_arg0) := bd6_of_ne m c main_arg0 (by decide)
    _ = bd4 m c (Proc.devRef .tc main_arg0) := StableHlo.after_of_writes_sub hostOps2 _ hostOps2_writes (by decide)
    _ = bd3 m c (Proc.devRef .tc main_arg0) := bd4_of_ne m c main_arg0 (by decide)
    _ = bd2 m c (Proc.devRef .tc main_arg0) := StableHlo.after_of_writes_sub hostOps1 _ hostOps1_writes (by decide)
    _ = bd1 m c (Proc.devRef .tc main_arg0) := (bd2_arr m c 0).trans (((dat0 (ent0 m) c).arrAt_in 0 rfl _).trans (A_eq0 (ent0 m) c 0))
    _ = bd0 m c (Proc.devRef .tc main_arg0) := StableHlo.after_of_writes_sub hostOps0 _ hostOps0_writes (by decide)
    _ = m ((c : Thread nD τ).loc main_arg0) := rfl

/-- `main_arg1` ends as launched: no host operation writes it, and a region only reads it. -/
theorem bd6_main_arg1 (c : Dev nD) : bd6 m c (Proc.devRef .tc main_arg1) = m ((c : Thread nD τ).loc main_arg1) :=
  calc bd6 m c (Proc.devRef .tc main_arg1)
    _ = bd5 m c (Proc.devRef .tc main_arg1) := bd6_of_ne m c main_arg1 (by decide)
    _ = bd4 m c (Proc.devRef .tc main_arg1) := StableHlo.after_of_writes_sub hostOps2 _ hostOps2_writes (by decide)
    _ = bd3 m c (Proc.devRef .tc main_arg1) := bd4_of_ne m c main_arg1 (by decide)
    _ = bd2 m c (Proc.devRef .tc main_arg1) := StableHlo.after_of_writes_sub hostOps1 _ hostOps1_writes (by decide)
    _ = bd1 m c (Proc.devRef .tc main_arg1) := bd2_of_ne m c main_arg1 (by decide)
    _ = bd0 m c (Proc.devRef .tc main_arg1) := StableHlo.after_of_writes_sub hostOps0 _ hostOps0_writes (by decide)
    _ = m ((c : Thread nD τ).loc main_arg1) := rfl

/-- `main_arg2` ends as launched: no host operation writes it, and a region only reads it. -/
theorem bd6_main_arg2 (c : Dev nD) : bd6 m c (Proc.devRef .tc main_arg2) = m ((c : Thread nD τ).loc main_arg2) :=
  calc bd6 m c (Proc.devRef .tc main_arg2)
    _ = bd5 m c (Proc.devRef .tc main_arg2) := bd6_of_ne m c main_arg2 (by decide)
    _ = bd4 m c (Proc.devRef .tc main_arg2) := StableHlo.after_of_writes_sub hostOps2 _ hostOps2_writes (by decide)
    _ = bd3 m c (Proc.devRef .tc main_arg2) := bd4_of_ne m c main_arg2 (by decide)
    _ = bd2 m c (Proc.devRef .tc main_arg2) := StableHlo.after_of_writes_sub hostOps1 _ hostOps1_writes (by decide)
    _ = bd1 m c (Proc.devRef .tc main_arg2) := (bd2_arr m c 1).trans (((dat0 (ent0 m) c).arrAt_in 1 rfl _).trans (A_eq0 (ent0 m) c 1))
    _ = bd0 m c (Proc.devRef .tc main_arg2) := StableHlo.after_of_writes_sub hostOps0 _ hostOps0_writes (by decide)
    _ = m ((c : Thread nD τ).loc main_arg2) := rfl

/-- `main_arg3` ends as launched: no host operation writes it, and a region only reads it. -/
theorem bd6_main_arg3 (c : Dev nD) : bd6 m c (Proc.devRef .tc main_arg3) = m ((c : Thread nD τ).loc main_arg3) :=
  calc bd6 m c (Proc.devRef .tc main_arg3)
    _ = bd5 m c (Proc.devRef .tc main_arg3) := bd6_of_ne m c main_arg3 (by decide)
    _ = bd4 m c (Proc.devRef .tc main_arg3) := StableHlo.after_of_writes_sub hostOps2 _ hostOps2_writes (by decide)
    _ = bd3 m c (Proc.devRef .tc main_arg3) := bd4_of_ne m c main_arg3 (by decide)
    _ = bd2 m c (Proc.devRef .tc main_arg3) := StableHlo.after_of_writes_sub hostOps1 _ hostOps1_writes (by decide)
    _ = bd1 m c (Proc.devRef .tc main_arg3) := bd2_of_ne m c main_arg3 (by decide)
    _ = bd0 m c (Proc.devRef .tc main_arg3) := StableHlo.after_of_writes_sub hostOps0 _ hostOps0_writes (by decide)
    _ = m ((c : Thread nD τ).loc main_arg3) := rfl

/-- `main_arg4` ends as launched: no host operation writes it, and a region only reads it. -/
theorem bd6_main_arg4 (c : Dev nD) : bd6 m c (Proc.devRef .tc main_arg4) = m ((c : Thread nD τ).loc main_arg4) :=
  calc bd6 m c (Proc.devRef .tc main_arg4)
    _ = bd5 m c (Proc.devRef .tc main_arg4) := bd6_of_ne m c main_arg4 (by decide)
    _ = bd4 m c (Proc.devRef .tc main_arg4) := StableHlo.after_of_writes_sub hostOps2 _ hostOps2_writes (by decide)
    _ = bd3 m c (Proc.devRef .tc main_arg4) := bd4_of_ne m c main_arg4 (by decide)
    _ = bd2 m c (Proc.devRef .tc main_arg4) := StableHlo.after_of_writes_sub hostOps1 _ hostOps1_writes (by decide)
    _ = bd1 m c (Proc.devRef .tc main_arg4) := bd2_of_ne m c main_arg4 (by decide)
    _ = bd0 m c (Proc.devRef .tc main_arg4) := StableHlo.after_of_writes_sub hostOps0 _ hostOps0_writes (by decide)
    _ = m ((c : Thread nD τ).loc main_arg4) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
  | ⟨2, _⟩ => fun c => dat2 (ent2 m) c
abbrev 𝒱n : Variants := Variants.none
abbrev Ln : GSem nD τ sig → Finset Unit := fun _ => ∅
abbrev lvn : GSem nD τ sig → Unit → ℕ := fun _ _ => 0
/-- What rides beside the buffers through every segment: the generator register at some state and the core owing nothing. -/
abbrev ride (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev lastState (c : Dev nD) : sProp 𝕄 := iprop(StableHlo.held (c : Thread nD τ) (Pipeline.ucRefs τ sig) (bd6 m c) ∗ ∃ r, prngReg c r)

/-! ## The regions as segments -/

set_option backward.isDefEq.respectTransparency.types false in
/-- Region 0 over the thread state: entered from every unscoped buffer at the contents before it, left at the contents
    after it; its arrays split out of the unscoped buffers and put back at what its write-backs leave; the generator
    register into the invariant and out; nothing owed; no semaphore of the kernel's own. -/
def rseg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Ln lvn 0 fun _ _ => rfl
  pre c := iprop(StableHlo.held (c : Thread nD τ) (Pipeline.ucRefs τ sig) (bd1 m c) ∗ ride c)
  post c := iprop(StableHlo.held (c : Thread nD τ) (Pipeline.ucRefs τ sig) (bd2 m c) ∗ ride c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (fun b => bd2 m c b) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at what its write-backs leave; the generator
    register into the invariant and out; nothing owed; no semaphore of the kernel's own. -/
def rseg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ Ln lvn 1 fun _ _ => rfl
  pre c := iprop(StableHlo.held (c : Thread nD τ) (Pipeline.ucRefs τ sig) (bd3 m c) ∗ ride c)
  post c := iprop(StableHlo.held (c : Thread nD τ) (Pipeline.ucRefs τ sig) (bd4 m c) ∗ ride c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fun b => bd4 m c b) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at what its write-backs leave; the generator
    register into the invariant and out; nothing owed; no semaphore of the kernel's own. -/
def rseg2 : Pipeline.RegionSeg (pcfgs (F := F)) adm (pdats m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ Ln lvn 2 fun _ _ => rfl
  pre c := iprop(StableHlo.held (c : Thread nD τ) (Pipeline.ucRefs τ sig) (bd5 m c) ∗ ride c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (ent2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (fun b => bd6 m c b) ((pdats m 2 c).arrAt · cfg2.N) (exitArr2 m c) (exitRest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev items : List (Pipeline.Seg (pcfgs (F := F)) adm (pdats m) () defs₀ 𝒱n Ln lvn) :=
  [ .host (hostItem hostOps0 hostOps0_sub hostOps0_fresh (bd0 m)),
    .region (rseg0 m),
    .host (hostItem hostOps1 hostOps1_sub hostOps1_fresh (bd2 m)),
    .region (rseg1 m),
    .host (hostItem hostOps2 hostOps2_sub hostOps2_fresh (bd4 m)),
    .region (rseg2 m) ]
theorem main_items (c : Dev nD) : main (F := F) c = Pipeline.Seg.run (items m) := (main_chain c).trans (by chain_rfl)

set_option backward.isDefEq.respectTransparency.types false in
/-- Every weakly fair execution of the program from memory `m` with zero counters terminates, nothing faulting, with
    every unscoped buffer of every core at the last boundary's contents. -/
theorem whole_run : θ_run defs (onTc (τ := τ) (main (F := F))) ⟨m, fun _ => 0, ρ⟩ (fun r => ∀ c : Dev nD,
      ∀ b ∈ Pipeline.ucRefs τ sig, r.2.mem (((c : Thread nD τ)).1, b) = bd6 m c b) :=
  Pipeline.θ_run_regions_kit (pcfgs (F := F)) adm (pdats m) () cellOf_inj emb₁ defs₀ 𝒱n Ln lvn m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m c) ∗ ride c)) (Tₙ := lastState m)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (bd0 m c)
        from Pipeline.unscopedBufs_held c (bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd6 m c b)
    (hfin := fun c s' => by
      iintro ⟨⟨Hh, -⟩, HSI⟩
      unfold StableHlo.held
      imodintro
      iapply (pointsTo_read_all (Pipeline.ucRefs τ sig) (fun b => (((c : Thread nD τ)).1, b)) (bd6 m c) s')
      isplitl [Hh] <;> iassumption)
    (hQ := fun s h c => h c)

/-- The frame: every argument array ends as launched. -/
theorem whole_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (bd6_main_arg0 m c),
     (h c _ (mem_uc main_arg1 (by decide))).trans (bd6_main_arg1 m c),
     (h c _ (mem_uc main_arg2 (by decide))).trans (bd6_main_arg2 m c),
     (h c _ (mem_uc main_arg3 (by decide))).trans (bd6_main_arg3 m c),
     (h c _ (mem_uc main_arg4 (by decide))).trans (bd6_main_arg4 m c)⟩) (whole_run m ρ)

/-- The result array ends at what the last region's write-backs leave. -/
theorem whole_result : θ_run defs (onTc (τ := τ) (main (F := F))) ⟨m, fun _ => 0, ρ⟩ (fun r => ∀ c : Dev nD,
      r.2.mem ((c.tc : Thread nD τ).loc main_v46) = (dat2 (ent2 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v46 (by decide))).trans (bd6_arr m c 4),
     (h c _ (mem_uc main_arg0 (by decide))).trans (bd6_main_arg0 m c),
     (h c _ (mem_uc main_arg1 (by decide))).trans (bd6_main_arg1 m c),
     (h c _ (mem_uc main_arg2 (by decide))).trans (bd6_main_arg2 m c),
     (h c _ (mem_uc main_arg3 (by decide))).trans (bd6_main_arg3 m c),
     (h c _ (mem_uc main_arg4 (by decide))).trans (bd6_main_arg4 m c)⟩) (whole_run m ρ)

end Cert.KernelIdeal.Gen

end
-- ==== Proof.LibArrays.lean ====
/-
  Small general facts about arrays of literal shapes, used by the decoder's proof and tied to no program.

  * a product of a block of rows with a whole right operand, accumulated from zero, plus a bias vector added to every
    row, read at an entry;
  * a slot of a stack of matrices, loaded as a one-slot stack and cast to a matrix, read at an entry.
-/
import Idealize.ShloMosaic.Lib.Pipeline.Value
import Idealize.ShloMosaic.Lib.ValueIdx
import Idealize.ShloMosaic.Lib.ValueLayout
import Idealize.ShloMosaic.Lib.ValueIdxRank6
import Idealize.ShloMosaic.PureOps.Ideal.Laws

noncomputable section

namespace Cert.Decoder.Lib

open Idealize.ShloMosaic Idealize.ShloMosaic.ValueIdx

/-- Rows times a whole right operand, accumulated from the zero array: entry (p, q) is the sum over the shared axis. -/
theorem matmul_rows_apply {φ₁ φ₂ : FTy} (M K N : Nat) (x : FVec Ideal ⟨2, ![M, K]⟩ φ₁) (w : FVec Ideal ⟨2, ![K, N]⟩ φ₂)
    (p : Fin M) (q : Fin N) :
    (matmul (DotDims.plain M K N) none x w (constant ⟨2, ![M, N]⟩ .f32 0x00000000#32) : FVec Ideal ⟨2, ![M, N]⟩ .f32) (ix2 p q)
      = ∑ k : Fin K, x (ix2 p k) * w (ix2 k q) := by
  show FloatOps.matmul (DotDims.plain M K N) none x w (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A bias vector, cast to one row and broadcast down M rows, reads at (p, q) its entry q. -/
theorem bias_rows_apply {α : Type} (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- Slot 0 of a one-slot stack of matrices, cast to a matrix, reads at (k, f) the stack at (0, k, f). -/
theorem slot_apply {α : Type} (K N : Nat) (v : (⟨3, ![1, K, N]⟩ : Shape).Idx → α)
    (h : (⟨3, ![1, K, N]⟩ : Shape).ShapeCasts ⟨2, ![K, N]⟩) (k : Fin K) (f : Fin N) :
    shapeCast ⟨2, ![K, N]⟩ v h (ix2 k f) = v (ix3 (0 : Fin 1) k f) :=
  shapeCast_apply v h _ _ (by
    rw [Shape.rowMajor_val_three, Shape.rowMajor_val_two]
    show (0 * K + k.val) * N + f.val = k.val * N + f.val
    rw [Nat.zero_mul, Nat.zero_add])

end Cert.Decoder.Lib

end
-- ==== Proof.LibKeepdims.lean ====
/-
  Layout operations around a KEPT UNIT AXIS, read at an index, and sums over index sets with unit axes.

  A reduction with `keepdims=True` leaves a unit axis where the reduced axis was: a vector of length `a` is recast as an
  `a × 1` column (`shapeCast_a_a1_apply`), and such a column is broadcast along its unit axis to an `a × b` array
  (`broadcastTo_a1_ab_apply`). A sum over the indices of a shape whose axes are all of size one but one is the sum over
  that axis's coordinates (`sum_idx1`, `sum_idx3_11a`, `sum_idx3_1a1`, `sum_idx3_a11`): the indices are in bijection
  with the coordinates.
-/
import Idealize.ShloMosaic.Lib.ValueIdx
import Idealize.ShloMosaic.Lib.ValueLayout
import Idealize.ShloMosaic.Lib.Pipeline.Value

namespace Idealize.ShloMosaic.Keepdims

open Idealize.ShloMosaic.ValueIdx

variable {α : Type}

/-- A vector recast as a column: entry `(i, 0)` of the column is entry `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis: entry `(p, c)` of the result is entry `(p, 0)` of the column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the indices of a vector is the sum over its coordinates. -/
theorem sum_idx1 {M : Type*} [AddCommMonoid M] {n : ℕ} (f : (⟨1, ![n]⟩ : Shape).Idx → M) :
    ∑ i, f i = ∑ a : Fin n, f (ix1 a) := by
  refine (Function.Bijective.sum_comp (e := fun a : Fin n => (ix1 a : (⟨1, ![n]⟩ : Shape).Idx)) ⟨?_, ?_⟩ f).symm
  · intro a a' h; exact congrFun h 0
  · intro j; exact ⟨j 0, (eq_ix1 j).symm⟩

/-- A sum over the indices of a `1 × 1 × n` array is the sum over the last coordinate. -/
theorem sum_idx3_11a {M : Type*} [AddCommMonoid M] {n : ℕ} (f : (⟨3, ![1, 1, n]⟩ : Shape).Idx → M) :
    ∑ i, f i = ∑ a : Fin n, f (ix3 (0 : Fin 1) (0 : Fin 1) a) := by
  refine (Function.Bijective.sum_comp
    (e := fun a : Fin n => (ix3 (0 : Fin 1) (0 : Fin 1) a : (⟨3, ![1, 1, n]⟩ : Shape).Idx)) ⟨?_, ?_⟩ f).symm
  · intro a a' h; exact congrFun h 2
  · intro j
    have h0 : (j 0).val = 0 := by have : (j 0).val < 1 := (j 0).isLt; omega
    have h1 : (j 1).val = 0 := by have : (j 1).val < 1 := (j 1).isLt; omega
    exact ⟨j 2, funext fun d => match d with
      | ⟨0, _⟩ => Fin.ext h0.symm
      | ⟨1, _⟩ => Fin.ext h1.symm
      | ⟨2, _⟩ => rfl⟩

/-- A sum over the indices of a `1 × n × 1` array is the sum over the middle coordinate. -/
theorem sum_idx3_1a1 {M : Type*} [AddCommMonoid M] {n : ℕ} (f : (⟨3, ![1, n, 1]⟩ : Shape).Idx → M) :
    ∑ i, f i = ∑ a : Fin n, f (ix3 (0 : Fin 1) a (0 : Fin 1)) := by
  refine (Function.Bijective.sum_comp
    (e := fun a : Fin n => (ix3 (0 : Fin 1) a (0 : Fin 1) : (⟨3, ![1, n, 1]⟩ : Shape).Idx)) ⟨?_, ?_⟩ f).symm
  · intro a a' h; exact congrFun h 1
  · intro j
    have h0 : (j 0).val = 0 := by have : (j 0).val < 1 := (j 0).isLt; omega
    have h2 : (j 2).val = 0 := by have : (j 2).val < 1 := (j 2).isLt; omega
    exact ⟨j 1, funext fun d => match d with
      | ⟨0, _⟩ => Fin.ext h0.symm
      | ⟨1, _⟩ => rfl
      | ⟨2, _⟩ => Fin.ext h2.symm⟩

/-- A sum over the indices of an `n × 1 × 1` array is the sum over the first coordinate. -/
theorem sum_idx3_a11 {M : Type*} [AddCommMonoid M] {n : ℕ} (f : (⟨3, ![n, 1, 1]⟩ : Shape).Idx → M) :
    ∑ i, f i = ∑ a : Fin n, f (ix3 a (0 : Fin 1) (0 : Fin 1)) := by
  refine (Function.Bijective.sum_comp
    (e := fun a : Fin n => (ix3 a (0 : Fin 1) (0 : Fin 1) : (⟨3, ![n, 1, 1]⟩ : Shape).Idx)) ⟨?_, ?_⟩ f).symm
  · intro a a' h; exact congrFun h 0
  · intro j
    have h1 : (j 1).val = 0 := by have : (j 1).val < 1 := (j 1).isLt; omega
    have h2 : (j 2).val = 0 := by have : (j 2).val < 1 := (j 2).isLt; omega
    exact ⟨j 0, funext fun d => match d with
      | ⟨0, _⟩ => rfl
      | ⟨1, _⟩ => Fin.ext h1.symm
      | ⟨2, _⟩ => Fin.ext h2.symm⟩

end Idealize.ShloMosaic.Keepdims
-- ==== Proof.IdealPayloads.lean ====
/-
  The arithmetic of the three kernels' bodies, read entry by entry at the ideal (extended real) values.

  Each value a kernel stores is a pure term over the blocks it has loaded. At explicit coordinates these terms are:
    * the linear layer's block: row p of the features against row q of the weights (the weights enter transposed), plus the bias at q;
    * the degree kernel's column: zero at the first step, then the carried column plus the sum of a row of the adjacency block;
    * the aggregation kernel's block: zero at the first step, then the carried block plus a block of rows of the adjacency times a
      block of rows of the features; and at the last step the accumulated block scaled row by row by a column, plus the bias row.
  Rounding to and from the narrow format is the identity at the ideal values, and a cast of an array to its own shape changes nothing.
-/
import proofs.«133814_j53309134078171_1_alg».proof.Proof.Gen.KernelIdeal.Skeleton
import proofs.«133814_j53309134078171_1_alg».proof.Proof.LibArrays
import proofs.«133814_j53309134078171_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.GcnBody

open Idealize.ShloMosaic Idealize.ShloMosaic.ValueIdx Idealize.ShloMosaic.Keepdims
open Cert.KernelIdeal Cert.KernelIdeal.Gen

/-- The degree kernel's first step stores the zero column. -/
theorem k1_pay1_apply (p : Fin 2048) (u : Fin 1) : k1_pay1 (F := Ideal) (ix2 p u) = 0 := by
  unfold Gen.k1_pay1
  refine (congrFun (shapeCast_self _ _) (ix2 p u)).trans ?_
  exact Ideal.ofBits_zero_f32

/-- The aggregation kernel's first step stores the zero block. -/
theorem k2_pay1_apply (p : Fin 2048) (q : Fin 128) : k2_pay1 (F := Ideal) (ix2 p q) = 0 := by
  unfold Gen.k2_pay1
  refine (congrFun (shapeCast_self _ _) (ix2 p q)).trans ?_
  exact Ideal.ofBits_zero_f32

/-- The aggregation kernel's last step: the accumulated block, each row scaled by that row's entry of a column, plus the bias row. -/
theorem k2_pay3_apply (v16 : Vec Ideal S2048x128 .f32) (v17 : Vec Ideal S2048x1 .f32) (v21 : Vec Ideal S1x128 .f32)
    (p : Fin 2048) (q : Fin 128) :
    k2_pay3 v16 v17 v21 (ix2 p q) = v16 (ix2 p q) * v17 (ix2 p (0 : Fin 1)) + v21 (ix2 (0 : Fin 1) q) := by
  unfold Gen.k2_pay3
  have e1 : broadcastTo S2048x128 (shapeCast S2048x1 v17 shapeCasts_S2048x1_S2048x1) broadcasts_S2048x1_S2048x128 (ix2 p q)
      = v17 (ix2 p (0 : Fin 1)) :=
    (broadcastTo_a1_ab_apply _ broadcasts_S2048x1_S2048x128 p q).trans
      (congrFun (shapeCast_self v17 shapeCasts_S2048x1_S2048x1) _)
  have e2 : broadcastTo S2048x128 (shapeCast S1x128 v21 shapeCasts_S1x128_S1x128) broadcasts_S1x128_S2048x128 (ix2 p q)
      = v21 (ix2 (0 : Fin 1) q) :=
    (broadcastTo_1b_ab_apply _ broadcasts_S1x128_S2048x128 p q).trans
      (congrFun (shapeCast_self v21 shapeCasts_S1x128_S1x128) _)
  show v16 (ix2 p q) * _ + _ = _
  exact congrArg₂ (· + ·) (congrArg (v16 (ix2 p q) * ·) e1) e2

/-- The degree kernel's later steps: the carried column plus, in row p, the sum of row p of the adjacency block. -/
theorem k1_pay2_apply (v3 : Vec Ideal S2048x1 .f32) (v4 : Vec Ideal S2048x2048 .bf16) (p : Fin 2048) (u : Fin 1) :
    k1_pay2 v3 v4 (ix2 p u) = v3 (ix2 p u) + ∑ j : Fin 2048, v4 (ix2 p j) := by
  unfold Gen.k1_pay2
  refine (congrFun (shapeCast_self _ _) (ix2 p u)).trans ?_
  show v3 (ix2 p u) + _ = _
  refine congrArg (v3 (ix2 p u) + ·) ?_
  refine (shapeCast_a_a1_apply _ shapeCasts_S2048_S2048x1 p u).trans ?_
  refine (Ideal.multiReduction_add_single _ _ reduces_S2048x2048_S2048 (.inl rfl) rfl (ix1 p)).trans ?_
  refine Finset.sum_congr rfl fun j _ => ?_
  show (shapeCast S2048x2048 v4 shapeCasts_S2048x2048_S2048x2048) _ = _
  refine (congrFun (shapeCast_self v4 shapeCasts_S2048x2048_S2048x2048) _).trans ?_
  refine congrArg v4 (funext fun a => ?_)
  match a with
  | ⟨0, _⟩ => rfl
  | ⟨1, _⟩ => rfl

/-- The aggregation kernel's later steps: the carried block plus the adjacency block's rows against the feature block's columns. -/
theorem k2_pay2_apply (v3 : Vec Ideal S2048x128 .f32) (v4 : Vec Ideal S2048x2048 .bf16) (v6 : Vec Ideal S2048x128 .bf16)
    (p : Fin 2048) (q : Fin 128) :
    k2_pay2 v3 v4 v6 (ix2 p q) = v3 (ix2 p q) + ∑ j : Fin 2048, v4 (ix2 p j) * v6 (ix2 j q) := by
  unfold Gen.k2_pay2
  refine (congrFun (shapeCast_self _ _) (ix2 p q)).trans ?_
  show v3 (ix2 p q) + _ = _
  refine congrArg (v3 (ix2 p q) + ·) ?_
  refine (Cert.Decoder.Lib.matmul_rows_apply 2048 2048 128
    (shapeCast S2048x2048 v4 shapeCasts_S2048x2048_S2048x2048) (shapeCast S2048x128 v6 shapeCasts_S2048x128_S2048x128) p q).trans ?_
  exact Finset.sum_congr rfl fun j _ =>
    congrArg₂ (· * ·) (congrFun (shapeCast_self v4 shapeCasts_S2048x2048_S2048x2048) _)
      (congrFun (shapeCast_self v6 shapeCasts_S2048x128_S2048x128) _)

/-- The linear layer's block: row p of the features against row q of the weights (which enter transposed), plus the bias at q. -/
theorem k0_pay1_apply (v0 : Vec Ideal S2048x128 .f32) (v2 : Vec Ideal S128x128 .f32) (v6 : Vec Ideal S1x128 .f32)
    (p : Fin 2048) (q : Fin 128) :
    k0_pay1 v0 v2 v6 (ix2 p q) = (∑ d : Fin 128, v0 (ix2 p d) * v2 (ix2 q d)) + v6 (ix2 (0 : Fin 1) q) := by
  unfold Gen.k0_pay1
  have e2 : broadcastTo S2048x128 (shapeCast S1x128 v6 shapeCasts_S1x128_S1x128) broadcasts_S1x128_S2048x128 (ix2 p q)
      = v6 (ix2 (0 : Fin 1) q) :=
    (broadcastTo_1b_ab_apply _ broadcasts_S1x128_S2048x128 p q).trans
      (congrFun (shapeCast_self v6 shapeCasts_S1x128_S1x128) _)
  refine congrArg₂ (· + ·) ?_ e2
  refine (Cert.Decoder.Lib.matmul_rows_apply 2048 128 128
    (truncf .bf16 v0 bitsLt_bf16_f32 : FVec Ideal S2048x128 .bf16)
    (transpose S128x128 [1, 0] (truncf .bf16 v2 bitsLt_bf16_f32 : FVec Ideal S128x128 .bf16) transposes_S128x128_p1_0_S128x128) p q).trans ?_
  exact Finset.sum_congr rfl fun d _ =>
    congrArg (v0 (ix2 p d) * ·)
      (transpose_ix2_apply (truncf .bf16 v2 bitsLt_bf16_f32 : FVec Ideal S128x128 .bf16) transposes_S128x128_p1_0_S128x128 d q)

end Cert.KernelIdeal.GcnBody

end
-- ==== Proof.Spec.lean ====
/-
  The mathematics of the graph-convolution layer, with no program in sight. For a feature matrix `x`
  (8192 × 128), weights `w` (128 × 128), two bias vectors and an adjacency matrix `a` (8192 × 8192):
    lin j o  = ∑ d, x[j,d] · w[o,d] + b[o]                       the linear layer,
    deg i    = ∑ j, a[i,j]                                        the row sums of the adjacency,
    dinv i   = (deg i + e) ^ p                                    (e a small positive constant, p = -1/2),
  and the two arrangements of the normalised aggregation that the certificate identifies:
    aggScaled i o = (∑ j, a[i,j] · (lin j o · dinv j)) · dinv i + bias[o]      scale the rows of `lin`, aggregate, scale the result,
    aggDense  i o = ∑ j, ((dinv i · a[i,j]) · dinv j) · lin j o + bias[o]      scale the adjacency on both sides, then aggregate.
  They agree when every entry involved is a real number (distributivity fails at the infinities of the
  extended reals, so finiteness is used).
-/
import Idealize.ShloMosaic.PureOps.Ideal
import Idealize.ShloMosaic.Lib.ValueIdx

noncomputable section

namespace Cert.Gcn

open Idealize.ShloMosaic Idealize.ShloMosaic.ValueIdx

/-- The feature matrix's shape, the weight matrix's, a bias vector's, the adjacency matrix's. -/
abbrev SX : Shape := ⟨2, ![8192, 128]⟩
abbrev SW : Shape := ⟨2, ![128, 128]⟩
abbrev SB : Shape := ⟨1, ![128]⟩
abbrev SA : Shape := ⟨2, ![8192, 8192]⟩

variable (x : SX.Idx → EReal) (w : SW.Idx → EReal) (b : SB.Idx → EReal) (bias : SB.Idx → EReal)
  (a : SA.Idx → EReal) (e p : EReal)

/-- The linear layer: row `j` of `x` against row `o` of `w`, plus `b[o]`. -/
def lin (j : Fin 8192) (o : Fin 128) : EReal := (∑ d : Fin 128, x (ix2 j d) * w (ix2 o d)) + b (ix1 o)

/-- The degree of node `i`: the sum of row `i` of the adjacency matrix. -/
def deg (i : Fin 8192) : EReal := ∑ j : Fin 8192, a (ix2 i j)

/-- The normalising factor of node `i`: `(deg i + e) ^ p`. -/
def dinv (i : Fin 8192) : EReal := Ideal.pow (deg a i + e) p

/-- Rows of `lin` scaled, aggregated over the neighbours, the result scaled, plus the bias. -/
def aggScaled (i : Fin 8192) (o : Fin 128) : EReal :=
  (∑ j : Fin 8192, a (ix2 i j) * (lin x w b j o * dinv a e p j)) * dinv a e p i + bias (ix1 o)

/-- The adjacency scaled on both sides, then aggregated against `lin`, plus the bias. -/
def aggDense (i : Fin 8192) (o : Fin 128) : EReal :=
  (∑ j : Fin 8192, ((dinv a e p i * a (ix2 i j)) * dinv a e p j) * lin x w b j o) + bias (ix1 o)

end Cert.Gcn

end
-- ==== Proof.IdealLinearValue.lean ====
/-
  The linear region's result array as one function of the arrays the region finds.

  The region's grid has four points. Point t reads rows 2048·t … 2048·t + 2047 of the feature matrix, the whole weight matrix and
  the whole bias row, and writes the same rows of the result. What it writes at local row y₀ and column y₁ is row y₀ of its
  feature block against row y₁ of the weights plus the bias at y₁; the block's row y₀ is the array's row 2048·t + y₀, so the
  written entry is the linear layer at the array index (2048·t + y₀, y₁). Every row r of the result lies in the block of point
  r / 2048, and every point writes its block back, so the array ends holding the linear layer everywhere.
-/
import proofs.«133814_j53309134078171_1_alg».proof.Proof.IdealLinear
import proofs.«133814_j53309134078171_1_alg».proof.Proof.IdealPayloads
import Idealize.ShloMosaic.Lib.Pipeline.Value
import proofs.«133814_j53309134078171_1_alg».proof.Proof.Spec
import Idealize.ShloMosaic.Lib.ValueIdx

set_option maxRecDepth 16384

noncomputable section

namespace Cert.KernelIdeal.GcnLinear

open Idealize.ShloMosaic Idealize.ShloMosaic.ValueIdx Idealize.ShloMosaic.TcCoe
open Idealize.SL.Sem
open Idealize.ShloMosaic.Pipeline (Dat Cfg Window)
open Cert.KernelIdeal Cert.KernelIdeal.Gen Cert.KernelIdeal.GcnBody

/-- A whole buffer's rectangle starts at zero on both axes. -/
theorem hz : (![0, 0] : Fin 2 → Nat) = fun _ => 0 := funext fun a => by fin_cases a <;> rfl

/-- The linear layer over whole arrays: row j₀ of the features against row j₁ of the weights, plus the bias at j₁. -/
def linOf (X : S8192x128.Idx → EReal) (W : S128x128.Idx → EReal) (B : S1x128.Idx → EReal) : S8192x128.Idx → EReal :=
  fun j => (∑ d : Fin 128, X (ix2 (j 0) d) * W (ix2 (j 1) d)) + B (ix2 (0 : Fin 1) (j 1))

/-- What the body leaves in the result's buffer, at explicit coordinates. -/
theorem lin0_apply (x0 : Vec Ideal S2048x128 .f32) (x1 : Vec Ideal S128x128 .f32) (x2 : Vec Ideal S1x128 .f32)
    (p : Fin 2048) (q : Fin 128) :
    lin0 x0 x1 x2 (ix2 p q) = (∑ d : Fin 128, x0 (ix2 p d) * x1 (ix2 q d)) + x2 (ix2 (0 : Fin 1) q) := by
  unfold lin0
  rw [View.canon_unit_zero hz]
  simp only [View.ld_unit_zero (S := S2048x128) hz, View.ld_unit_zero (S := S128x128) hz, View.ld_unit_zero (S := S1x128) hz]
  exact k0_pay1_apply x0 x1 x2 p q

/-- The body's result at a local index is the linear layer at an array index, once the three blocks it read are the arrays' entries
    that index names: the feature block's row is the array's row, the weights and the bias are read whole. -/
theorem lin0_point (X : S8192x128.Idx → EReal) (W : S128x128.Idx → EReal) (B : S1x128.Idx → EReal)
    (x0 : Vec Ideal S2048x128 .f32) (x1 : Vec Ideal S128x128 .f32) (x2 : Vec Ideal S1x128 .f32)
    (y : S2048x128.Idx) (i : S8192x128.Idx)
    (e0 : ∀ d : Fin 128, x0 (ix2 (y 0) d) = X (ix2 (i 0) d))
    (e1 : ∀ d : Fin 128, x1 (ix2 (y 1) d) = W (ix2 (i 1) d))
    (e2 : x2 (ix2 (0 : Fin 1) (y 1)) = B (ix2 (0 : Fin 1) (i 1))) :
    lin0 x0 x1 x2 y = linOf X W B i := by
  refine (congrArg (lin0 x0 x1 x2) (eq_ix2 y)).trans ?_
  refine (lin0_apply x0 x1 x2 (y 0) (y 1)).trans ?_
  show _ = (∑ d : Fin 128, X (ix2 (i 0) d) * W (ix2 (i 1) d)) + B (ix2 (0 : Fin 1) (i 1))
  rw [e2]
  exact congrArg (· + B (ix2 (0 : Fin 1) (i 1))) (Finset.sum_congr rfl fun d _ => by rw [e0 d, e1 d])

/-- The printed index maps, decided over the grid: the feature block and the result block move together down the rows, one block
    per point; the weights and the bias row are always block (0, 0). -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 3 ∧ win0_3.index t (1 : Fin 2) = 0 :=
  (by decide +kernel : ∀ t : Fin grid0.N, _)

/-- Every block of rows of the result is some point's. -/
theorem idx_onto : ∀ q0 : Fin 4, ∃ t : Fin cfg0.N, win0_3.index t (0 : Fin 2) = q0.val ∧ win0_3.index t (1 : Fin 2) = 0 :=
  (by decide +kernel : ∀ q0 : Fin 4, ∃ t : Fin grid0.N, win0_3.index t (0 : Fin 2) = q0.val ∧ win0_3.index t (1 : Fin 2) = 0)

variable (V : (c : Dev nD) → (b : Ref sig .tc) → Buf (Elt Ideal) ((c : Thread nD τ).loc b))

/-- What point t writes back is block t of the linear layer of the arrays as the region finds them. -/
theorem flushed3_eq (c : Dev nD) (t : Fin cfg0.N) :
    (dat0 (F := Ideal) V c).flushed 3 t
      = ((cfg0.win 3).blk t).view.read (Elt Ideal) (linOf (V c main_arg0) (V c main_arg2) (V c main_v0)) := by
  show (cfg0.win 3).cut (grid0.coords t) ((dat0 (F := Ideal) V c).after 3 t) = _
  rw [after0_3]
  obtain ⟨f00, f01, f10, f11, f20, f21, f30, f31⟩ := idx_facts t
  funext y
  show lin0 (iblk0 V c 0 t) (iblk0 V c 1 t) (iblk0 V c 2 t) y
    = linOf (V c main_arg0) (V c main_arg2) (V c main_v0) (((cfg0.win 3).blk t).view.emb y)
  refine lin0_point (V c main_arg0) (V c main_arg2) (V c main_v0) _ _ _ y _ (fun d => ?_) (fun d => ?_) ?_
  · show V c main_arg0 (((cfg0.win 0).blk t).view.emb (ix2 (y 0) d))
      = V c main_arg0 (ix2 ((((cfg0.win 3).blk t).view.emb y) 0) d)
    refine congrArg (V c main_arg0) (funext fun a => Fin.ext ?_)
    match a with
    | ⟨0, _⟩ =>
      show win0_0.index t (0 : Fin 2) * 2048 + 1 * (y 0).val = win0_3.index t (0 : Fin 2) * 2048 + 1 * (y 0).val
      omega
    | ⟨1, _⟩ =>
      show win0_0.index t (1 : Fin 2) * 128 + 1 * d.val = d.val
      omega
  · show V c main_arg2 (((cfg0.win 1).blk t).view.emb (ix2 (y 1) d))
      = V c main_arg2 (ix2 ((((cfg0.win 3).blk t).view.emb y) 1) d)
    refine congrArg (V c main_arg2) (funext fun a => Fin.ext ?_)
    match a with
    | ⟨0, _⟩ =>
      show win0_1.index t (0 : Fin 2) * 128 + 1 * (y 1).val = win0_3.index t (1 : Fin 2) * 128 + 1 * (y 1).val
      omega
    | ⟨1, _⟩ =>
      show win0_1.index t (1 : Fin 2) * 128 + 1 * d.val = d.val
      omega
  · show V c main_v0 (((cfg0.win 2).blk t).view.emb (ix2 (0 : Fin 1) (y 1)))
      = V c main_v0 (ix2 (0 : Fin 1) ((((cfg0.win 3).blk t).view.emb y) 1))
    refine congrArg (V c main_v0) (funext fun a => Fin.ext ?_)
    match a with
    | ⟨0, _⟩ =>
      show win0_2.index t (0 : Fin 2) * 1 + 1 * 0 = 0
      omega
    | ⟨1, _⟩ =>
      show win0_2.index t (1 : Fin 2) * 128 + 1 * (y 1).val = win0_3.index t (1 : Fin 2) * 128 + 1 * (y 1).val
      omega

/-- An index of the result is in point t's block iff each coordinate is in the block's range on its axis. -/
theorem mem_blk3 (t : Fin cfg0.N) (i : S8192x128.Idx) :
    i ∈ ((cfg0.win 3).blk t).view.set
      ↔ ∀ a : Fin 2, win0_3.index t a * S2048x128.size a ≤ (i a).val
          ∧ (i a).val < win0_3.index t a * S2048x128.size a + S2048x128.size a := by
  show i ∈ ((View.whole main_v1).slice (win0_3.rect t)).set ↔ _
  rw [View.set_slice_whole, Rect.mem_set_unit]
  exact Iff.rfl

/-- Row r of the result is in the block of point r / 2048, and that point writes its block back. -/
theorem cover3 (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  obtain ⟨t, ht0, ht1⟩ := idx_onto ⟨(i 0).val / 2048, by omega⟩
  have q0 : win0_3.index t (0 : Fin 2) = (i 0).val / 2048 := ht0
  refine ⟨t, flush0_3 t, ?_⟩
  rw [mem_blk3]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 128 ≤ (i 1).val ∧ (i 1).val < win0_3.index t (1 : Fin 2) * 128 + 128
    omega

/-- The linear layer at an index, written out. -/
theorem linOf_apply (X : S8192x128.Idx → EReal) (W : S128x128.Idx → EReal) (B : S1x128.Idx → EReal) (j : S8192x128.Idx) :
    linOf X W B j = (∑ d : Fin 128, X (ix2 (j 0) d) * W (ix2 (j 1) d)) + B (ix2 (0 : Fin 1) (j 1)) := rfl

/-- The result array after the region: the linear layer of the arrays the region found. -/
theorem linear_array (c : Dev nD) :
    (dat0 (F := Ideal) V c).arrAt 3 cfg0.N = linOf (V c main_arg0) (V c main_arg2) (V c main_v0) :=
  (dat0 (F := Ideal) V c).arrAt_eq_of_cover 3 _ (fun t _ => flushed3_eq V c t) cover3

/-- The same at one index. -/
theorem linear_array_apply (c : Dev nD) (j : S8192x128.Idx) :
    (dat0 (F := Ideal) V c).arrAt 3 cfg0.N j = linOf (V c main_arg0) (V c main_arg2) (V c main_v0) j :=
  congrFun (linear_array V c) j

/-- The linear layer over whole arrays is the specification's, the bias row read as a vector. -/
theorem linOf_eq_lin (X : S8192x128.Idx → EReal) (W : S128x128.Idx → EReal) (B : S1x128.Idx → EReal) (j : S8192x128.Idx) :
    linOf X W B j = Cert.Gcn.lin X W (fun k : Cert.Gcn.SB.Idx => B (ix2 (0 : Fin 1) (k 0))) (j 0) (j 1) := rfl

end Cert.KernelIdeal.GcnLinear

end
-- ==== Proof.HostStretches.lean ====
/-
  The small host stretches of the program, read at an index.

  Before the first kernel region one bias vector of length 128 is recast as a 1 × 128 row; between the second
  and the third region the degree column `v37` (8192 × 1) gets a small constant added and is raised to a
  constant power, the resulting column is broadcast along the rows of the 8192 × 128 matrix `v1` and
  multiplied into it (the narrowing to a shorter float format that follows is the identity on extended
  reals), and the other bias vector is recast as a row. Each of these, read at one index, is the obvious
  scalar expression; and the stretch leaves the adjacency matrix `v36` as it found it.
-/
import proofs.«133814_j53309134078171_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.HostOps

open Idealize.ShloMosaic Idealize.ShloMosaic.StableHlo Cert.KernelIdeal Cert.KernelIdeal.Gen
open Idealize.ShloMosaic.ValueIdx

variable (Vv : Valuation τ sig (Elt Ideal))

/-- The first stretch's row, as a term: the bias vector recast. -/
theorem v0_eq :
    (StableHlo.after (hostOps0 (F := Ideal)) Vv (Proc.devRef .tc main_v0) : S1x128.Idx → EReal)
      = shapeCast S1x128 (Vv (Proc.devRef .tc main_arg3) : S128.Idx → EReal) shapeCasts_S128_S1x128 := by
  show StableHlo.after hostOps0 _ (Proc.devRef .tc main_v0) = _
  after_results
  rfl

/-- (1) The row read at `(0, o)` is the bias vector at `o`. -/
theorem v0_apply (o : Fin 128) :
    (StableHlo.after (hostOps0 (F := Ideal)) Vv (Proc.devRef .tc main_v0) : S1x128.Idx → EReal) (ix2 (0 : Fin 1) o)
      = (Vv (Proc.devRef .tc main_arg3) : S128.Idx → EReal) (ix1 o) := by
  rw [v0_eq]
  exact shapeCast_a_1a_apply _ _ 0 o

/-- The second stretch's last row, as a term: the other bias vector recast. -/
theorem v45_eq :
    (StableHlo.after (hostOps2 (F := Ideal)) Vv (Proc.devRef .tc main_v45) : S1x128.Idx → EReal)
      = shapeCast S1x128 (Vv (Proc.devRef .tc main_arg4) : S128.Idx → EReal) shapeCasts_S128_S1x128 := by
  show StableHlo.after hostOps2 _ (Proc.devRef .tc main_v45) = _
  after_results
  rfl

/-- (4) That row read at `(0, o)` is the bias vector at `o`. -/
theorem v45_apply (o : Fin 128) :
    (StableHlo.after (hostOps2 (F := Ideal)) Vv (Proc.devRef .tc main_v45) : S1x128.Idx → EReal) (ix2 (0 : Fin 1) o)
      = (Vv (Proc.devRef .tc main_arg4) : S128.Idx → EReal) (ix1 o) := by
  rw [v45_eq]
  exact shapeCast_a_1a_apply _ _ 0 o

/-- The normalising column, as a term. -/
theorem v41_eq :
    (StableHlo.after (hostOps2 (F := Ideal)) Vv (Proc.devRef .tc main_v41) : S8192x1.Idx → EReal)
      = Host.powf
          (addf (Vv (Proc.devRef .tc main_v37) : S8192x1.Idx → EReal)
            (broadcastInDim S8192x1 ![] bcast_S_S8192x1 (constant (F := Ideal) S_ .f32 0x358637BD#32)))
          (broadcastInDim S8192x1 ![] bcast_S_S8192x1 (constant (F := Ideal) S_ .f32 0xBF000000#32)) := by
  show StableHlo.after hostOps2 _ (Proc.devRef .tc main_v41) = _
  after_results

/-- (2) The normalising column at row `i`: the degree plus the small constant, to the constant power. -/
theorem v41_apply (i : Fin 8192) :
    (StableHlo.after (hostOps2 (F := Ideal)) Vv (Proc.devRef .tc main_v41) : S8192x1.Idx → EReal) (ix2 i (0 : Fin 1))
      = Ideal.pow
          (HAdd.hAdd (α := EReal) (β := EReal) (γ := EReal)
            ((Vv (Proc.devRef .tc main_v37) : S8192x1.Idx → EReal) (ix2 i (0 : Fin 1)))
            (Ideal.ofBits .f32 0x358637BD#32))
          (Ideal.ofBits .f32 0xBF000000#32) := by
  rw [v41_eq]
  rfl

/-- The scaled matrix, as a term over the normalising column. -/
theorem v44_eq :
    (StableHlo.after (hostOps2 (F := Ideal)) Vv (Proc.devRef .tc main_v44) : S8192x128.Idx → EReal)
      = truncf (F := Ideal) .bf16
          (mulf (F := Ideal) (φ := .f32) (Vv (Proc.devRef .tc main_v1) : S8192x128.Idx → EReal)
            (broadcastInDim S8192x128 ![0, 1] bcast_S8192x1_S8192x128_0_1
              (StableHlo.after (hostOps2 (F := Ideal)) Vv (Proc.devRef .tc main_v41) : S8192x1.Idx → EReal)))
          bitsLt_bf16_f32 := by
  rw [v41_eq]
  show StableHlo.after hostOps2 _ (Proc.devRef .tc main_v44) = _
  after_results

/-- (3) The scaled matrix at `(j, o)`: the matrix's entry times the normalising column's entry of row `j`. -/
theorem v44_apply (j : Fin 8192) (o : Fin 128) :
    (StableHlo.after (hostOps2 (F := Ideal)) Vv (Proc.devRef .tc main_v44) : S8192x128.Idx → EReal) (ix2 j o)
      = HMul.hMul (α := EReal) (β := EReal) (γ := EReal)
          ((Vv (Proc.devRef .tc main_v1) : S8192x128.Idx → EReal) (ix2 j o))
          ((StableHlo.after (hostOps2 (F := Ideal)) Vv (Proc.devRef .tc main_v41) : S8192x1.Idx → EReal)
            (ix2 j (0 : Fin 1))) := by
  rw [v44_eq, truncf_apply, mulf_apply]
  refine congrArg (HMul.hMul (α := EReal) (β := EReal) (γ := EReal) _) ?_
  refine broadcastInDim_apply _ _ _ _ (ix2 j (0 : Fin 1)) fun a => ?_
  fin_cases a <;> rfl

/-- (5) The stretch does not touch the adjacency matrix. -/
theorem v36_unchanged :
    StableHlo.after (hostOps2 (F := Ideal)) Vv (Proc.devRef .tc main_v36) = Vv (Proc.devRef .tc main_v36) :=
  StableHlo.after_of_writes_sub hostOps2 Vv hostOps2_writes (by decide)

end Cert.Gcn.HostOps

end
-- ==== Proof.RefSide.lean ====
/-
  The reference program, read as mathematics. Its last stage is a matrix product plus a broadcast bias:
    out[i,o] = ∑ j, ((dinv i · A[i,j]) · dinv j) · h[j,o] + bias[o],
  where h[j,o] = ∑ d, x[j,d] · w[o,d] + b[o] is the linear layer (the weight matrix is transposed and
  then contracted on its first axis, so row o of w meets row j of x), A is the 8192 × 8192 adjacency
  array the two scatters leave (kept here as one opaque array of the edge list: nothing below looks
  inside it), dinv i = (0 + ∑ k, A[i,k] + e) ^ p with e the scalar the word 0x358637BD denotes and p the
  scalar the word 0xBF000000 denotes. The row factor reaches entry (i,j) through a broadcast along
  columns, the column factor through a broadcast along rows; both read the same power vector, at i
  and at j. Entry by entry this is the specification's dense arrangement `aggDense`.
-/
import proofs.«133814_j53309134078171_1_alg».proof.Proof.Gen.ReferenceIdeal.Read
import proofs.«133814_j53309134078171_1_alg».proof.Proof.Spec

noncomputable section

namespace Cert.Gcn.RefSide

open Cert.ReferenceIdeal Cert.ReferenceIdeal.Gen Idealize.ShloMosaic Idealize.ShloMosaic.TcCoe
  Idealize.ShloMosaic.ValueIdx Idealize.SL.Sem Idealize.ShloMosaic.StableHlo

/-- The adjacency matrix of an edge list: the array the reference's second scatter leaves (ones written
    at the listed positions, in both orientations, into a zero array). It is kept whole. -/
abbrev adj (ei : (⟨S2x262144, .i32⟩ : BufTy).Contents (Elt Ideal)) : SA.Idx → EReal :=
  Read.val_main_v39 (F := Ideal) ei

/-- The small constant added to a degree before the power (the scalar the reference's `9.99999997E-7` denotes). -/
abbrev eps : EReal := Ideal.ofBits .f32 0x358637BD#32

/-- The exponent of the normalisation (the scalar the reference's `-0.5` denotes). -/
abbrev negHalf : EReal := Ideal.ofBits .f32 0xBF000000#32

/-! ## Where each stage reads its operands

Entry (i, o) of the result is a sum over j. Inside it: the row factor is the power vector at i (a column
broadcast, then a broadcast along the second axis) and its degree sums row i; the column factor is the
power vector at j and its degree sums row j; the adjacency entry is (i, j); the linear layer is read
at (j, o), whose own sum over d meets x at (j, d) and, through the transpose, w at (o, d); both biases
are read at o. -/

theorem idx_row (i j k : Fin 8192) :
    Read.idx_main_v40 (Read.idx_main_v45 (Read.idx_main_v46 (ix2 i j))) k = ix2 i k :=
  funext fun a => Fin.ext (by match a with | ⟨0, _⟩ => rfl | ⟨1, _⟩ => rfl)

theorem idx_col (i j k : Fin 8192) :
    Read.idx_main_v40 (Read.idx_main_v48 (Read.idx_main_v49 (ix2 i j))) k = ix2 j k :=
  funext fun a => Fin.ext (by match a with | ⟨0, _⟩ => rfl | ⟨1, _⟩ => rfl)

theorem idx_entry (i : Fin 8192) (o : Fin 128) (j : Fin 8192) :
    Read.lidx_main_v51 (ix2 i o) j = ix2 i j :=
  funext fun a => Fin.ext (by match a with | ⟨0, _⟩ => rfl | ⟨1, _⟩ => rfl)

theorem idx_x (i : Fin 8192) (o : Fin 128) (j : Fin 8192) (d : Fin 128) :
    Read.lidx_main_v1 (Read.ridx_main_v51 (ix2 i o) j) d = ix2 j d :=
  funext fun a => Fin.ext (by match a with | ⟨0, _⟩ => rfl | ⟨1, _⟩ => rfl)

theorem idx_w (i : Fin 8192) (o : Fin 128) (j : Fin 8192) (d : Fin 128) :
    Read.idx_main_v0 (Read.ridx_main_v1 (Read.ridx_main_v51 (ix2 i o) j) d) = ix2 o d :=
  funext fun a => Fin.ext (by match a with | ⟨0, _⟩ => rfl | ⟨1, _⟩ => rfl)

theorem idx_b (i : Fin 8192) (o : Fin 128) (j : Fin 8192) :
    Read.idx_main_v2 (Read.idx_main_v3 (Read.ridx_main_v51 (ix2 i o) j)) = ix1 o :=
  funext fun a => Fin.ext (by match a with | ⟨0, _⟩ => rfl)

theorem idx_bias (i : Fin 8192) (o : Fin 128) :
    Read.idx_main_v52 (Read.idx_main_v53 (ix2 i o)) = ix1 o :=
  funext fun a => Fin.ext (by match a with | ⟨0, _⟩ => rfl)

/-! ## The reference's result is the dense arrangement -/

/-- On the extended reals the reference's last stage is, entry by entry, `aggDense` of the four float
    arguments and the adjacency of the edge list: the degree's initial value is the zero word (so
    `0 + ∑` is the sum), the power is `Ideal.pow`, sums and products are those of the extended reals. -/
theorem ref_eq (x : (⟨S8192x128, .f32⟩ : BufTy).Contents (Elt Ideal))
    (ei : (⟨S2x262144, .i32⟩ : BufTy).Contents (Elt Ideal))
    (w : (⟨S128x128, .f32⟩ : BufTy).Contents (Elt Ideal))
    (b bias : (⟨S128, .f32⟩ : BufTy).Contents (Elt Ideal)) :
    Read.val_main_v54 (F := Ideal) x ei w b bias
      = fun j => aggDense x w b bias (adj ei) eps negHalf (j 0) (j 1) := by
  funext j
  obtain ⟨i, o, rfl⟩ : ∃ (i : Fin 8192) (o : Fin 128), j = ix2 i o := ⟨j 0, j 1, eq_ix2 j⟩
  show _ = aggDense x w b bias (adj ei) eps negHalf i o
  simp only [Read.val_main_v54_apply, Read.val_main_v51_apply, Read.val_main_v53_apply, Read.val_main_v52_apply,
    Read.val_main_v50_apply, Read.val_main_v49_apply, Read.val_main_v48_apply, Read.val_main_v47_apply,
    Read.val_main_v46_apply, Read.val_main_v45_apply, Read.val_main_v44_apply, Read.val_main_v43_apply,
    Read.val_main_v42_apply, Read.val_main_v41_apply, Read.val_main_v40_apply,
    Read.val_main_cst_9_apply, Read.val_main_cst_10_apply, Read.val_main_cst_11_apply,
    Read.val_main_v4_apply, Read.val_main_v3_apply, Read.val_main_v2_apply, Read.val_main_v1_apply, Read.val_main_v0_apply,
    idx_row, idx_col, idx_entry, idx_x, idx_w, idx_b, idx_bias,
    Ideal.addf_def, Ideal.mulf_def, Ideal.hostPowf_def, Ideal.ofBits_def, Ideal.ofBits_zero_f32, zero_add]
  unfold aggDense lin dinv deg
  rfl

/-! ## The reference's run -/

/-- Every weakly fair execution of the reference ends with its result array at the dense arrangement of
    the argument arrays it started from, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54)
        = (fun j : S8192x128.Idx => aggDense (m ((c.tc : Thread nD τ).loc main_arg0)) (m ((c.tc : Thread nD τ).loc main_arg2))
            (m ((c.tc : Thread nD τ).loc main_arg3)) (m ((c.tc : Thread nD τ).loc main_arg4))
            (adj (m ((c.tc : Thread nD τ).loc main_arg1))) eps negHalf (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((Read.val_main_v54_eq m c).trans (ref_eq _ _ _ _ _)), (h c).2⟩)
    (Cert.ReferenceIdeal.Value.run (F := Ideal) m ρ)

end Cert.Gcn.RefSide

end
-- ==== Proof.Adjacency.lean ====
/-
  Facts about the adjacency matrix's construction.

  A scatter whose body returns the update ("set") only ever writes update values into the operand, so any
  property that holds of every operand entry and of every update value holds of every entry of the result:
  the scatter is a left fold of single-entry overwrites, and each overwrite keeps the property. In particular
  a matrix of zeros with ones written into it, twice over, has only real entries.

  Also: a bit pattern whose exponent field is not all ones denotes a real number, and the few literal
  patterns that occur (0, 1, and two finite constants).
-/
import Idealize.ShloMosaic.PureOps.ShapeOps
import Idealize.ShloMosaic.PureOps.Ideal
import Idealize.ShloMosaic.PureOps.Ideal.Laws

noncomputable section

namespace Cert.Gcn

open Idealize.ShloMosaic

/-- A "set" scatter keeps any property shared by the operand's entries and the updates. -/
theorem scatter_set_pred {α : Type} {s si u : Shape} {w : Nat} (d : ScatterDims s si u) (P : α → Prop)
    (x : s.Idx → α) (idx : IVec si w) (upd : u.Idx → α) (hx : ∀ i, P (x i)) (hu : ∀ j, P (upd j)) :
    ∀ i, P (Host.scatter d (fun _ b => b) x idx upd i) := by
  unfold Host.scatter
  generalize List.finRange u.numel = l
  induction l generalizing x with
  | nil => simpa using hx
  | cons n l ih =>
    rw [List.foldl_cons]
    refine ih _ (fun i => ?_)
    dsimp only
    generalize d.resultIdx? (u.rowMajor.symm n) idx = o
    cases o with
    | none => exact hx i
    | some k =>
      show P (if i = k then upd (u.rowMajor.symm n) else x i)
      split_ifs
      · exact hu _
      · exact hx i

/-- Ones written twice into an array of reals leave an array of reals. -/
theorem scatter_twice_real {s si1 u1 si2 u2 : Shape} {w1 w2 : Nat} (d1 : ScatterDims s si1 u1)
    (d2 : ScatterDims s si2 u2) (x : s.Idx → EReal) (hx : ∀ i, ∃ r : ℝ, x i = (r : EReal))
    (i1 : IVec si1 w1) (i2 : IVec si2 w2) :
    ∀ i, ∃ r : ℝ, Host.scatter d2 (fun _ b => b)
        (Host.scatter d1 (fun _ b => b) x i1 (fun _ => (1 : EReal))) i2 (fun _ => (1 : EReal)) i = (r : EReal) :=
  scatter_set_pred d2 (fun v : EReal => ∃ r : ℝ, v = (r : EReal)) _ i2 _
    (scatter_set_pred d1 (fun v : EReal => ∃ r : ℝ, v = (r : EReal)) x i1 _ hx (fun _ => ⟨1, rfl⟩))
    (fun _ => ⟨1, rfl⟩)

/-- The same, starting from the array of zeros. -/
theorem scatter_twice_zero_real {s si1 u1 si2 u2 : Shape} {w1 w2 : Nat} (d1 : ScatterDims s si1 u1)
    (d2 : ScatterDims s si2 u2) (i1 : IVec si1 w1) (i2 : IVec si2 w2) :
    ∀ i, ∃ r : ℝ, Host.scatter d2 (fun _ b => b)
        (Host.scatter d1 (fun _ b => b) (fun _ => (0 : EReal)) i1 (fun _ => (1 : EReal))) i2
        (fun _ => (1 : EReal)) i = (r : EReal) :=
  scatter_twice_real d1 d2 _ (fun _ => ⟨0, rfl⟩) i1 i2

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  simp only [Ideal.ieee]
  rw [if_neg h]
  split_ifs <;> exact ⟨_, rfl⟩

theorem ofBits_bf16_zero : Ideal.ofBits .bf16 0x0000#16 = 0 := by simp [Ideal.ofBits, Ideal.ieee]

theorem ofBits_bf16_one : Ideal.ofBits .bf16 0x3F80#16 = 1 := by
  simp [Ideal.ofBits, Ideal.ieee]
  rw [← EReal.coe_mul]
  norm_num

theorem ofBits_f32_one : Ideal.ofBits .f32 0x3F800000#32 = 1 := by
  simp [Ideal.ofBits, Ideal.ieee]
  rw [← EReal.coe_mul]
  norm_num

theorem ofBits_f32_358637BD_real : ∃ r : ℝ, Ideal.ofBits .f32 0x358637BD#32 = (r : EReal) :=
  ieee_real 8 23 (0x358637BD#32) (by decide)

theorem ofBits_f32_BF000000_real : ∃ r : ℝ, Ideal.ofBits .f32 0xBF000000#32 = (r : EReal) :=
  ieee_real 8 23 (0xBF000000#32) (by decide)

end Cert.Gcn

end
-- ==== Proof.KernelAdjacency.lean ====
/-
  The kernel program builds the same adjacency matrix as the reference.

  Between its first and second region the kernel program runs, on the host, the same construction the
  reference runs: the two rows of the edge list are sliced out and flattened, negative node numbers are
  wrapped around by adding 8192, the two index columns are joined into a list of positions, and ones are
  written at those positions into an array of zeros, once per orientation of the edges. The only
  difference is the storage format of the array (a 16-bit float against a 32-bit one), and on the
  extended reals a format is no difference at all: the zero word denotes 0 and the word of one denotes
  1 in both. So both arrays are
      set-scatter (set-scatter (all zeros) positions₁ (all ones)) positions₂ (all ones)
  with the same two position lists, functions of the edge list alone. Since a set-scatter only ever
  copies update values into its operand, every entry of such an array is 0 or 1 — in particular a real
  number.
-/
import proofs.«133814_j53309134078171_1_alg».proof.Proof.Gen.KernelIdeal.Launch
import proofs.«133814_j53309134078171_1_alg».proof.Proof.RefSide
import proofs.«133814_j53309134078171_1_alg».proof.Proof.Adjacency
import Idealize.ShloMosaic.Lib.StableHlo.Run

noncomputable section

namespace Cert.Gcn.KernelAdj

open Idealize.ShloMosaic Idealize.ShloMosaic.TcCoe Idealize.SL.Sem Idealize.ShloMosaic.StableHlo

/-! ## The reference's adjacency: zeros, with ones written twice -/

section Reference

open Cert.ReferenceIdeal Cert.ReferenceIdeal.Gen

/-- The reference's adjacency array is the all-zero array with ones written at the positions of the
    first list and then at those of the second (the zero word denotes 0, the word of one denotes 1). -/
theorem ref_adj_canon (ei : (⟨S2x262144, .i32⟩ : BufTy).Contents (Elt Ideal)) :
    RefSide.adj ei
      = Host.scatter scatter_S8192x8192_S262144x2_S262144_n_01_01_1 (fun _ b => b)
          (Host.scatter scatter_S8192x8192_S262144x2_S262144_n_01_01_1 (fun _ b => b)
            (fun _ => (0 : EReal)) (Read.val_main_v22 (F := Ideal) ei) (fun _ => (1 : EReal)))
          (Read.val_main_v37 (F := Ideal) ei) (fun _ => (1 : EReal)) := by
  have h0 : Read.val_main_v9 (F := Ideal) = fun _ => (0 : EReal) := funext fun _ => Ideal.ofBits_zero_f32
  have h1 : Read.val_main_v23 (F := Ideal) = fun _ => (1 : EReal) := funext fun _ => ofBits_f32_one
  have h2 : Read.val_main_v38 (F := Ideal) = fun _ => (1 : EReal) := funext fun _ => ofBits_f32_one
  show Read.val_main_v39 (F := Ideal) ei = _
  unfold Read.val_main_v39 Read.val_main_v24
  rw [h0, h1, h2]

/-- Every entry of the adjacency array is a real number. -/
theorem adj_real (ei : (⟨S2x262144, .i32⟩ : BufTy).Contents (Elt Ideal)) :
    ∀ i, ∃ r : ℝ, RefSide.adj ei i = (r : EReal) := by
  rw [ref_adj_canon]
  exact scatter_twice_zero_real _ _ _ _

end Reference

/-! ## The kernel program's adjacency -/

section Kernel

open Cert.KernelIdeal Cert.KernelIdeal.Gen

set_option maxHeartbeats 30000000 in
set_option maxRecDepth 16384 in
/-- What the host operations between the first two regions leave in the adjacency buffer, from any
    contents of the buffers: the two set-scatters of the 16-bit constants, at the position lists the
    reference builds from the same edge list (the integer operations are the same ones, over the same
    literal shapes). -/
theorem kernel_raw (Vv : Valuation τ sig (Elt Ideal)) :
    (StableHlo.after (hostOps1 (F := Ideal)) Vv (Proc.devRef .tc main_v36) : S8192x8192.Idx → EReal)
      = Host.scatter scatter_S8192x8192_S262144x2_S262144_n_01_01_1 (fun _ b => b)
          (Host.scatter scatter_S8192x8192_S262144x2_S262144_n_01_01_1 (fun _ b => b)
            (broadcastInDim S8192x8192 ![] bcast_S_S8192x8192 (constant (F := Ideal) S_ .bf16 0x0000#16))
            (Cert.ReferenceIdeal.Read.val_main_v22 (F := Ideal) (Vv (Proc.devRef .tc main_arg1)))
            (broadcastInDim S262144 ![] bcast_S_S262144 (constant (F := Ideal) S_ .bf16 0x3F80#16)))
          (Cert.ReferenceIdeal.Read.val_main_v37 (F := Ideal) (Vv (Proc.devRef .tc main_arg1)))
          (broadcastInDim S262144 ![] bcast_S_S262144 (constant (F := Ideal) S_ .bf16 0x3F80#16)) := by
  show StableHlo.after (hostOps1 (F := Ideal)) Vv (Proc.devRef .tc main_v36) = _
  after_results_simp
  rfl

/-- The kernel program's adjacency buffer holds the reference's adjacency of the edge list. -/
theorem adj_after (Vv : Valuation τ sig (Elt Ideal)) :
    (StableHlo.after (hostOps1 (F := Ideal)) Vv (Proc.devRef .tc main_v36) : S8192x8192.Idx → EReal)
      = RefSide.adj (Vv (Proc.devRef .tc main_arg1)) := by
  have hz : (broadcastInDim S8192x8192 ![] bcast_S_S8192x8192 (constant (F := Ideal) S_ .bf16 0x0000#16)
      : S8192x8192.Idx → EReal) = fun _ => (0 : EReal) := funext fun _ => ofBits_bf16_zero
  have ho : (broadcastInDim S262144 ![] bcast_S_S262144 (constant (F := Ideal) S_ .bf16 0x3F80#16)
      : S262144.Idx → EReal) = fun _ => (1 : EReal) := funext fun _ => ofBits_bf16_one
  rw [kernel_raw, ref_adj_canon, hz, ho]
  rfl

end Kernel

end Cert.Gcn.KernelAdj

end
-- ==== Proof.BridgeHost.lean ====
/-
  Reading the idealized kernel program's boundaries back to its arguments. With `x, ei, w, b, bias` the five
  argument arrays at launch: the first region is entered with the bias vector recast as a row, and leaves the linear
  layer `lin` in its result array; the host operations after it build the adjacency matrix from the edge list alone —
  the same matrix the reference builds; the second region leaves its row sums; the host operations after it turn the
  row sums into the normalising column `dinv`, scale the rows of `lin` by it, and recast the second bias vector as a row.
-/
import proofs.«133814_j53309134078171_1_alg».proof.Proof.IdealRun
import proofs.«133814_j53309134078171_1_alg».proof.Proof.IdealLinearValue
import proofs.«133814_j53309134078171_1_alg».proof.Proof.HostStretches
import proofs.«133814_j53309134078171_1_alg».proof.Proof.KernelAdjacency
import proofs.«133814_j53309134078171_1_alg».proof.Proof.Spec

set_option maxRecDepth 16384

noncomputable section

namespace Cert.Gcn.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The five argument arrays at launch, as plain functions. -/
abbrev argX : S8192x128.Idx → EReal := m ((c : Thread nD τ).loc main_arg0)
abbrev argE : (⟨S2x262144, .i32⟩ : BufTy).Contents (Elt Ideal) := m ((c : Thread nD τ).loc main_arg1)
abbrev argW : S128x128.Idx → EReal := m ((c : Thread nD τ).loc main_arg2)
abbrev argB : S128.Idx → EReal := m ((c : Thread nD τ).loc main_arg3)
abbrev argBias : S128.Idx → EReal := m ((c : Thread nD τ).loc main_arg4)

/-! ## The first region's entry -/

theorem ent0_x : (ent0 (F := Ideal) m c main_arg0 : S8192x128.Idx → EReal) = argX m c :=
  (StableHlo.after_of_writes_sub hostOps0 _ hostOps0_writes (by decide)).trans rfl
theorem ent0_w : (ent0 (F := Ideal) m c main_arg2 : S128x128.Idx → EReal) = argW m c :=
  (StableHlo.after_of_writes_sub hostOps0 _ hostOps0_writes (by decide)).trans rfl
theorem ent0_b (o : Fin 128) : (ent0 (F := Ideal) m c main_v0 : S1x128.Idx → EReal) (ix2 (0 : Fin 1) o) = argB m c (ix1 o) :=
  Cert.Gcn.HostOps.v0_apply (bd0 m c) o

/-- The linear layer, as the first region leaves it: entry (j, o) is `lin x w b j o`. -/
theorem lin_array (j : Fin 8192) (o : Fin 128) :
    (bd2 (F := Ideal) m c (Proc.devRef .tc main_v1) : S8192x128.Idx → EReal) (ix2 j o) = Cert.Gcn.lin (argX m c) (argW m c) (argB m c) j o := by
  have h := congrFun ((bd2_arr (F := Ideal) m c 3).trans (Cert.KernelIdeal.GcnLinear.linear_array (ent0 m) c)) (ix2 j o)
  refine h.trans ?_
  rw [Cert.KernelIdeal.GcnLinear.linOf_apply, ent0_x, ent0_w]
  show (∑ d : Fin 128, argX m c (ix2 j d) * argW m c (ix2 o d)) + (ent0 (F := Ideal) m c main_v0 : S1x128.Idx → EReal) (ix2 (0 : Fin 1) o) = _
  rw [ent0_b]
  rfl

/-! ## The adjacency matrix -/

theorem bd2_edges : (bd2 (F := Ideal) m c (Proc.devRef .tc main_arg1)) = argE m c :=
  (bd2_of_ne m c main_arg1 (by decide)).trans ((StableHlo.after_of_writes_sub hostOps0 _ hostOps0_writes (by decide)).trans rfl)

/-- The kernel program's adjacency matrix is the reference's, a function of the edge list alone. -/
theorem adj_entry : (ent1 (F := Ideal) m c main_v36 : S8192x8192.Idx → EReal) = Cert.Gcn.RefSide.adj (argE m c) :=
  (Cert.Gcn.KernelAdj.adj_after (bd2 m c)).trans (congrArg Cert.Gcn.RefSide.adj (bd2_edges m c))

theorem bd3_lin : bd3 (F := Ideal) m c (Proc.devRef .tc main_v1) = bd2 m c (Proc.devRef .tc main_v1) :=
  StableHlo.after_of_writes_sub hostOps1 _ hostOps1_writes (by decide)

/-! ## After the second region -/

theorem bd4_adj : (bd4 (F := Ideal) m c (Proc.devRef .tc main_v36) : S8192x8192.Idx → EReal) = Cert.Gcn.RefSide.adj (argE m c) :=
  ((bd4_arr m c 0).trans (((dat1 (ent1 m) c).arrAt_in 0 rfl _).trans (A_eq1 (ent1 m) c 0))).trans (adj_entry m c)
theorem bd4_lin : bd4 (F := Ideal) m c (Proc.devRef .tc main_v1) = bd2 m c (Proc.devRef .tc main_v1) :=
  (bd4_of_ne m c main_v1 (by decide)).trans (bd3_lin m c)
theorem bd4_bias : (bd4 (F := Ideal) m c (Proc.devRef .tc main_arg4) : S128.Idx → EReal) = argBias m c :=
  (bd4_of_ne m c main_arg4 (by decide)).trans ((StableHlo.after_of_writes_sub hostOps1 _ hostOps1_writes (by decide)).trans
    ((bd2_of_ne m c main_arg4 (by decide)).trans ((StableHlo.after_of_writes_sub hostOps0 _ hostOps0_writes (by decide)).trans rfl)))

end Cert.Gcn.Bridge

end
-- ==== Proof.IdealDegreePieces.lean ====
/-
  The row-sum kernel's pieces, named. At each of the three positions of a grid point in its row of four the
  body leaves one piece in the running total's buffer, and at the last position one piece in the result's
  buffer as well; each piece covers its whole buffer (a 2048 × 1 rectangle at offset zero), so reading the
  buffer back gives the piece's value. That value is the body's arithmetic applied to what the body loaded:
  the tile's row sums added to the column carried into the point — at the first position to the reset
  column instead, so the carried column does not enter — and at the last position the column stored into
  the result is that same new total.
-/
import proofs.«133814_j53309134078171_1_alg».proof.Proof.IdealDegree
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A rectangle that is a whole two-axis buffer starts at zero on both axes. -/
private theorem offsets_zero : (![0, 0] : Fin 2 → Nat) = fun _ => 0 := funext fun a => by fin_cases a <;> rfl

/-- First position: the running total is reset, then the tile's row sums are added to the reset column
    (read back from the buffer it was just stored into); the column carried into the point is not read. -/
theorem acc1_F_eq (c : Dev nD) (i : grid1.Coords) (arg2 : Memref sig .tc .vmem S2048x2048 .bf16) (harg2 : arg2.IsWhole)
    (arg3 : Memref sig .tc .vmem S2048x1 .f32) (harg3 : arg3.IsWhole) (arg4 : Memref sig .tc .vmem S2048x1 .f32)
    (harg4 : arg4.IsWhole) (hc0 : first1 i) (hc1 : ¬last1 i) (x0 : Vec F S2048x2048 .bf16) :
    acc1_F c i arg2 harg2 arg3 harg3 arg4 harg4 hc0 hc1 x0 = k1_pay2 (k1_pay1 (F := F)) x0 := by
  unfold acc1_F
  rw [View.read_writes_eq_canon _ _ _ (scover1_F c i arg2 harg2 arg3 harg3 arg4 harg4 hc0 hc1 x0)]
  unfold run1_F
  dsimp only
  sl_unfold_words
  rw [View.canon_cons_unit_zero offsets_zero]
  simp only [View.readAt_eq_ld, harg2.read_unread, View.ld_unit_zero (S := S2048x2048) offsets_zero,
    View.readCov_unit_zero (S := S2048x1) arg4.view offsets_zero]

/-- Middle position: the tile's row sums are added to the carried column. -/
theorem acc1_M_eq (c : Dev nD) (i : grid1.Coords) (arg2 : Memref sig .tc .vmem S2048x2048 .bf16) (harg2 : arg2.IsWhole)
    (arg3 : Memref sig .tc .vmem S2048x1 .f32) (harg3 : arg3.IsWhole) (arg4 : Memref sig .tc .vmem S2048x1 .f32)
    (harg4 : arg4.IsWhole) (hc0 : ¬first1 i) (hc1 : ¬last1 i) (x0 : Vec F S2048x2048 .bf16) (xs0 : Vec F S2048x1 .f32) :
    acc1_M c i arg2 harg2 arg3 harg3 arg4 harg4 hc0 hc1 x0 xs0 = k1_pay2 xs0 x0 := by
  unfold acc1_M
  rw [View.read_writes_eq_canon _ _ _ (scover1_M c i arg2 harg2 arg3 harg3 arg4 harg4 hc0 hc1 x0 xs0)]
  unfold run1_M
  dsimp only
  sl_unfold_words
  rw [View.canon_unit_zero offsets_zero]
  simp only [View.readAt_eq_ld, harg2.read_unread, harg4.read_unread, View.ld_unit_zero (S := S2048x2048) offsets_zero,
    View.ld_unit_zero (S := S2048x1) offsets_zero]

/-- Last position: the running total likewise. -/
theorem acc1_L_eq (c : Dev nD) (i : grid1.Coords) (arg2 : Memref sig .tc .vmem S2048x2048 .bf16) (harg2 : arg2.IsWhole)
    (arg3 : Memref sig .tc .vmem S2048x1 .f32) (harg3 : arg3.IsWhole) (arg4 : Memref sig .tc .vmem S2048x1 .f32)
    (harg4 : arg4.IsWhole) (hc0 : ¬first1 i) (hc1 : last1 i) (x0 : Vec F S2048x2048 .bf16) (xs0 : Vec F S2048x1 .f32) :
    acc1_L c i arg2 harg2 arg3 harg3 arg4 harg4 hc0 hc1 x0 xs0 = k1_pay2 xs0 x0 := by
  unfold acc1_L
  rw [View.read_writes_eq_canon _ _ _ (scover1_L c i arg2 harg2 arg3 harg3 arg4 harg4 hc0 hc1 x0 xs0)]
  unfold run1_L
  dsimp only
  sl_unfold_words
  rw [View.canon_unit_zero offsets_zero]
  simp only [View.readAt_eq_ld, harg2.read_unread, harg4.read_unread, View.ld_unit_zero (S := S2048x2048) offsets_zero,
    View.ld_unit_zero (S := S2048x1) offsets_zero]

/-- Last position: the column stored into the result's buffer is the new running total, read back from
    the buffer it was just stored into. -/
theorem out1_L_eq (c : Dev nD) (i : grid1.Coords) (arg2 : Memref sig .tc .vmem S2048x2048 .bf16) (harg2 : arg2.IsWhole)
    (arg3 : Memref sig .tc .vmem S2048x1 .f32) (harg3 : arg3.IsWhole) (arg4 : Memref sig .tc .vmem S2048x1 .f32)
    (harg4 : arg4.IsWhole) (hc0 : ¬first1 i) (hc1 : last1 i) (x0 : Vec F S2048x2048 .bf16) (xs0 : Vec F S2048x1 .f32) :
    out1_L c i arg2 harg2 arg3 harg3 arg4 harg4 hc0 hc1 x0 xs0 = k1_pay2 xs0 x0 := by
  unfold out1_L
  rw [View.read_writes_eq_canon _ _ _ (ocover1_L c i arg2 harg2 arg3 harg3 arg4 harg4 hc0 hc1 x0 xs0)]
  unfold run1_L
  dsimp only
  sl_unfold_words
  rw [View.canon_unit_zero offsets_zero]
  simp only [View.readAt_eq_ld, harg2.read_unread, harg4.read_unread, View.ld_unit_zero (S := S2048x2048) offsets_zero,
    View.ld_unit_zero (S := S2048x1) offsets_zero, View.readCov_unit_zero (S := S2048x1) arg4.view offsets_zero]

end Cert.KernelIdeal.Gen

end
-- ==== Proof.LibSumTiles.lean ====
/-
  Sums over consecutive indices, cut into tiles.

  A finite sum over the first `T * n` naturals, in any commutative additive monoid, is the sum over the `T` tiles
  `{s * n, …, s * n + n - 1}` of the sum over each tile: the tiles are consecutive and disjoint, and together they are
  the whole range. The proof is an induction on the number of tiles: one more tile appends `n` more consecutive indices.
-/
import Mathlib.Algebra.BigOperators.Fin

namespace Cert.LibSumTiles

open Finset

/-- A sum over the first `T * n` naturals is the sum over `T` consecutive tiles of `n` indices each:
    `∑ k < T * n, f k = ∑ s < T, ∑ j < n, f (s * n + j)`. Both outer sums are over ranges of naturals. -/
theorem sum_range_tiles {β : Type*} [AddCommMonoid β] (T n : ℕ) (f : ℕ → β) :
    ∑ k ∈ range (T * n), f k = ∑ s ∈ range T, ∑ j ∈ range n, f (s * n + j) := by
  induction T with
  | zero => simp
  | succ T ih => rw [sum_range_succ, ← ih, Nat.add_mul, Nat.one_mul, sum_range_add]

/-- A sum over `Fin (T * n)` of a function of the index's value is the sum over `T` tiles of the sum over each
    tile's `n` indices: `∑ k : Fin (T * n), f k = ∑ s < T, ∑ j : Fin n, f (s * n + j)`. -/
theorem sum_tiles {β : Type*} [AddCommMonoid β] (T n : ℕ) (f : ℕ → β) :
    ∑ k : Fin (T * n), f k.val = ∑ s ∈ Finset.range T, ∑ j : Fin n, f (s * n + j.val) := by
  rw [Fin.sum_univ_eq_sum_range f (T * n), sum_range_tiles]
  exact sum_congr rfl fun s _ => (Fin.sum_univ_eq_sum_range (fun j => f (s * n + j)) n).symm

/-- The instance at `8192 = 16 * 512`: a sum over 8192 consecutive indices is the sum over 16 tiles of 512. -/
theorem sum_tiles_8192 {β : Type*} [AddCommMonoid β] (f : ℕ → β) :
    ∑ k : Fin 8192, f k.val = ∑ s ∈ Finset.range 16, ∑ j : Fin 512, f (s * 512 + j.val) :=
  sum_tiles 16 512 f

end Cert.LibSumTiles
-- ==== Proof.IdealDegreeValue.lean ====
/-
  The degree region's result array as one function of the matrix the region finds.

  The grid is 4 × 4. Point t reads tile (t / 4, t % 4) of the 8192 × 8192 matrix, a 2048 × 2048 block. Along a row of the
  grid a column of 2048 running totals is kept: the first point resets it and adds its tile's row sums, every later point
  adds its tile's row sums, so after the point at place s of its row of the grid the column holds, in local row p, the sum of
  the tiles 0 … s of row (t / 4) · 2048 + p of the matrix. The last point of the row of the grid stores that column, now the
  sum of all four tiles, which is the whole row sum, into block t / 4 of the result. Every row r of the result lies in block
  r / 2048, whose last point writes it back, so the result ends holding the row sums everywhere.
-/
import proofs.«133814_j53309134078171_1_alg».proof.Proof.IdealDegree
import proofs.«133814_j53309134078171_1_alg».proof.Proof.IdealDegreePieces
import proofs.«133814_j53309134078171_1_alg».proof.Proof.IdealPayloads
import proofs.«133814_j53309134078171_1_alg».proof.Proof.LibSumTiles
import Idealize.ShloMosaic.Lib.Pipeline.Value
import Idealize.ShloMosaic.Lib.ValueIdx

set_option maxRecDepth 16384

noncomputable section

namespace Cert.KernelIdeal.GcnDegree

open Idealize.ShloMosaic Idealize.ShloMosaic.ValueIdx Idealize.ShloMosaic.TcCoe
open Idealize.SL.Sem
open Idealize.ShloMosaic.Pipeline (Dat Cfg Window)
open Cert.KernelIdeal Cert.KernelIdeal.Gen Cert.KernelIdeal.GcnBody

/-! ## Row sums, whole and by tiles -/

/-- The row sums of a square matrix, as a column. -/
def degOf (A : S8192x8192.Idx → EReal) : S8192x1.Idx → EReal := fun j => ∑ k : Fin 8192, A (ix2 (j 0) k)

/-- The row sums at an index, written out. -/
theorem degOf_apply (A : S8192x8192.Idx → EReal) (j : S8192x1.Idx) : degOf A j = ∑ k : Fin 8192, A (ix2 (j 0) k) := rfl

/-- The matrix extended by zero to all pairs of naturals. -/
def ext (A : S8192x8192.Idx → EReal) (r k : ℕ) : EReal :=
  if h : r < 8192 ∧ k < 8192 then A (ix2 ⟨r, h.1⟩ ⟨k, h.2⟩) else 0

theorem ext_of_lt (A : S8192x8192.Idx → EReal) (r k : ℕ) (hr : r < 8192) (hk : k < 8192) :
    ext A r k = A (ix2 ⟨r, hr⟩ ⟨k, hk⟩) := dif_pos ⟨hr, hk⟩

/-- The sum of the first `m` tiles, of 2048 entries each, of row `r`. -/
def part (A : S8192x8192.Idx → EReal) (r m : ℕ) : EReal :=
  ∑ s ∈ Finset.range m, ∑ j : Fin 2048, ext A r (s * 2048 + j.val)

theorem part_zero (A : S8192x8192.Idx → EReal) (r : ℕ) : part A r 0 = 0 := Finset.sum_range_zero _

theorem part_succ (A : S8192x8192.Idx → EReal) (r m : ℕ) :
    part A r (m + 1) = part A r m + ∑ j : Fin 2048, ext A r (m * 2048 + j.val) := Finset.sum_range_succ _ _

/-- Four tiles of 2048 are the whole row. -/
theorem part_four (A : S8192x8192.Idx → EReal) (r : ℕ) (hr : r < 8192) :
    part A r 4 = ∑ k : Fin 8192, A (ix2 ⟨r, hr⟩ k) := by
  unfold part
  rw [← (Cert.LibSumTiles.sum_tiles 4 2048 (ext A r) : ∑ k : Fin 8192, ext A r k.val = _)]
  exact Finset.sum_congr rfl fun k _ => ext_of_lt A r k.val hr k.isLt

/-- One step of the accumulation at explicit coordinates: if the carried column holds the first `m` tiles' sum of row `r`
    and the block's row `p` is tile `m` of that row, the new column holds the first `m + 1` tiles' sum. -/
theorem step_apply (A : S8192x8192.Idx → EReal) (prev : Vec Ideal S2048x1 .f32) (blk : Vec Ideal S2048x2048 .bf16)
    (r m : ℕ) (p : Fin 2048) (u : Fin 1)
    (hprev : prev (ix2 p u) = part A r m)
    (hblk : ∀ j : Fin 2048, blk (ix2 p j) = ext A r (m * 2048 + j.val)) :
    k1_pay2 prev blk (ix2 p u) = part A r (m + 1) := by
  rw [part_succ]
  refine (k1_pay2_apply prev blk p u).trans ?_
  rw [hprev]
  exact congrArg (part A r m + ·) (Finset.sum_congr rfl fun j _ => hblk j)

/-! ## The printed index maps, decided over the grid -/

/-- Point t reads tile (t / 4, t % 4) of the matrix and its result block is block t / 4 of the column. -/
theorem idx_facts : ∀ t : Fin cfg1.N, win1_0.index t (0 : Fin 2) = t.val / 4 ∧ win1_0.index t (1 : Fin 2) = t.val % 4
    ∧ win1_1.index t (0 : Fin 2) = t.val / 4 ∧ win1_1.index t (1 : Fin 2) = 0 :=
  (by decide +kernel : ∀ t : Fin grid1.N, _)

/-- Every block of the column is the result block of the last point of some row of the grid. -/
theorem idx_onto : ∀ q0 : Fin 4, ∃ t : Fin cfg1.N, t.val % 4 = 3 ∧ win1_1.index t (0 : Fin 2) = q0.val ∧ win1_1.index t (1 : Fin 2) = 0 :=
  (by decide +kernel : ∀ q0 : Fin 4, ∃ t : Fin grid1.N, t.val % 4 = 3 ∧ win1_1.index t (0 : Fin 2) = q0.val ∧ win1_1.index t (1 : Fin 2) = 0)

variable (V : (c : Dev nD) → (b : Ref sig .tc) → Buf (Elt Ideal) ((c : Thread nD τ).loc b))

/-- The tile point t reads, at a local index, is the matrix at the tile's place. -/
theorem iblk1_0_apply (c : Dev nD) (t : Fin cfg1.N) (p j : Fin 2048) :
    (iblk1 (F := Ideal) V c 0 t : S2048x2048.Idx → EReal) (ix2 p j)
      = ext (V c main_v36) (t.val / 4 * 2048 + p.val) (t.val % 4 * 2048 + j.val) := by
  obtain ⟨f00, f01, f10, f11⟩ := idx_facts t
  have ht : t.val < 16 := lt_of_lt_of_eq t.isLt (show cfg1.N = 16 from N_1)
  have hp : p.val < 2048 := p.isLt
  have hj : j.val < 2048 := j.isLt
  rw [ext_of_lt _ _ _ (by omega) (by omega)]
  show V c main_v36 (((cfg1.win 0).blk t).view.emb (ix2 p j)) = V c main_v36 (ix2 _ _)
  refine congrArg (V c main_v36) (funext fun a => Fin.ext ?_)
  match a with
  | ⟨0, _⟩ =>
    show win1_0.index t (0 : Fin 2) * 2048 + 1 * p.val = t.val / 4 * 2048 + p.val
    omega
  | ⟨1, _⟩ =>
    show win1_0.index t (1 : Fin 2) * 2048 + 1 * j.val = t.val % 4 * 2048 + j.val
    omega

/-! ## The running total in closed form -/

/-- The running total after a first point of a row of the grid. -/
theorem snd_first (c : Dev nD) (t : Fin cfg1.N) (h0 : t.val % 4 = 0) (h1 : ¬ t.val % 4 = 3) :
    (tot1 (F := Ideal) V c t.val t.isLt).2 = k1_pay2 (k1_pay1 (F := Ideal)) (iblk1 V c 0 t) := by
  rw [tot1_F V c t h0 h1]; dsimp only; rw [acc1_F_eq]

/-- The running total after a middle point. -/
theorem snd_middle (c : Dev nD) (t : Fin cfg1.N) (h0 : ¬ t.val % 4 = 0) (h1 : ¬ t.val % 4 = 3) :
    (tot1 (F := Ideal) V c t.val t.isLt).2
      = k1_pay2 (tot1 (F := Ideal) V c (t.val - 1) (Nat.lt_of_le_of_lt (Nat.sub_le _ _) t.isLt)).2 (iblk1 V c 0 t) := by
  rw [tot1_M V c t h0 h1]; dsimp only; rw [acc1_M_eq]

/-- The running total after a last point. -/
theorem snd_last (c : Dev nD) (t : Fin cfg1.N) (h0 : ¬ t.val % 4 = 0) (h1 : t.val % 4 = 3) :
    (tot1 (F := Ideal) V c t.val t.isLt).2
      = k1_pay2 (tot1 (F := Ideal) V c (t.val - 1) (Nat.lt_of_le_of_lt (Nat.sub_le _ _) t.isLt)).2 (iblk1 V c 0 t) := by
  rw [tot1_L V c t h0 h1]; dsimp only; rw [acc1_L_eq]

/-- The column a last point stores into the result's buffer. -/
theorem fst_last (c : Dev nD) (t : Fin cfg1.N) (h0 : ¬ t.val % 4 = 0) (h1 : t.val % 4 = 3) :
    (tot1 (F := Ideal) V c t.val t.isLt).1
      = k1_pay2 (tot1 (F := Ideal) V c (t.val - 1) (Nat.lt_of_le_of_lt (Nat.sub_le _ _) t.isLt)).2 (iblk1 V c 0 t) := by
  rw [tot1_L V c t h0 h1]; dsimp only; rw [out1_L_eq]

/-- After point t the running total holds, in row p, the sum of the tiles 0 … t % 4 of row (t / 4) · 2048 + p: by induction
    on the point's position. -/
theorem tot1_acc_pos (c : Dev nD) : ∀ (n : ℕ) (t : Fin cfg1.N), t.val = n → ∀ (p : Fin 2048) (u : Fin 1),
    ((tot1 (F := Ideal) V c t.val t.isLt).2 : S2048x1.Idx → EReal) (ix2 p u)
      = part (V c main_v36) (t.val / 4 * 2048 + p.val) (t.val % 4 + 1) := by
  intro n
  induction n using Nat.strong_induction_on with
  | _ n ih =>
    intro t htn p u
    by_cases h0 : t.val % 4 = 0
    · have h1 : ¬ t.val % 4 = 3 := by omega
      refine (congrFun (snd_first V c t h0 h1) (ix2 p u)).trans ?_
      refine step_apply (V c main_v36) (k1_pay1 (F := Ideal)) (iblk1 V c 0 t) (t.val / 4 * 2048 + p.val) (t.val % 4) p u ?_
        (fun j => iblk1_0_apply V c t p j)
      rw [h0]
      exact (k1_pay1_apply p u).trans (part_zero _ _).symm
    · have hlt : t.val - 1 < cfg1.N := Nat.lt_of_le_of_lt (Nat.sub_le _ _) t.isLt
      have hprev : ((tot1 (F := Ideal) V c (t.val - 1) hlt).2 : S2048x1.Idx → EReal) (ix2 p u)
          = part (V c main_v36) (t.val / 4 * 2048 + p.val) (t.val % 4) := by
        have hi := ih (t.val - 1) (by omega) ⟨t.val - 1, hlt⟩ rfl p u
        dsimp only at hi
        refine hi.trans ?_
        have e1 : (t.val - 1) / 4 = t.val / 4 := by omega
        have e2 : (t.val - 1) % 4 + 1 = t.val % 4 := by omega
        rw [e1, e2]
      by_cases h1 : t.val % 4 = 3
      · refine (congrFun (snd_last V c t h0 h1) (ix2 p u)).trans ?_
        exact step_apply (V c main_v36) _ (iblk1 V c 0 t) (t.val / 4 * 2048 + p.val) (t.val % 4) p u hprev
          (fun j => iblk1_0_apply V c t p j)
      · refine (congrFun (snd_middle V c t h0 h1) (ix2 p u)).trans ?_
        exact step_apply (V c main_v36) _ (iblk1 V c 0 t) (t.val / 4 * 2048 + p.val) (t.val % 4) p u hprev
          (fun j => iblk1_0_apply V c t p j)

/-- The same, for a point. -/
theorem tot1_acc (c : Dev nD) (t : Fin cfg1.N) (p : Fin 2048) (u : Fin 1) :
    ((tot1 (F := Ideal) V c t.val t.isLt).2 : S2048x1.Idx → EReal) (ix2 p u)
      = part (V c main_v36) (t.val / 4 * 2048 + p.val) (t.val % 4 + 1) :=
  tot1_acc_pos V c t.val t rfl p u

/-- At the last point of a row of the grid the column stored into the result holds the whole row sums. -/
theorem tot1_out_L (c : Dev nD) (t : Fin cfg1.N) (h3 : t.val % 4 = 3) (p : Fin 2048) (u : Fin 1) :
    ((tot1 (F := Ideal) V c t.val t.isLt).1 : S2048x1.Idx → EReal) (ix2 p u)
      = part (V c main_v36) (t.val / 4 * 2048 + p.val) 4 := by
  have h0 : ¬ t.val % 4 = 0 := by omega
  have hlt : t.val - 1 < cfg1.N := Nat.lt_of_le_of_lt (Nat.sub_le _ _) t.isLt
  refine (congrFun (fst_last V c t h0 h3) (ix2 p u)).trans ?_
  refine step_apply (V c main_v36) _ (iblk1 V c 0 t) (t.val / 4 * 2048 + p.val) 3 p u ?_ (fun j => ?_)
  · have hi := tot1_acc V c ⟨t.val - 1, hlt⟩ p u
    dsimp only at hi
    refine hi.trans ?_
    have e1 : (t.val - 1) / 4 = t.val / 4 := by omega
    have e2 : (t.val - 1) % 4 + 1 = 3 := by omega
    rw [e1, e2]
  · refine (iblk1_0_apply V c t p j).trans ?_
    rw [h3]

/-! ## The flushed blocks, the cover, the array -/

/-- What a last point writes back is its block of the row sums of the matrix as the region finds it. -/
theorem flushed1_eq (c : Dev nD) (t : Fin cfg1.N) (hf : (cfg1.win 1).flush t = true) :
    (dat1 (F := Ideal) V c).flushed 1 t
      = ((cfg1.win 1).blk t).view.read (Elt Ideal) (degOf (V c main_v36)) := by
  have h3 : t.val % 4 = 3 := (flush1_1 t).mp hf
  have ht : t.val < 16 := lt_of_lt_of_eq t.isLt (show cfg1.N = 16 from N_1)
  show (cfg1.win 1).cut (grid1.coords t) ((dat1 (F := Ideal) V c).after 1 t) = _
  rw [after1_1]
  obtain ⟨f00, f01, f10, f11⟩ := idx_facts t
  funext y
  show (tot1 V c t.val t.isLt).1 y = degOf (V c main_v36) (((cfg1.win 1).blk t).view.emb y)
  have hy : (y 0).val < 2048 := (y 0).isLt
  refine (congrArg (tot1 V c t.val t.isLt).1 (eq_ix2 y)).trans ?_
  refine (tot1_out_L V c t h3 (y 0) (y 1)).trans ?_
  refine (part_four (V c main_v36) (t.val / 4 * 2048 + (y 0).val) (by omega)).trans ?_
  refine Eq.trans ?_ (degOf_apply (V c main_v36) (((cfg1.win 1).blk t).view.emb y)).symm
  refine Finset.sum_congr rfl fun k _ => congrArg (V c main_v36) (funext fun a => Fin.ext ?_)
  match a with
  | ⟨0, _⟩ =>
    show t.val / 4 * 2048 + (y 0).val = win1_1.index t (0 : Fin 2) * 2048 + 1 * (y 0).val
    omega
  | ⟨1, _⟩ => rfl

/-- An index of the column is in point t's block iff each coordinate is in the block's range on its axis. -/
theorem mem_blk1 (t : Fin cfg1.N) (i : S8192x1.Idx) :
    i ∈ ((cfg1.win 1).blk t).view.set
      ↔ ∀ a : Fin 2, win1_1.index t a * S2048x1.size a ≤ (i a).val
          ∧ (i a).val < win1_1.index t a * S2048x1.size a + S2048x1.size a := by
  show i ∈ ((View.whole main_v37).slice (win1_1.rect t)).set ↔ _
  rw [View.set_slice_whole, Rect.mem_set_unit]
  exact Iff.rfl

/-- Row r of the column is in the block of the last point of row r / 2048 of the grid, and that point writes its block back. -/
theorem cover1 (i : S8192x1.Idx) :
    ∃ t : Fin cfg1.N, (cfg1.win 1).flush t = true ∧ i ∈ ((cfg1.win 1).blk t).view.set := by
  have hi0 : (i 0).val < 8192 := (i 0).isLt
  have hi1 : (i 1).val < 1 := (i 1).isLt
  obtain ⟨t, h3, ht0, ht1⟩ := idx_onto ⟨(i 0).val / 2048, by omega⟩
  have q0 : win1_1.index t (0 : Fin 2) = (i 0).val / 2048 := ht0
  refine ⟨t, (flush1_1 t).mpr h3, ?_⟩
  rw [mem_blk1]
  intro a
  match a with
  | ⟨0, _⟩ =>
    show win1_1.index t (0 : Fin 2) * 2048 ≤ (i 0).val ∧ (i 0).val < win1_1.index t (0 : Fin 2) * 2048 + 2048
    omega
  | ⟨1, _⟩ =>
    show win1_1.index t (1 : Fin 2) * 1 ≤ (i 1).val ∧ (i 1).val < win1_1.index t (1 : Fin 2) * 1 + 1
    omega

/-- The result array after the region: the row sums of the matrix the region found. -/
theorem degree_array (c : Dev nD) :
    (dat1 (F := Ideal) V c).arrAt 1 cfg1.N = degOf (V c main_v36) :=
  (dat1 (F := Ideal) V c).arrAt_eq_of_cover 1 _ (fun t hf => flushed1_eq V c t hf) cover1

/-- The same at one index. -/
theorem degree_array_apply (c : Dev nD) (j : S8192x1.Idx) :
    (dat1 (F := Ideal) V c).arrAt 1 cfg1.N j = degOf (V c main_v36) j :=
  congrFun (degree_array V c) j

end Cert.KernelIdeal.GcnDegree

end
-- ==== Proof.IdealSpmmValue.lean ====
/-
  The aggregation region's result array as one function of the arrays the region finds.

  The grid is 4 × 4 and is walked row by row: position n is at row n / 4 and column n % 4. The point there reads the
  2048 × 2048 tile (n / 4, n % 4) of the adjacency matrix and rows 2048·(n % 4) … of the scaled features, and keeps a
  2048 × 128 block of running totals: zero before the first point of a row, and each point adds its tile's product. So
  after position n the total at (p, q) is the sum over the tiles s ≤ n % 4 of
      ∑ j < 2048, A[2048·(n / 4) + p, 2048·s + j] · H[2048·s + j, q]
  (induction on n). After the last point of a row the four tiles are the whole row of A against the whole column of H
  (a sum over 8192 consecutive indices cut into four tiles of 2048), and that point stores the total, scaled by the
  normalising column at row 2048·(n / 4) + p and with the bias at q added, into rows 2048·(n / 4) … of the result. Every
  row r of the result lies in the block of the last point of row r / 2048 of the grid, which writes its block back; so the
  array ends holding the normalised aggregation everywhere.

  The first section reads each control case's stores: the running total's buffer (and, for a last point, the result's
  buffer) after the body is the body's payload of the blocks it loaded, whatever the element type's arithmetic.
-/
import proofs.«133814_j53309134078171_1_alg».proof.Proof.IdealSpmm
import proofs.«133814_j53309134078171_1_alg».proof.Proof.IdealPayloads
import proofs.«133814_j53309134078171_1_alg».proof.Proof.LibSumTiles
import Idealize.ShloMosaic.Lib.Pipeline.Value
import Idealize.ShloMosaic.Lib.ValueIdx
import Idealize.ShloMosaic.Lib.Tactic

set_option maxRecDepth 16384

noncomputable section

namespace Cert.KernelIdeal.GcnAgg

open Idealize.ShloMosaic Idealize.ShloMosaic.ValueIdx Idealize.ShloMosaic.TcCoe Idealize.ShloMosaic.Tactic
open Idealize.SL.Sem
open Idealize.ShloMosaic.Pipeline (Dat Cfg Window)
open Cert.KernelIdeal Cert.KernelIdeal.Gen Cert.KernelIdeal.GcnBody

/-- A whole buffer's rectangle starts at zero on both axes. -/
theorem hz : (![0, 0] : Fin 2 → Nat) = fun _ => 0 := funext fun a => by fin_cases a <;> rfl

section pieces
variable {F : FTy → Type} [FloatOps F]

/-- A middle point of a row leaves in the running total what it found there plus its tile's product. -/
theorem acc2_M_eq (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : ¬last2 i)
    (x0 : Vec F S2048x2048 .bf16) (x1 : Vec F S2048x128 .bf16) (x2 : Vec F S2048x1 .f32) (x3 : Vec F S1x128 .f32) (xs0 : Vec F S2048x128 .f32) :
    acc2_M c i arg2 harg2 arg3 harg3 arg4 harg4 arg5 harg5 arg6 harg6 arg7 harg7 hc0 hc1 x0 x1 x2 x3 xs0 = k2_pay2 xs0 x0 x1 := by
  unfold acc2_M
  rw [View.read_writes_eq_canon _ _ _ (scover2_M c i arg2 harg2 arg3 harg3 arg4 harg4 arg5 harg5 arg6 harg6 arg7 harg7 hc0 hc1 x0 x1 x2 x3 xs0)]
  unfold run2_M
  dsimp only
  rw [View.canon_unit_zero hz]
  simp only [View.readAt_eq_ld, harg7.read_unread, harg2.read_unread, harg3.read_unread,
    View.ld_unit_zero (S := S2048x128) hz, View.ld_unit_zero (S := S2048x2048) hz]

/-- The first point of a row resets the running total to zero and then adds its tile's product. -/
theorem acc2_F_eq (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : first2 i) (hc1 : ¬last2 i)
    (x0 : Vec F S2048x2048 .bf16) (x1 : Vec F S2048x128 .bf16) (x2 : Vec F S2048x1 .f32) (x3 : Vec F S1x128 .f32) :
    acc2_F c i arg2 harg2 arg3 harg3 arg4 harg4 arg5 harg5 arg6 harg6 arg7 harg7 hc0 hc1 x0 x1 x2 x3 = k2_pay2 k2_pay1 x0 x1 := by
  unfold acc2_F
  rw [View.read_writes_eq_canon _ _ _ (scover2_F c i arg2 harg2 arg3 harg3 arg4 harg4 arg5 harg5 arg6 harg6 arg7 harg7 hc0 hc1 x0 x1 x2 x3)]
  unfold run2_F
  dsimp only
  sl_unfold_words
  rw [View.canon_cons_unit_zero hz]
  simp only [View.readCov_unit_zero (S := S2048x128) arg7.view hz, View.readAt_eq_ld, harg2.read_unread, harg3.read_unread,
    View.ld_unit_zero (S := S2048x128) hz, View.ld_unit_zero (S := S2048x2048) hz]

/-- The last point of a row stores, into the result's buffer, the running total with its own tile's product added, scaled row by
    row by the column and with the bias row added. -/
theorem out2_L_eq (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) :
    out2_L c i arg2 harg2 arg3 harg3 arg4 harg4 arg5 harg5 arg6 harg6 arg7 harg7 hc0 hc1 x0 x1 x2 x3 xs0 = k2_pay3 (k2_pay2 xs0 x0 x1) x2 x3 := by
  unfold out2_L
  rw [View.read_writes_eq_canon _ _ _ (ocover2_L c i arg2 harg2 arg3 harg3 arg4 harg4 arg5 harg5 arg6 harg6 arg7 harg7 hc0 hc1 x0 x1 x2 x3 xs0)]
  unfold run2_L
  dsimp only
  sl_unfold_words
  rw [View.canon_unit_zero hz]
  simp only [View.readCov_unit_zero (S := S2048x128) arg7.view hz, View.readAt_eq_ld, harg7.read_unread, harg2.read_unread, harg3.read_unread,
    harg4.read_unread, harg5.read_unread,
    View.ld_unit_zero (S := S2048x128) hz, View.ld_unit_zero (S := S2048x2048) hz,
    View.ld_unit_zero (S := S2048x1) hz, View.ld_unit_zero (S := S1x128) hz]

/-- The last point of a row leaves in the running total what it found there plus its tile's product. -/
theorem acc2_L_eq (c : Dev nD) (i : grid2.Coords) (arg2 : Memref sig .tc .vmem S2048x2048 .bf16) (harg2 : arg2.IsWhole) (arg3 : Memref sig .tc .vmem S2048x128 .bf16) (harg3 : arg3.IsWhole) (arg4 : Memref sig .tc .vmem S2048x1 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬first2 i) (hc1 : last2 i)
    (x0 : Vec F S2048x2048 .bf16) (x1 : Vec F S2048x128 .bf16) (x2 : Vec F S2048x1 .f32) (x3 : Vec F S1x128 .f32) (xs0 : Vec F S2048x128 .f32) :
    acc2_L c i arg2 harg2 arg3 harg3 arg4 harg4 arg5 harg5 arg6 harg6 arg7 harg7 hc0 hc1 x0 x1 x2 x3 xs0 = k2_pay2 xs0 x0 x1 := by
  unfold acc2_L
  rw [View.read_writes_eq_canon _ _ _ (scover2_L c i arg2 harg2 arg3 harg3 arg4 harg4 arg5 harg5 arg6 harg6 arg7 harg7 hc0 hc1 x0 x1 x2 x3 xs0)]
  unfold run2_L
  dsimp only
  sl_unfold_words
  rw [View.canon_unit_zero hz]
  simp only [View.readAt_eq_ld, harg7.read_unread, harg2.read_unread, harg3.read_unread,
    View.ld_unit_zero (S := S2048x128) hz, View.ld_unit_zero (S := S2048x2048) hz]

end pieces

/-! ## The arrays at natural coordinates, a tile's product, the aggregation -/

/-- The adjacency matrix read at natural coordinates, zero outside its bounds. -/
def natA (A : S8192x8192.Idx → EReal) (r k : ℕ) : EReal :=
  if h : r < 8192 ∧ k < 8192 then A (ix2 (⟨r, h.1⟩ : Fin 8192) (⟨k, h.2⟩ : Fin 8192)) else 0

/-- The scaled features read at natural coordinates, zero outside their bounds. -/
def natH (H : S8192x128.Idx → EReal) (k q : ℕ) : EReal :=
  if h : k < 8192 ∧ q < 128 then H (ix2 (⟨k, h.1⟩ : Fin 8192) (⟨q, h.2⟩ : Fin 128)) else 0

theorem natA_ix (A : S8192x8192.Idx → EReal) (a k : Fin 8192) : natA A a.val k.val = A (ix2 a k) :=
  dif_pos ⟨a.isLt, k.isLt⟩

theorem natH_ix (H : S8192x128.Idx → EReal) (k : Fin 8192) (q : Fin 128) : natH H k.val q.val = H (ix2 k q) :=
  dif_pos ⟨k.isLt, q.isLt⟩

/-- An entry of the adjacency matrix is its read at the entry's coordinates. -/
theorem natA_idx (A : S8192x8192.Idx → EReal) (i : S8192x8192.Idx) (r k : ℕ) (h0 : (i 0).val = r) (h1 : (i 1).val = k) :
    A i = natA A r k := by
  subst h0 h1
  exact (congrArg A (eq_ix2 i)).trans (natA_ix A (i 0) (i 1)).symm

theorem natH_idx (H : S8192x128.Idx → EReal) (i : S8192x128.Idx) (k q : ℕ) (h0 : (i 0).val = k) (h1 : (i 1).val = q) :
    H i = natH H k q := by
  subst h0 h1
  exact (congrArg H (eq_ix2 i)).trans (natH_ix H (i 0) (i 1)).symm

/-- The product of the 2048 × 2048 tile of the adjacency matrix at offset (R, K) with rows K … of the scaled features, at (p, q). -/
def tile (A : S8192x8192.Idx → EReal) (H : S8192x128.Idx → EReal) (R K : ℕ) (p : Fin 2048) (q : Fin 128) : EReal :=
  ∑ j : Fin 2048, natA A (R + p.val) (K + j.val) * natH H (K + j.val) q.val

/-- The running total after position n of the grid: the tiles 0 … n % 4 of row n / 4 of the grid, summed. -/
def partialSum (A : S8192x8192.Idx → EReal) (H : S8192x128.Idx → EReal) (n : ℕ) (p : Fin 2048) (q : Fin 128) : EReal :=
  ∑ s ∈ Finset.range (n % 4 + 1), tile A H (n / 4 * 2048) (s * 2048) p q

/-- The normalised aggregation over whole arrays: row j₀ of the adjacency matrix against column j₁ of the scaled features, scaled
    by the normalising column at j₀, plus the bias at j₁. -/
def aggOf (A : S8192x8192.Idx → EReal) (H : S8192x128.Idx → EReal) (D : S8192x1.Idx → EReal) (B : S1x128.Idx → EReal) :
    S8192x128.Idx → EReal :=
  fun j => (∑ k : Fin 8192, A (ix2 (j 0) k) * H (ix2 k (j 1))) * D (ix2 (j 0) (0 : Fin 1)) + B (ix2 (0 : Fin 1) (j 1))

theorem aggOf_apply (A : S8192x8192.Idx → EReal) (H : S8192x128.Idx → EReal) (D : S8192x1.Idx → EReal) (B : S1x128.Idx → EReal)
    (j : S8192x128.Idx) :
    aggOf A H D B j
      = (∑ k : Fin 8192, A (ix2 (j 0) k) * H (ix2 k (j 1))) * D (ix2 (j 0) (0 : Fin 1)) + B (ix2 (0 : Fin 1) (j 1)) := rfl

/-- One accumulation step at an entry, once the two blocks read are the arrays' entries the tile names. -/
theorem pay2_tile (A : S8192x8192.Idx → EReal) (H : S8192x128.Idx → EReal) (xs : Vec Ideal S2048x128 .f32)
    (x0 : Vec Ideal S2048x2048 .bf16) (x1 : Vec Ideal S2048x128 .bf16) (R K : ℕ) (p : Fin 2048) (q : Fin 128)
    (e0 : ∀ j : Fin 2048, x0 (ix2 p j) = natA A (R + p.val) (K + j.val))
    (e1 : ∀ j : Fin 2048, x1 (ix2 j q) = natH H (K + j.val) q.val) :
    k2_pay2 xs x0 x1 (ix2 p q) = xs (ix2 p q) + tile A H R K p q := by
  refine (k2_pay2_apply xs x0 x1 p q).trans ?_
  exact congrArg (xs (ix2 p q) + ·) (Finset.sum_congr rfl fun j _ => by rw [e0 j, e1 j])

/-- The four tiles of a row of the grid, summed, are the whole row of the adjacency matrix against the whole column. -/
theorem four_tiles (A : S8192x8192.Idx → EReal) (H : S8192x128.Idx → EReal) (R : ℕ) (p : Fin 2048) (q : Fin 128)
    (a : Fin 8192) (b : Fin 128) (ha : a.val = R + p.val) (hb : b.val = q.val) :
    ∑ s ∈ Finset.range 4, tile A H R (s * 2048) p q = ∑ k : Fin 8192, A (ix2 a k) * H (ix2 k b) := by
  have e := Cert.LibSumTiles.sum_tiles 4 2048 (fun k => natA A (R + p.val) k * natH H k q.val)
  refine Eq.trans ?_ (e.symm.trans ?_)
  · rfl
  · exact Finset.sum_congr rfl fun k _ => by
      show natA A (R + p.val) k.val * natH H k.val q.val = _
      rw [← ha, ← hb, natA_ix, natH_ix]

/-- The last point's stored entry is the aggregation at the array index it is written to. -/
theorem agg_point (A : S8192x8192.Idx → EReal) (H : S8192x128.Idx → EReal) (D : S8192x1.Idx → EReal) (B : S1x128.Idx → EReal)
    (tot d b : EReal) (i : S8192x128.Idx) (n : ℕ) (p : Fin 2048) (q : Fin 128)
    (hn : n % 4 = 3) (hi0 : (i 0).val = n / 4 * 2048 + p.val) (hi1 : (i 1).val = q.val)
    (htot : tot = partialSum A H n p q) (hd : d = D (ix2 (i 0) (0 : Fin 1))) (hb : b = B (ix2 (0 : Fin 1) (i 1))) :
    tot * d + b = aggOf A H D B i := by
  subst htot hd hb
  show _ = (∑ k : Fin 8192, A (ix2 (i 0) k) * H (ix2 k (i 1))) * D (ix2 (i 0) (0 : Fin 1)) + B (ix2 (0 : Fin 1) (i 1))
  have e : partialSum A H n p q = ∑ k : Fin 8192, A (ix2 (i 0) k) * H (ix2 k (i 1)) := by
    unfold partialSum
    rw [hn]
    exact four_tiles A H (n / 4 * 2048) p q (i 0) (i 1) hi0 hi1
  rw [e]

/-! ## The index maps over the grid, the blocks read off the arrays -/

/-- The printed index maps, decided over the sixteen points: point t is at row t / 4 and column t % 4 of the grid; the adjacency
    tile follows both, the scaled features follow the column, the normalising column and the result follow the row, the bias row is whole. -/
theorem idx_facts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = 0 ∧ win2_3.index t (1 : Fin 2) = 0
    ∧ win2_4.index t (0 : Fin 2) = t.val / 4 ∧ win2_4.index t (1 : Fin 2) = 0 :=
  (by decide +kernel : ∀ t : Fin grid2.N, _)

/-- Every block of rows of the result is written back by the last point of its row of the grid. -/
theorem idx_onto : ∀ q0 : Fin 4, ∃ t : Fin cfg2.N, t.val % 4 = 3 ∧ win2_4.index t (0 : Fin 2) = q0.val ∧ win2_4.index t (1 : Fin 2) = 0 :=
  (by decide +kernel : ∀ q0 : Fin 4, ∃ t : Fin grid2.N, t.val % 4 = 3 ∧ win2_4.index t (0 : Fin 2) = q0.val ∧ win2_4.index t (1 : Fin 2) = 0)

variable (V : (c : Dev nD) → (b : Ref sig .tc) → Buf (Elt Ideal) ((c : Thread nD τ).loc b))

/-- The adjacency tile of point t, read off the matrix. -/
theorem blkA (c : Dev nD) (t : Fin cfg2.N) (p j : Fin 2048) :
    (iblk2 V c 0 t : Vec Ideal S2048x2048 .bf16) (ix2 p j)
      = natA (V c main_v36) (t.val / 4 * 2048 + p.val) (t.val % 4 * 2048 + j.val) := by
  obtain ⟨a0, a1, -⟩ := idx_facts t
  show V c main_v36 (((cfg2.win 0).blk t).view.emb (ix2 p j)) = _
  refine natA_idx (V c main_v36) _ _ _ ?_ ?_
  · show win2_0.index t (0 : Fin 2) * 2048 + 1 * p.val = _
    omega
  · show win2_0.index t (1 : Fin 2) * 2048 + 1 * j.val = _
    omega

/-- The rows of scaled features of point t, read off the array. -/
theorem blkH (c : Dev nD) (t : Fin cfg2.N) (j : Fin 2048) (q : Fin 128) :
    (iblk2 V c 1 t : Vec Ideal S2048x128 .bf16) (ix2 j q) = natH (V c main_v44) (t.val % 4 * 2048 + j.val) q.val := by
  obtain ⟨-, -, b0, b1, -⟩ := idx_facts t
  show V c main_v44 (((cfg2.win 1).blk t).view.emb (ix2 j q)) = _
  refine natH_idx (V c main_v44) _ _ _ ?_ ?_
  · show win2_1.index t (0 : Fin 2) * 2048 + 1 * j.val = _
    omega
  · show win2_1.index t (1 : Fin 2) * 128 + 1 * q.val = _
    omega

/-! ## What each point leaves, read off the recursion -/

/-- After the first point of a row the running total is zero plus that point's tile's product. -/
theorem snd_first (c : Dev nD) (t : Fin cfg2.N) (h0 : t.val % 4 = 0) (h1 : ¬t.val % 4 = 3) :
    (tot2 V c t.val t.isLt).2 = k2_pay2 (k2_pay1 (F := Ideal)) (iblk2 V c 0 t) (iblk2 V c 1 t) := by
  rw [tot2_F V c t h0 h1]
  dsimp only
  rw [acc2_F_eq]

/-- After a middle point the running total is what the point before left plus that point's tile's product. -/
theorem snd_middle (c : Dev nD) (t : Fin cfg2.N) (h0 : ¬t.val % 4 = 0) (h1 : ¬t.val % 4 = 3) :
    (tot2 V c t.val t.isLt).2 = (k2_pay2 (tot2 V c (t.val - 1) (Nat.lt_of_le_of_lt (Nat.sub_le _ _) t.isLt)).2 (iblk2 V c 0 t) (iblk2 V c 1 t)) := by
  rw [tot2_M V c t h0 h1]
  dsimp only
  rw [acc2_M_eq]

/-- After the last point of a row likewise, -/
theorem snd_last (c : Dev nD) (t : Fin cfg2.N) (h0 : ¬t.val % 4 = 0) (h1 : t.val % 4 = 3) :
    (tot2 V c t.val t.isLt).2 = (k2_pay2 (tot2 V c (t.val - 1) (Nat.lt_of_le_of_lt (Nat.sub_le _ _) t.isLt)).2 (iblk2 V c 0 t) (iblk2 V c 1 t)) := by
  rw [tot2_L V c t h0 h1]
  dsimp only
  rw [acc2_L_eq]

/-- and the result's staging buffer holds that total scaled by the column block and with the bias row added. -/
theorem fst_last (c : Dev nD) (t : Fin cfg2.N) (h0 : ¬t.val % 4 = 0) (h1 : t.val % 4 = 3) :
    (tot2 V c t.val t.isLt).1 = k2_pay3 (k2_pay2 (tot2 V c (t.val - 1) (Nat.lt_of_le_of_lt (Nat.sub_le _ _) t.isLt)).2 (iblk2 V c 0 t) (iblk2 V c 1 t)) (iblk2 V c 2 t) (iblk2 V c 3 t) := by
  rw [tot2_L V c t h0 h1]
  dsimp only
  rw [out2_L_eq]

/-! ## The running total in closed form -/

/-- The first point of a row leaves its own tile's product in the running total. -/
theorem acc_first (c : Dev nD) (t : Fin cfg2.N) (h0 : t.val % 4 = 0) (p : Fin 2048) (q : Fin 128) :
    (tot2 V c t.val t.isLt).2 (ix2 p q) = tile (V c main_v36) (V c main_v44) (t.val / 4 * 2048) (t.val % 4 * 2048) p q := by
  have h1 : ¬t.val % 4 = 3 := by omega
  rw [snd_first V c t h0 h1]
  refine (pay2_tile (V c main_v36) (V c main_v44) (k2_pay1 (F := Ideal)) (iblk2 V c 0 t) (iblk2 V c 1 t) (t.val / 4 * 2048) (t.val % 4 * 2048) p q
    (blkA V c t p) (fun j => blkH V c t j q)).trans ?_
  exact (congrArg (· + tile (V c main_v36) (V c main_v44) (t.val / 4 * 2048) (t.val % 4 * 2048) p q) (k2_pay1_apply p q)).trans (zero_add _)

/-- Every other point adds its tile's product to what the point before left. -/
theorem acc_next (c : Dev nD) (t : Fin cfg2.N) (h0 : ¬t.val % 4 = 0) (p : Fin 2048) (q : Fin 128) :
    (tot2 V c t.val t.isLt).2 (ix2 p q)
      = (tot2 V c (t.val - 1) (Nat.lt_of_le_of_lt (Nat.sub_le _ _) t.isLt)).2 (ix2 p q) + tile (V c main_v36) (V c main_v44) (t.val / 4 * 2048) (t.val % 4 * 2048) p q := by
  by_cases h1 : t.val % 4 = 3
  · rw [snd_last V c t h0 h1]
    exact pay2_tile (V c main_v36) (V c main_v44) (tot2 V c (t.val - 1) (Nat.lt_of_le_of_lt (Nat.sub_le _ _) t.isLt)).2 (iblk2 V c 0 t) (iblk2 V c 1 t) (t.val / 4 * 2048) (t.val % 4 * 2048) p q
      (blkA V c t p) (fun j => blkH V c t j q)
  · rw [snd_middle V c t h0 h1]
    exact pay2_tile (V c main_v36) (V c main_v44) (tot2 V c (t.val - 1) (Nat.lt_of_le_of_lt (Nat.sub_le _ _) t.isLt)).2 (iblk2 V c 0 t) (iblk2 V c 1 t) (t.val / 4 * 2048) (t.val % 4 * 2048) p q
      (blkA V c t p) (fun j => blkH V c t j q)

/-- After position n the running total holds, at (p, q), the sum of the tiles 0 … n % 4 of row n / 4 of the grid. -/
theorem running_total (c : Dev nD) : ∀ (n : ℕ) (hn : n < cfg2.N) (p : Fin 2048) (q : Fin 128),
    (tot2 V c n hn).2 (ix2 p q) = partialSum (V c main_v36) (V c main_v44) n p q := by
  intro n
  induction n with
  | zero =>
    intro hn p q
    refine (acc_first V c ⟨0, hn⟩ rfl p q).trans ?_
    exact (Finset.sum_range_one (fun s => tile (V c main_v36) (V c main_v44) (0 / 4 * 2048) (s * 2048) p q)).symm
  | succ n ih =>
    intro hn p q
    by_cases h0 : (n + 1) % 4 = 0
    · refine (acc_first V c ⟨n + 1, hn⟩ h0 p q).trans ?_
      show tile (V c main_v36) (V c main_v44) ((n + 1) / 4 * 2048) ((n + 1) % 4 * 2048) p q
        = ∑ s ∈ Finset.range ((n + 1) % 4 + 1), tile (V c main_v36) (V c main_v44) ((n + 1) / 4 * 2048) (s * 2048) p q
      rw [h0]
      exact (Finset.sum_range_one (fun s => tile (V c main_v36) (V c main_v44) ((n + 1) / 4 * 2048) (s * 2048) p q)).symm
    · refine (acc_next V c ⟨n + 1, hn⟩ h0 p q).trans ?_
      have e1 : (n + 1) / 4 = n / 4 := by omega
      have e2 : (n + 1) % 4 = n % 4 + 1 := by omega
      show (tot2 V c n (Nat.lt_of_succ_lt hn)).2 (ix2 p q) + tile (V c main_v36) (V c main_v44) ((n + 1) / 4 * 2048) ((n + 1) % 4 * 2048) p q
        = ∑ s ∈ Finset.range ((n + 1) % 4 + 1), tile (V c main_v36) (V c main_v44) ((n + 1) / 4 * 2048) (s * 2048) p q
      rw [Finset.sum_range_succ, ih (Nat.lt_of_succ_lt hn) p q, e1, e2]
      rfl

/-! ## What a last point writes back, and the array after the region -/

/-- The result's staging buffer after the last point of a row, at a local index, is the aggregation at the array index that
    local index is written to. -/
theorem out_last (c : Dev nD) (t : Fin cfg2.N) (h1 : t.val % 4 = 3) (y : S2048x128.Idx) :
    (tot2 V c t.val t.isLt).1 y = aggOf (V c main_v36) (V c main_v44) (V c main_v41) (V c main_v45) (((cfg2.win 4).blk t).view.emb y) := by
  have h0 : ¬t.val % 4 = 0 := by omega
  obtain ⟨a0, a1, b0, b1, d0, d1, e0, e1, g0, g1⟩ := idx_facts t
  rw [fst_last V c t h0 h1]
  refine (congrArg (k2_pay3 (k2_pay2 (tot2 V c (t.val - 1) (Nat.lt_of_le_of_lt (Nat.sub_le _ _) t.isLt)).2 (iblk2 V c 0 t) (iblk2 V c 1 t)) (iblk2 V c 2 t) (iblk2 V c 3 t)) (eq_ix2 y)).trans ?_
  refine (k2_pay3_apply (k2_pay2 (tot2 V c (t.val - 1) (Nat.lt_of_le_of_lt (Nat.sub_le _ _) t.isLt)).2 (iblk2 V c 0 t) (iblk2 V c 1 t)) (iblk2 V c 2 t) (iblk2 V c 3 t) (y 0) (y 1)).trans ?_
  refine agg_point (V c main_v36) (V c main_v44) (V c main_v41) (V c main_v45) _ _ _ (((cfg2.win 4).blk t).view.emb y) t.val (y 0) (y 1) h1 ?_ ?_ ?_ ?_ ?_
  · show win2_4.index t (0 : Fin 2) * 2048 + 1 * (y 0).val = _
    omega
  · show win2_4.index t (1 : Fin 2) * 128 + 1 * (y 1).val = _
    omega
  · refine Eq.trans ?_ (running_total V c t.val t.isLt (y 0) (y 1))
    exact (congrFun (snd_last V c t h0 h1) (ix2 (y 0) (y 1))).symm
  · show V c main_v41 (((cfg2.win 2).blk t).view.emb (ix2 (y 0) (0 : Fin 1)))
      = V c main_v41 (ix2 ((((cfg2.win 4).blk t).view.emb y) 0) (0 : Fin 1))
    refine congrArg (V c main_v41) (funext fun a => Fin.ext ?_)
    match a with
    | ⟨0, _⟩ =>
      show win2_2.index t (0 : Fin 2) * 2048 + 1 * (y 0).val = win2_4.index t (0 : Fin 2) * 2048 + 1 * (y 0).val
      omega
    | ⟨1, _⟩ =>
      show win2_2.index t (1 : Fin 2) * 1 + 1 * 0 = 0
      omega
  · show V c main_v45 (((cfg2.win 3).blk t).view.emb (ix2 (0 : Fin 1) (y 1)))
      = V c main_v45 (ix2 (0 : Fin 1) ((((cfg2.win 4).blk t).view.emb y) 1))
    refine congrArg (V c main_v45) (funext fun a => Fin.ext ?_)
    match a with
    | ⟨0, _⟩ =>
      show win2_3.index t (0 : Fin 2) * 1 + 1 * 0 = 0
      omega
    | ⟨1, _⟩ =>
      show win2_3.index t (1 : Fin 2) * 128 + 1 * (y 1).val = win2_4.index t (1 : Fin 2) * 128 + 1 * (y 1).val
      omega

/-- What a point that writes back writes is its block of the aggregation of the arrays as the region finds them. -/
theorem flushed4_eq (c : Dev nD) (t : Fin cfg2.N) (hf : (cfg2.win 4).flush t = true) :
    (dat2 (F := Ideal) V c).flushed 4 t
      = ((cfg2.win 4).blk t).view.read (Elt Ideal) (aggOf (V c main_v36) (V c main_v44) (V c main_v41) (V c main_v45)) := by
  have h1 : t.val % 4 = 3 := (flush2_4 t).mp hf
  show (cfg2.win 4).cut (grid2.coords t) ((dat2 (F := Ideal) V c).after 4 t) = _
  rw [after2_4]
  funext y
  exact out_last V c t h1 y

/-- An index of the result is in point t's block iff each coordinate is in the block's range on its axis. -/
theorem mem_blk4 (t : Fin cfg2.N) (i : S8192x128.Idx) :
    i ∈ ((cfg2.win 4).blk t).view.set
      ↔ ∀ a : Fin 2, win2_4.index t a * S2048x128.size a ≤ (i a).val
          ∧ (i a).val < win2_4.index t a * S2048x128.size a + S2048x128.size a := by
  show i ∈ ((View.whole main_v46).slice (win2_4.rect t)).set ↔ _
  rw [View.set_slice_whole, Rect.mem_set_unit]
  exact Iff.rfl

/-- Row r of the result is in the block of the last point of row r / 2048 of the grid, and that point writes its block back. -/
theorem cover4 (i : S8192x128.Idx) :
    ∃ t : Fin cfg2.N, (cfg2.win 4).flush t = true ∧ i ∈ ((cfg2.win 4).blk t).view.set := by
  have hi0 : (i 0).val < 8192 := (i 0).isLt
  have hi1 : (i 1).val < 128 := (i 1).isLt
  obtain ⟨t, ht, ht0, ht1⟩ := idx_onto ⟨(i 0).val / 2048, by omega⟩
  have q0 : win2_4.index t (0 : Fin 2) = (i 0).val / 2048 := ht0
  refine ⟨t, (flush2_4 t).mpr ht, ?_⟩
  rw [mem_blk4]
  intro a
  match a with
  | ⟨0, _⟩ =>
    show win2_4.index t (0 : Fin 2) * 2048 ≤ (i 0).val ∧ (i 0).val < win2_4.index t (0 : Fin 2) * 2048 + 2048
    omega
  | ⟨1, _⟩ =>
    show win2_4.index t (1 : Fin 2) * 128 ≤ (i 1).val ∧ (i 1).val < win2_4.index t (1 : Fin 2) * 128 + 128
    omega

/-- The result array after the region: the normalised aggregation of the arrays the region found. -/
theorem agg_array (c : Dev nD) :
    (dat2 (F := Ideal) V c).arrAt 4 cfg2.N = aggOf (V c main_v36) (V c main_v44) (V c main_v41) (V c main_v45) :=
  (dat2 (F := Ideal) V c).arrAt_eq_of_cover 4 _ (fun t hf => flushed4_eq V c t hf) cover4

/-- The same at one index. -/
theorem agg_array_apply (c : Dev nD) (j : S8192x128.Idx) :
    (dat2 (F := Ideal) V c).arrAt 4 cfg2.N j = aggOf (V c main_v36) (V c main_v44) (V c main_v41) (V c main_v45) j :=
  congrFun (agg_array V c) j

end Cert.KernelIdeal.GcnAgg

end
-- ==== Proof.BridgeValue.lean ====
/-
  The idealized kernel program's result, entry by entry, as a function of its arguments: the normalising column is
  `dinv` of the adjacency's row sums, the scaled feature rows are `lin · dinv`, and the last region leaves
  `(∑ k, A[i,k] · (lin k o · dinv k)) · dinv i + bias o` — the specification's `aggScaled`.
-/
import proofs.«133814_j53309134078171_1_alg».proof.Proof.BridgeHost
import proofs.«133814_j53309134078171_1_alg».proof.Proof.IdealDegreeValue
import proofs.«133814_j53309134078171_1_alg».proof.Proof.IdealSpmmValue

set_option maxRecDepth 16384

noncomputable section

namespace Cert.Gcn.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The adjacency matrix, a function of the edge list. -/
abbrev adjM : Cert.Gcn.SA.Idx → EReal := Cert.Gcn.RefSide.adj (argE m c)

/-- The second region leaves the adjacency's row sums. -/
theorem deg_entry (i : Fin 8192) :
    (bd4 (F := Ideal) m c (Proc.devRef .tc main_v37) : S8192x1.Idx → EReal) (ix2 i (0 : Fin 1)) = Cert.Gcn.deg (adjM m c) i := by
  have h := congrFun ((bd4_arr (F := Ideal) m c 1).trans (Cert.KernelIdeal.GcnDegree.degree_array (ent1 m) c)) (ix2 i (0 : Fin 1))
  refine h.trans ?_
  rw [Cert.KernelIdeal.GcnDegree.degOf_apply, adj_entry]
  rfl

/-- The normalising column. -/
theorem dinv_entry (i : Fin 8192) :
    (ent2 (F := Ideal) m c main_v41 : S8192x1.Idx → EReal) (ix2 i (0 : Fin 1))
      = Cert.Gcn.dinv (adjM m c) Cert.Gcn.RefSide.eps Cert.Gcn.RefSide.negHalf i := by
  refine (Cert.Gcn.HostOps.v41_apply (bd4 m c) i).trans ?_
  rw [deg_entry]
  rfl

/-- The scaled feature rows. -/
theorem scaled_entry (j : Fin 8192) (o : Fin 128) :
    (ent2 (F := Ideal) m c main_v44 : S8192x128.Idx → EReal) (ix2 j o)
      = Cert.Gcn.lin (argX m c) (argW m c) (argB m c) j o * Cert.Gcn.dinv (adjM m c) Cert.Gcn.RefSide.eps Cert.Gcn.RefSide.negHalf j := by
  refine (Cert.Gcn.HostOps.v44_apply (bd4 m c) j o).trans ?_
  rw [bd4_lin, lin_array]
  exact congrArg _ (dinv_entry m c j)

/-- The second bias vector as a row. -/
theorem bias_entry (o : Fin 128) : (ent2 (F := Ideal) m c main_v45 : S1x128.Idx → EReal) (ix2 (0 : Fin 1) o) = argBias m c (ix1 o) :=
  (Cert.Gcn.HostOps.v45_apply (bd4 m c) o).trans (congrFun (bd4_bias m c) (ix1 o))

/-- The adjacency matrix reaches the third region unchanged. -/
theorem adj_third : (ent2 (F := Ideal) m c main_v36 : S8192x8192.Idx → EReal) = adjM m c :=
  (Cert.Gcn.HostOps.v36_unchanged (bd4 m c)).trans (bd4_adj m c)

/-- The last region's formula over arrays known entry by entry is the specification's `aggScaled`. -/
theorem aggOf_pointwise (A : S8192x8192.Idx → EReal) (H : S8192x128.Idx → EReal) (D : S8192x1.Idx → EReal) (B : S1x128.Idx → EReal)
    (x : Cert.Gcn.SX.Idx → EReal) (w : Cert.Gcn.SW.Idx → EReal) (b bias : Cert.Gcn.SB.Idx → EReal) (a : Cert.Gcn.SA.Idx → EReal) (e p : EReal)
    (hA : A = a) (hH : ∀ k o, H (ix2 k o) = Cert.Gcn.lin x w b k o * Cert.Gcn.dinv a e p k)
    (hD : ∀ i, D (ix2 i (0 : Fin 1)) = Cert.Gcn.dinv a e p i) (hB : ∀ o, B (ix2 (0 : Fin 1) o) = bias (ix1 o)) (i : Fin 8192) (o : Fin 128) :
    Cert.KernelIdeal.GcnAgg.aggOf A H D B (ix2 i o) = Cert.Gcn.aggScaled x w b bias a e p i o := by
  subst hA
  show (∑ k : Fin 8192, A (ix2 i k) * H (ix2 k o)) * D (ix2 i (0 : Fin 1)) + B (ix2 (0 : Fin 1) o) = _
  simp only [hH, hD, hB]
  unfold Cert.Gcn.aggScaled
  rfl

/-- The result array, entry by entry. -/
theorem result_entry (i : Fin 8192) (o : Fin 128) :
    ((dat2 (F := Ideal) (ent2 m) c).arrAt 4 cfg2.N : S8192x128.Idx → EReal) (ix2 i o)
      = Cert.Gcn.aggScaled (argX m c) (argW m c) (argB m c) (argBias m c) (adjM m c) Cert.Gcn.RefSide.eps Cert.Gcn.RefSide.negHalf i o :=
  (Cert.KernelIdeal.GcnAgg.agg_array_apply (ent2 m) c (ix2 i o)).trans
    (aggOf_pointwise _ _ _ _ _ _ _ _ _ _ _ (adj_third m c) (scaled_entry m c) (dinv_entry m c) (bias_entry m c) i o)

end Cert.Gcn.Bridge

end
-- ==== Proof.Algebra.lean ====
/-
  The two arrangements of the normalised aggregation agree on real data.

  With every entry of `x`, `w`, `b`, `a` and the two constants `e`, `p` real, the linear layer,
  the degrees and the normalising factors are all (coercions of) real numbers; inside the reals the
  identity
      (∑ j, a[i,j] · (lin j o · dinv j)) · dinv i  =  ∑ j, ((dinv i · a[i,j]) · dinv j) · lin j o
  is distributivity of multiplication over a finite sum followed by commutativity, term by term.
  The last bias is added on both sides after that, so it may be any extended real.
-/
import proofs.«133814_j53309134078171_1_alg».proof.Proof.Spec

noncomputable section

namespace Cert.Gcn

open Idealize.ShloMosaic Idealize.ShloMosaic.ValueIdx

/-- A finite sum of coerced reals is the coercion of the real sum. -/
theorem ereal_coe_sum {ι : Type} (s : Finset ι) (f : ι → ℝ) :
    (∑ i ∈ s, ((f i : ℝ) : EReal)) = ((∑ i ∈ s, f i : ℝ) : EReal) := by
  classical
  refine Finset.induction_on s ?_ ?_
  · simp
  · intro k t hk ih
    rw [Finset.sum_insert hk, Finset.sum_insert hk, ih, EReal.coe_add]

variable (x : SX.Idx → EReal) (w : SW.Idx → EReal) (b : SB.Idx → EReal) (bias : SB.Idx → EReal)
  (a : SA.Idx → EReal) (e p : EReal)

/-- The linear layer of real data is real. -/
theorem lin_coe (x' : SX.Idx → ℝ) (w' : SW.Idx → ℝ) (b' : SB.Idx → ℝ)
    (hx : ∀ i, x i = (x' i : EReal)) (hw : ∀ i, w i = (w' i : EReal))
    (hb : ∀ i, b i = (b' i : EReal)) (j : Fin 8192) (o : Fin 128) :
    lin x w b j o
      = (((∑ d : Fin 128, x' (ix2 j d) * w' (ix2 o d)) + b' (ix1 o) : ℝ) : EReal) := by
  unfold lin
  simp only [hx, hw, hb, ← EReal.coe_mul, ereal_coe_sum, ← EReal.coe_add]

/-- The degrees of a real adjacency matrix are real. -/
theorem deg_coe (a' : SA.Idx → ℝ) (ha : ∀ i, a i = (a' i : EReal)) (i : Fin 8192) :
    deg a i = ((∑ j : Fin 8192, a' (ix2 i j) : ℝ) : EReal) := by
  unfold deg
  simp only [ha, ereal_coe_sum]

/-- The normalising factors of a real adjacency matrix, with real constants, are real. -/
theorem dinv_coe (a' : SA.Idx → ℝ) (e' p' : ℝ) (ha : ∀ i, a i = (a' i : EReal)) (i : Fin 8192) :
    dinv a (e' : EReal) (p' : EReal) i
      = ((Real.rpow ((∑ j : Fin 8192, a' (ix2 i j)) + e') p' : ℝ) : EReal) := by
  unfold dinv
  rw [deg_coe a a' ha i, ← EReal.coe_add]
  rfl

/-- Scaling the rows of the linear layer, aggregating and scaling the result is the same as scaling
the adjacency on both sides and then aggregating, when every entry involved is real. -/
theorem aggScaled_eq_aggDense
    (hx : ∀ i, ∃ r : ℝ, x i = (r : EReal)) (hw : ∀ i, ∃ r : ℝ, w i = (r : EReal))
    (hb : ∀ i, ∃ r : ℝ, b i = (r : EReal)) (ha : ∀ i, ∃ r : ℝ, a i = (r : EReal))
    (he : ∃ r : ℝ, e = (r : EReal)) (hp : ∃ r : ℝ, p = (r : EReal))
    (i : Fin 8192) (o : Fin 128) :
    aggScaled x w b bias a e p i o = aggDense x w b bias a e p i o := by
  obtain ⟨e', rfl⟩ := he
  obtain ⟨p', rfl⟩ := hp
  choose x' hx' using hx
  choose w' hw' using hw
  choose b' hb' using hb
  choose a' ha' using ha
  unfold aggScaled aggDense
  refine congrArg (· + bias (ix1 o)) ?_
  simp only [lin_coe x w b x' w' b' hx' hw' hb', dinv_coe a a' e' p' ha', ha', ← EReal.coe_mul,
    ereal_coe_sum]
  refine congrArg (fun r : ℝ => (r : EReal)) ?_
  rw [Finset.sum_mul]
  refine Finset.sum_congr rfl fun j _ => ?_
  ring

end Cert.Gcn

end
-- ==== Proof.Finite.lean ====
/-
  The finiteness precondition, read back.

  The precondition computes, for each of the four float inputs, "every entry's absolute value is below
  +infinity", and takes the conjunction. If the result is 1 then every conjunct is 1, every comparison under
  each conjunct is 1, and an extended real whose absolute value `max v (-v)` is below the top element is
  neither infinity: it is a real number.
-/
import proofs.«133814_j53309134078171_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Gcn

open Idealize.ShloMosaic Cert.Pre_finite_inputs

/-- The pattern of +infinity denotes the top element. -/
theorem ofBits_f32_inf : Ideal.ofBits .f32 0x7F800000#32 = ⊤ := by simp [Ideal.ofBits, Ideal.ieee]

/-- An extended real whose absolute value is strictly below +infinity is a real number. -/
theorem real_of_abs_lt_inf (v : EReal)
    (h : Ideal.cmp .olt (max v (-v)) (Ideal.ofBits .f32 0x7F800000#32) = 1#1) : ∃ r : ℝ, v = (r : EReal) := by
  rw [ofBits_f32_inf] at h
  induction v using EReal.rec with
  | bot => simp [Ideal.cmp] at h
  | coe r => exact ⟨r, rfl⟩
  | top => simp [Ideal.cmp] at h

/-- The shape of rank 0 has one index. -/
instance subsingleton_S_Idx : Subsingleton S_.Idx := ⟨fun a b => funext fun d => d.elim0⟩

/-- If the finiteness predicate holds, every entry of the four float inputs is a real number. -/
theorem finite_inputs_real [Facts] (x : FVec Ideal S8192x128 .f32) (ei : IVec S2x262144 32)
    (w : FVec Ideal S128x128 .f32) (b bias : FVec Ideal S128 .f32)
    (h : fn (F := Ideal) x ei w b bias = fun _ => 1#1) :
    (∀ i, ∃ r : ℝ, x i = (r : EReal)) ∧ (∀ i, ∃ r : ℝ, w i = (r : EReal)) ∧
      (∀ i, ∃ r : ℝ, b i = (r : EReal)) ∧ (∀ i, ∃ r : ℝ, bias i = (r : EReal)) := by
  have h0 := congrFun h ValueIdx.ix0
  unfold fn fn_part1 at h0
  dsimp only at h0
  unfold andi at h0
  rw [IntOp.andi_eq_one, IntOp.andi_eq_one, IntOp.andi_eq_one] at h0
  obtain ⟨⟨⟨h3, h7⟩, h12⟩, h17⟩ := h0
  refine ⟨fun i => ?_, fun i => ?_, fun i => ?_, fun i => ?_⟩
  · exact real_of_abs_lt_inf _ (Host.reduce_andi_all _ _ _ _ _ h3 i)
  · exact real_of_abs_lt_inf _ (Host.reduce_andi_all _ _ _ _ _ h7 i)
  · exact real_of_abs_lt_inf _ (Host.reduce_andi_all _ _ _ _ _ h12 i)
  · exact real_of_abs_lt_inf _ (Host.reduce_andi_all _ _ _ _ _ h17 i)

end Cert.Gcn

end
-- ==== Proof.lean ====
/-
  The certificate of the graph-convolution layer. The kernel program computes, in three tiled passes over a dense
  adjacency matrix built from the edge list, `D^(-1/2) · A · (D^(-1/2) · h) + bias` with `h = x · Wᵀ + b` and `D` the
  diagonal of the row sums of `A` plus a small constant; the reference scales `A` on both sides and multiplies by `h`.
  Over the extended reals the two agree whenever the float inputs are finite: every entry of `A` is 0 or 1, the row sums
  and the normalising factors are real numbers, and for real numbers the scaling distributes over the sum.
  The three frames: each kernel program as a chain of host stretches and kernel regions (a linear layer; a row-sum
  accumulated over four tiles per row block; an aggregation accumulated the same way), the reference by its run.
-/
import proofs.«133814_j53309134078171_1_alg».proof.Defs
import proofs.«133814_j53309134078171_1_alg».proof.Proof.Gen.Kernel
import proofs.«133814_j53309134078171_1_alg».proof.Proof.Gen.KernelIdeal
import proofs.«133814_j53309134078171_1_alg».proof.Proof.Gen.ReferenceIdeal
import proofs.«133814_j53309134078171_1_alg».proof.Proof.Gen.ReferenceIdeal.Run
import proofs.«133814_j53309134078171_1_alg».proof.Proof.Gen.Pre_finite_inputs
import proofs.«133814_j53309134078171_1_alg».proof.Proof.BitsRun
import proofs.«133814_j53309134078171_1_alg».proof.Proof.IdealRun
import proofs.«133814_j53309134078171_1_alg».proof.Proof.BridgeValue
import proofs.«133814_j53309134078171_1_alg».proof.Proof.RefSide
import proofs.«133814_j53309134078171_1_alg».proof.Proof.Algebra
import proofs.«133814_j53309134078171_1_alg».proof.Proof.Finite
import proofs.«133814_j53309134078171_1_alg».proof.Proof.Adjacency
import proofs.«133814_j53309134078171_1_alg».proof.Proof.KernelAdjacency
import Idealize.ShloMosaic.Adequacy
import Idealize.ShloMosaic.Init

noncomputable section

namespace Cert.Proof

open Idealize.ShloMosaic Idealize.ShloMosaic.TcCoe Idealize.SL.Sem
open Cert.Gcn Cert.Gcn.Bridge

/-- The word-level kernel program runs to the end, nothing faulting, its arguments unchanged. -/
theorem frame_kernel : Cert.frame_Kernel := fun m ρ _ => Cert.Kernel.Gen.whole_frame m ρ
/-- The same program read over the extended reals. -/
theorem frame_kernel_ideal : Cert.frame_KernelIdeal := fun m ρ _ => Cert.KernelIdeal.Gen.whole_frame m ρ
/-- The reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)
/-- The idealization rewrote no operation. -/
theorem preserves : Cert.preserves_Kernel_KernelIdeal := trivial

/-- Over the extended reals the kernel program ends with `aggScaled` of its arguments (its three regions and the host
    operations between them, read back to the arguments) and the reference with `aggDense` of arguments that agree; the
    float inputs being finite, every entry of the adjacency 0 or 1 and the two constants real numbers, the two are equal. -/
theorem algebraic : Cert.algebraic_KernelIdeal_ReferenceIdeal := by
  intro m ρ m' ρ' hpre hagree
  refine ⟨fun c => fun j => aggDense (argX m c) (argW m c) (argB m c) (argBias m c) (adjM m c) RefSide.eps RefSide.negHalf (j 0) (j 1), ?_, ?_⟩
  · refine (θ_run Cert.KernelIdeal.defs _ _).mono (fun r h c => ⟨?_, (h c).2⟩) (Cert.KernelIdeal.Gen.whole_result (F := Ideal) m ρ)
    rw [(h c).1]
    funext j
    obtain ⟨i, o, rfl⟩ : ∃ (i : Fin 8192) (o : Fin 128), j = Idealize.ShloMosaic.ValueIdx.ix2 i o :=
      ⟨j 0, j 1, Idealize.ShloMosaic.ValueIdx.eq_ix2 j⟩
    refine (result_entry m c i o).trans ?_
    obtain ⟨hx, hw, hb, _⟩ := finite_inputs_real _ _ _ _ _ (hpre c)
    exact aggScaled_eq_aggDense _ _ _ _ _ _ _ hx hw hb (KernelAdj.adj_real _) ofBits_f32_358637BD_real ofBits_f32_BF000000_real i o
  · refine (θ_run Cert.ReferenceIdeal.defs _ _).mono (fun r h c => ⟨?_, (h c).2⟩) (RefSide.ref_run m' ρ')
    rw [(h c).1, (hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
